-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v107)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v107) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v171) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S2x100000 : Shape := ⟨2, ![2, 100000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg14 : FVec F S128 .f32) (main_arg15 : FVec F S128 .f32) (main_arg16 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg14
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg15
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg16
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg10 : FVec F S128x128 .f32) (main_arg11 : FVec F S128x128 .f32) (main_arg12 : FVec F S128x128 .f32) (main_arg13 : FVec F S128 .f32) (main_arg14 : FVec F S128 .f32) (main_arg15 : FVec F S128 .f32) (main_arg16 : FVec F S128 .f32) (main_v33 : IVec S_ 1) : IVec S_ 1 :=
  let main_v34 : FVec F S128x128 .f32 := Host.absf main_arg10
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg11
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg12
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg13
  let main_cst_18 : FVec F S_ .f32 := constant S_ .f32 0x7F800000#32
  let main_v50 : FVec F S128 .f32 := broadcastInDim S128 ![] bcast_S_S128 main_cst_18
  fn_part3 (F := F) main_arg14 main_arg15 main_arg16 main_v48 main_v49 main_v50

def fn_part1 {F : FTy → Type} [FloatOps F] (main_arg7 : FVec F S128x128 .f32) (main_arg8 : FVec F S128x128 .f32) (main_arg9 : FVec F S128x128 .f32) (main_arg10 : FVec F S128x128 .f32) (main_arg11 : FVec F S128x128 .f32) (main_arg12 : FVec F S128x128 .f32) (main_arg13 : FVec F S128 .f32) (main_arg14 : FVec F S128 .f32) (main_arg15 : FVec F S128 .f32) (main_arg16 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg7
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg8
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg9
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg10 main_arg11 main_arg12 main_arg13 main_arg14 main_arg15 main_arg16 main_v33

def fn {F : FTy → Type} [FloatOps F] (main_arg0 : FVec F S100000x128 .f32) (main_arg1 : FVec F S100000x128 .f32) (main_arg2 : IVec S2x1600000 32) (main_arg3 : IVec S2x1600000 32) (main_arg4 : IVec S2x100000 32) (main_arg5 : FVec F S128x128 .f32) (main_arg6 : FVec F S128x128 .f32) (main_arg7 : FVec F S128x128 .f32) (main_arg8 : FVec F S128x128 .f32) (main_arg9 : FVec F S128x128 .f32) (main_arg10 : FVec F S128x128 .f32) (main_arg11 : FVec F S128x128 .f32) (main_arg12 : FVec F S128x128 .f32) (main_arg13 : FVec F S128 .f32) (main_arg14 : FVec F S128 .f32) (main_arg15 : FVec F S128 .f32) (main_arg16 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x128 .f32 := Host.absf main_arg5
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg7 main_arg8 main_arg9 main_arg10 main_arg11 main_arg12 main_arg13 main_arg14 main_arg15 main_arg16 main_v13 main_v16
-- ==== Kernel.lean ====
abbrev S100000x128 : Shape := ⟨2, ![100000, 128]⟩
abbrev S2x1600000 : Shape := ⟨2, ![2, 1600000]⟩
abbrev S2x100000 : Shape := ⟨2, ![2, 100000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S4000x128 : Shape := ⟨2, ![4000, 128]⟩
abbrev S4000x1 : Shape := ⟨2, ![4000, 1]⟩
abbrev S1x128 : Shape := ⟨2, ![1, 128]⟩
abbrev S4000 : Shape := ⟨1, ![4000]⟩
abbrev S1x100000 : Shape := ⟨2, ![1, 100000]⟩

abbrev nBuf : Space → Nat
  | .hbm => 150
  | .vmem => 44
  | .smem => 0
  | _ => 0

abbrev hbmTy0_0 (i : Nat) : BufTy := match i % 128 with
  | 0 => ⟨S100000x128, .f32⟩
  | 1 => ⟨S100000x128, .f32⟩
  | 2 => ⟨S2x1600000, .i32⟩
  | 3 => ⟨S2x1600000, .i32⟩
  | 4 => ⟨S2x100000, .i32⟩
  | 5 => ⟨S128x128, .f32⟩
  | 6 => ⟨S128x128, .f32⟩
  | 7 => ⟨S128x128, .f32⟩
  | 8 => ⟨S128x128, .f32⟩
  | 9 => ⟨S128x128, .f32⟩
  | 10 => ⟨S128x128, .f32⟩
  | 11 => ⟨S128x128, .f32⟩
  | 12 => ⟨S128x128, .f32⟩
  | 13 => ⟨S128, .f32⟩
  | 14 => ⟨S128, .f32⟩
  | 15 => ⟨S128, .f32⟩
  | 16 => ⟨S128, .f32⟩
  | 17 => ⟨S1x1600000, .i32⟩
  | 18 => ⟨S1600000, .i32⟩
  | 19 => ⟨S_, .f32⟩
  | 20 => ⟨S1600000, .f32⟩
  | 21 => ⟨S_, .f32⟩
  | 22 => ⟨S100000, .f32⟩
  | 23 => ⟨S1600000x1, .i32⟩
  | 24 => ⟨S100000, .f32⟩
  | 25 => ⟨S_, .f32⟩
  | 26 => ⟨S100000, .f32⟩
  | 27 => ⟨S100000, .f32⟩
  | 28 => ⟨S_, .f32⟩
  | 29 => ⟨S100000, .f32⟩
  | 30 => ⟨S100000, .f32⟩
  | 31 => ⟨S100000x1, .f32⟩
  | 32 => ⟨S1x1600000, .i32⟩
  | 33 => ⟨S1600000, .i32⟩
  | 34 => ⟨S_, .f32⟩
  | 35 => ⟨S1600000, .f32⟩
  | 36 => ⟨S_, .f32⟩
  | 37 => ⟨S100000, .f32⟩
  | 38 => ⟨S1600000x1, .i32⟩
  | 39 => ⟨S100000, .f32⟩
  | 40 => ⟨S_, .f32⟩
  | 41 => ⟨S100000, .f32⟩
  | 42 => ⟨S100000, .f32⟩
  | 43 => ⟨S_, .f32⟩
  | 44 => ⟨S100000, .f32⟩
  | 45 => ⟨S100000, .f32⟩
  | 46 => ⟨S100000x1, .f32⟩
  | 47 => ⟨S1x1600000, .i32⟩
  | 48 => ⟨S1600000, .i32⟩
  | 49 => ⟨S1x1600000, .i32⟩
  | 50 => ⟨S1600000, .i32⟩
  | 51 => ⟨S100000x128, .bf16⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1600000x128, .bf16⟩
  | 61 => ⟨S1600000x128, .f32⟩
  | 62 => ⟨S_, .f32⟩
  | 63 => ⟨S100000x128, .f32⟩
  | 64 => ⟨S1600000x1, .i32⟩
  | 65 => ⟨S100000x128, .f32⟩
  | 66 => ⟨S100000x128, .bf16⟩
  | 67 => ⟨S1x1600000, .i32⟩
  | 68 => ⟨S1600000, .i32⟩
  | 69 => ⟨S1x1600000, .i32⟩
  | 70 => ⟨S1600000, .i32⟩
  | 71 => ⟨S100000x128, .bf16⟩
  | 72 => ⟨S_, .i32⟩
  | 73 => ⟨S1600000, .i32⟩
  | 74 => ⟨S1600000, .i1⟩
  | 75 => ⟨S_, .i32⟩
  | 76 => ⟨S1600000, .i32⟩
  | 77 => ⟨S1600000, .i32⟩
  | 78 => ⟨S1600000, .i32⟩
  | 79 => ⟨S1600000x1, .i32⟩
  | 80 => ⟨S1600000x128, .bf16⟩
  | 81 => ⟨S1600000x128, .f32⟩
  | 82 => ⟨S_, .f32⟩
  | 83 => ⟨S100000x128, .f32⟩
  | 84 => ⟨S1600000x1, .i32⟩
  | 85 => ⟨S100000x128, .f32⟩
  | 86 => ⟨S100000x128, .bf16⟩
  | 87 => ⟨S1x1600000, .i32⟩
  | 88 => ⟨S1600000, .i32⟩
  | 89 => ⟨S1x1600000, .i32⟩
  | 90 => ⟨S1600000, .i32⟩
  | 91 => ⟨S_, .i32⟩
  | 92 => ⟨S1600000, .i32⟩
  | 93 => ⟨S1600000, .i1⟩
  | 94 => ⟨S_, .i32⟩
  | 95 => ⟨S1600000, .i32⟩
  | 96 => ⟨S1600000, .i32⟩
  | 97 => ⟨S1600000, .i32⟩
  | 98 => ⟨S1600000x1, .i32⟩
  | 99 => ⟨S1600000x128, .bf16⟩
  | 100 => ⟨S1600000x128, .f32⟩
  | 101 => ⟨S_, .f32⟩
  | 102 => ⟨S100000x128, .f32⟩
  | 103 => ⟨S1600000x1, .i32⟩
  | 104 => ⟨S100000x128, .f32⟩
  | 105 => ⟨S100000x128, .f32⟩
  | 106 => ⟨S1x1600000, .i32⟩
  | 107 => ⟨S1600000, .i32⟩
  | 108 => ⟨S1x1600000, .i32⟩
  | 109 => ⟨S1600000, .i32⟩
  | 110 => ⟨S_, .i32⟩
  | 111 => ⟨S1600000, .i32⟩
  | 112 => ⟨S1600000, .i1⟩
  | 113 => ⟨S_, .i32⟩
  | 114 => ⟨S1600000, .i32⟩
  | 115 => ⟨S1600000, .i32⟩
  | 116 => ⟨S1600000, .i32⟩
  | 117 => ⟨S1600000x1, .i32⟩
  | 118 => ⟨S1600000x128, .bf16⟩
  | 119 => ⟨S1600000x128, .f32⟩
  | 120 => ⟨S_, .f32⟩
  | 121 => ⟨S100000x128, .f32⟩
  | 122 => ⟨S1600000x1, .i32⟩
  | 123 => ⟨S100000x128, .f32⟩
  | 124 => ⟨S100000x128, .f32⟩
  | 125 => ⟨S1x100000, .i32⟩
  | 126 => ⟨S100000, .i32⟩
  | 127 => ⟨S_, .i32⟩
  | _ => ⟨S100000x128, .f32⟩

abbrev hbmTy0_1 (i : Nat) : BufTy := match i % 128 with
  | 0 => ⟨S100000, .i32⟩
  | 1 => ⟨S100000, .i1⟩
  | 2 => ⟨S_, .i32⟩
  | 3 => ⟨S100000, .i32⟩
  | 4 => ⟨S100000, .i32⟩
  | 5 => ⟨S100000, .i32⟩
  | 6 => ⟨S100000x1, .i32⟩
  | 7 => ⟨S100000x128, .f32⟩
  | 8 => ⟨S1x100000, .i32⟩
  | 9 => ⟨S100000, .i32⟩
  | 10 => ⟨S_, .i32⟩
  | 11 => ⟨S100000, .i32⟩
  | 12 => ⟨S100000, .i1⟩
  | 13 => ⟨S_, .i32⟩
  | 14 => ⟨S100000, .i32⟩
  | 15 => ⟨S100000, .i32⟩
  | 16 => ⟨S100000, .i32⟩
  | 17 => ⟨S100000x1, .i32⟩
  | 18 => ⟨S100000x128, .f32⟩
  | 19 => ⟨S100000x128, .f32⟩
  | 20 => ⟨S_, .f32⟩
  | 21 => ⟨S100000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S4000x128, .f32⟩
  | .local _ .vmem, ⟨1, _⟩ => ⟨S4000x128, .f32⟩
  | .local _ .vmem, ⟨2, _⟩ => ⟨S4000x1, .f32⟩
  | .local _ .vmem, ⟨3, _⟩ => ⟨S4000x1, .f32⟩
  | .local _ .vmem, ⟨4, _⟩ => ⟨S4000x128, .f32⟩
  | .local _ .vmem, ⟨5, _⟩ => ⟨S4000x128, .f32⟩
  | .local _ .vmem, ⟨6, _⟩ => ⟨S128x128, .f32⟩
  | .local _ .vmem, ⟨7, _⟩ => ⟨S128, .f32⟩
  | .local _ .vmem, ⟨8, _⟩ => ⟨S128x128, .f32⟩
  | .local _ .vmem, ⟨9, _⟩ => ⟨S4000x128, .bf16⟩
  | .local _ .vmem, ⟨10, _⟩ => ⟨S4000x128, .bf16⟩
  | .local _ .vmem, ⟨11, _⟩ => ⟨S4000x128, .f32⟩
  | .local _ .vmem, ⟨12, _⟩ => ⟨S4000x128, .f32⟩
  | .local _ .vmem, ⟨13, _⟩ => ⟨S4000x1, .f32⟩
  | .local _ .vmem, ⟨14, _⟩ => ⟨S4000x1, .f32⟩
  | .local _ .vmem, ⟨15, _⟩ => ⟨S4000x128, .f32⟩
  | .local _ .vmem, ⟨16, _⟩ => ⟨S4000x128, .f32⟩
  | .local _ .vmem, ⟨17, _⟩ => ⟨S128x128, .f32⟩
  | .local _ .vmem, ⟨18, _⟩ => ⟨S128, .f32⟩
  | .local _ .vmem, ⟨19, _⟩ => ⟨S128x128, .f32⟩
  | .local _ .vmem, ⟨20, _⟩ => ⟨S4000x128, .bf16⟩
  | .local _ .vmem, ⟨21, _⟩ => ⟨S4000x128, .bf16⟩
  | .local _ .vmem, ⟨22, _⟩ => ⟨S4000x128, .f32⟩
  | .local _ .vmem, ⟨23, _⟩ => ⟨S4000x128, .f32⟩
  | .local _ .vmem, ⟨24, _⟩ => ⟨S4000x1, .f32⟩
  | .local _ .vmem, ⟨25, _⟩ => ⟨S4000x1, .f32⟩
  | .local _ .vmem, ⟨26, _⟩ => ⟨S4000x128, .bf16⟩
  | .local _ .vmem, ⟨27, _⟩ => ⟨S4000x128, .bf16⟩
  | .local _ .vmem, ⟨28, _⟩ => ⟨S128x128, .f32⟩
  | .local _ .vmem, ⟨29, _⟩ => ⟨S128, .f32⟩
  | .local _ .vmem, ⟨30, _⟩ => ⟨S128x128, .f32⟩
  | .local _ .vmem, ⟨31, _⟩ => ⟨S4000x128, .f32⟩
  | .local _ .vmem, ⟨32, _⟩ => ⟨S4000x128, .f32⟩
  | .local _ .vmem, ⟨33, _⟩ => ⟨S4000x128, .f32⟩
  | .local _ .vmem, ⟨34, _⟩ => ⟨S4000x128, .f32⟩
  | .local _ .vmem, ⟨35, _⟩ => ⟨S4000x1, .f32⟩
  | .local _ .vmem, ⟨36, _⟩ => ⟨S4000x1, .f32⟩
  | .local _ .vmem, ⟨37, _⟩ => ⟨S4000x128, .bf16⟩
  | .local _ .vmem, ⟨38, _⟩ => ⟨S4000x128, .bf16⟩
  | .local _ .vmem, ⟨39, _⟩ => ⟨S128x128, .f32⟩
  | .local _ .vmem, ⟨40, _⟩ => ⟨S128, .f32⟩
  | .local _ .vmem, ⟨41, _⟩ => ⟨S128x128, .f32⟩
  | .local _ .vmem, ⟨42, _⟩ => ⟨S4000x128, .f32⟩
  | .local _ .vmem, ⟨43, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_cst : Ref sig .tc := ⟨.hbm, 19, rfl⟩
abbrev main_v2 : Ref sig .tc := ⟨.hbm, 20, rfl⟩
abbrev main_cst_0 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_cst_1 : Ref sig .tc := ⟨.hbm, 25, rfl⟩
abbrev main_v6 : Ref sig .tc := ⟨.hbm, 26, rfl⟩
abbrev main_v7 : Ref sig .tc := ⟨.hbm, 27, rfl⟩
abbrev main_cst_2 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst_3 : Ref sig .tc := ⟨.hbm, 34, rfl⟩
abbrev main_v13 : Ref sig .tc := ⟨.hbm, 35, rfl⟩
abbrev main_cst_4 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_cst_5 : Ref sig .tc := ⟨.hbm, 40, rfl⟩
abbrev main_v17 : Ref sig .tc := ⟨.hbm, 41, rfl⟩
abbrev main_v18 : Ref sig .tc := ⟨.hbm, 42, rfl⟩
abbrev main_cst_6 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_c : Ref sig .tc := ⟨.hbm, 52, rfl⟩
abbrev main_v27 : Ref sig .tc := ⟨.hbm, 53, rfl⟩
abbrev main_v28 : Ref sig .tc := ⟨.hbm, 54, rfl⟩
abbrev main_c_7 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_8 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_c_9 : Ref sig .tc := ⟨.hbm, 72, rfl⟩
abbrev main_v44 : Ref sig .tc := ⟨.hbm, 73, rfl⟩
abbrev main_v45 : Ref sig .tc := ⟨.hbm, 74, rfl⟩
abbrev main_c_10 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_11 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_c_12 : Ref sig .tc := ⟨.hbm, 91, rfl⟩
abbrev main_v60 : Ref sig .tc := ⟨.hbm, 92, rfl⟩
abbrev main_v61 : Ref sig .tc := ⟨.hbm, 93, rfl⟩
abbrev main_c_13 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_14 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_c_15 : Ref sig .tc := ⟨.hbm, 110, rfl⟩
abbrev main_v76 : Ref sig .tc := ⟨.hbm, 111, rfl⟩
abbrev main_v77 : Ref sig .tc := ⟨.hbm, 112, rfl⟩
abbrev main_c_16 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_cst_17 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_c_18 : Ref sig .tc := ⟨.hbm, 127, rfl⟩
abbrev main_v90 : Ref sig .tc := ⟨.hbm, 128, rfl⟩
abbrev main_v91 : Ref sig .tc := ⟨.hbm, 129, rfl⟩
abbrev main_c_19 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_c_20 : Ref sig .tc := ⟨.hbm, 138, rfl⟩
abbrev main_v99 : Ref sig .tc := ⟨.hbm, 139, rfl⟩
abbrev main_v100 : Ref sig .tc := ⟨.hbm, 140, rfl⟩
abbrev main_c_21 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_cst_22 : Ref sig .tc := ⟨.hbm, 148, rfl⟩
abbrev main_v107 : Ref sig .tc := ⟨.hbm, 149, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg5_0 : Ref sig .tc := ⟨.vmem, 41, rfl⟩
abbrev cc3_stg6_0 : Ref sig .tc := ⟨.vmem, 42, rfl⟩
abbrev cc3_stg6_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem2_1 : DmaSem sig := 38
abbrev cc3_sem3_0 : DmaSem sig := 39
abbrev cc3_sem4_0 : DmaSem sig := 40
abbrev cc3_sem5_0 : DmaSem sig := 41
abbrev cc3_sem6_0 : DmaSem sig := 42
abbrev cc3_sem6_1 : DmaSem sig := 43

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S4000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S4000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S2x1600000_S1x1600000_1_0 : S2x1600000.Slices ![1, 0] S1x1600000
  shapeCasts_S1x1600000_S1600000 : S1x1600000.ShapeCasts S1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  slices_S2x1600000_S1x1600000_0_0 : S2x1600000.Slices ![0, 0] S1x1600000
  bitsLt_bf16_f32 : FTy.bits .bf16 < FTy.bits .f32
  bcast_S_S100000x128 : S_.BroadcastsInDim S100000x128 (![] : Fin 0 → Fin S100000x128.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  reduces_S4000x128_S4000 : S4000x128.Reduces [1] S4000
  shapeCasts_S4000_S4000x1 : S4000.ShapeCasts S4000x1
  packedbf16_S4000x128_S4000x128_0_0 : (Rect.unit (s := S4000x128) ![0, 0] S4000x128.size inb_S4000x128_S4000x128_0_0).PackedRows (EltTy.packing .bf16)
  slices_S2x100000_S1x100000_0_0 : S2x100000.Slices ![0, 0] S1x100000
  shapeCasts_S1x100000_S100000 : S1x100000.ShapeCasts S100000
  slices_S2x100000_S1x100000_1_0 : S2x100000.Slices ![1, 0] S1x100000
  reducesTo_S100000x128_S100000_d1 : S100000x128.ReducesTo [1] S100000
  h_S_ : 0 < S_.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  gather_S100000x128_S100000x1_S100000x128_1_0_n_n_0_1_1128_wf : GatherDims.WF S100000x128 S100000x1 S100000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S100000x1.size a
  hwx0_1 : ∀ i : grid0.Coords, EltTy.bits .f32 = 32 ∨ (Rect.block (s := S100000x1) S4000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .bf16 = 32 ∨ (Rect.block (s := S100000x128) S4000x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S100000x128.size a
  hwx1_2 : ∀ i : grid1.Coords, EltTy.bits .f32 = 32 ∨ (Rect.block (s := S100000x128) S4000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S100000x128.size a
  hwx1_6 : ∀ i : grid1.Coords, EltTy.bits .bf16 = 32 ∨ (Rect.block (s := S100000x128) S4000x128.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S100000x1.size a
  hwx2_1 : ∀ i : grid2.Coords, EltTy.bits .f32 = 32 ∨ (Rect.block (s := S100000x1) S4000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x128.size a ≤ S100000x128.size a
  hwx2_2 : ∀ i : grid2.Coords, EltTy.bits .bf16 = 32 ∨ (Rect.block (s := S100000x128) S4000x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x128.size a ≤ S100000x128.size a
  hwx2_6 : ∀ i : grid2.Coords, EltTy.bits .f32 = 32 ∨ (Rect.block (s := S100000x128) S4000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x1.size a ≤ S100000x1.size a
  hwx3_1 : ∀ i : grid3.Coords, EltTy.bits .f32 = 32 ∨ (Rect.block (s := S100000x1) S4000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x128.size a ≤ S100000x128.size a
  hwx3_2 : ∀ i : grid3.Coords, EltTy.bits .bf16 = 32 ∨ (Rect.block (s := S100000x128) S4000x128.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S4000x128.size a ≤ S100000x128.size a
  hwx3_6 : ∀ i : grid3.Coords, EltTy.bits .f32 = 32 ∨ (Rect.block (s := S100000x128) S4000x128.size (cc3_transform_6 i) (hinb3_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf

abbrev win0_0 : Pipeline.Window sig grid0 :=
  Pipeline.Window.ofSpec (Memref.whole main_v37) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg13) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v38) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v54) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S4000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg14) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v55) S4000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v70) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v38) S4000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg15) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg10) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v71) S4000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v86) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v21) S4000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v55) S4000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg11) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg16) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg12) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v87) S4000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S2x100000 : Shape := ⟨2, ![2, 100000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S1x100000 : Shape := ⟨2, ![1, 100000]⟩

abbrev nBuf : Space → Nat
  | .hbm => 234
  | .vmem => 0
  | .smem => 0
  | _ => 0

abbrev hbmTy0_0 (i : Nat) : BufTy := match i % 128 with
  | 0 => ⟨S100000x128, .f32⟩
  | 1 => ⟨S100000x128, .f32⟩
  | 2 => ⟨S2x1600000, .i32⟩
  | 3 => ⟨S2x1600000, .i32⟩
  | 4 => ⟨S2x100000, .i32⟩
  | 5 => ⟨S128x128, .f32⟩
  | 6 => ⟨S128x128, .f32⟩
  | 7 => ⟨S128x128, .f32⟩
  | 8 => ⟨S128x128, .f32⟩
  | 9 => ⟨S128x128, .f32⟩
  | 10 => ⟨S128x128, .f32⟩
  | 11 => ⟨S128x128, .f32⟩
  | 12 => ⟨S128x128, .f32⟩
  | 13 => ⟨S128, .f32⟩
  | 14 => ⟨S128, .f32⟩
  | 15 => ⟨S128, .f32⟩
  | 16 => ⟨S128, .f32⟩
  | 17 => ⟨S1x1600000, .i32⟩
  | 18 => ⟨S1600000, .i32⟩
  | 19 => ⟨S1x1600000, .i32⟩
  | 20 => ⟨S1600000, .i32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S1600000x128, .f32⟩
  | 30 => ⟨S_, .f32⟩
  | 31 => ⟨S100000x128, .f32⟩
  | 32 => ⟨S1600000x1, .i32⟩
  | 33 => ⟨S100000x128, .f32⟩
  | 34 => ⟨S_, .f32⟩
  | 35 => ⟨S1600000, .f32⟩
  | 36 => ⟨S_, .f32⟩
  | 37 => ⟨S100000, .f32⟩
  | 38 => ⟨S1600000x1, .i32⟩
  | 39 => ⟨S100000, .f32⟩
  | 40 => ⟨S_, .f32⟩
  | 41 => ⟨S100000, .f32⟩
  | 42 => ⟨S100000, .f32⟩
  | 43 => ⟨S100000x1, .f32⟩
  | 44 => ⟨S100000x128, .f32⟩
  | 45 => ⟨S100000x128, .f32⟩
  | 46 => ⟨S100000x128, .f32⟩
  | 47 => ⟨S1x128, .f32⟩
  | 48 => ⟨S100000x128, .f32⟩
  | 49 => ⟨S100000x128, .f32⟩
  | 50 => ⟨S100000x128, .f32⟩
  | 51 => ⟨S100000x128, .f32⟩
  | 52 => ⟨S100000x128, .f32⟩
  | 53 => ⟨S_, .f32⟩
  | 54 => ⟨S100000, .f32⟩
  | 55 => ⟨S100000x1, .f32⟩
  | 56 => ⟨S100000x1, .f32⟩
  | 57 => ⟨S_, .f32⟩
  | 58 => ⟨S100000x1, .f32⟩
  | 59 => ⟨S100000x1, .f32⟩
  | 60 => ⟨S100000x128, .f32⟩
  | 61 => ⟨S100000x128, .f32⟩
  | 62 => ⟨S1x1600000, .i32⟩
  | 63 => ⟨S1600000, .i32⟩
  | 64 => ⟨S1x1600000, .i32⟩
  | 65 => ⟨S1600000, .i32⟩
  | 66 => ⟨S_, .i32⟩
  | 67 => ⟨S1600000, .i32⟩
  | 68 => ⟨S1600000, .i1⟩
  | 69 => ⟨S_, .i32⟩
  | 70 => ⟨S1600000, .i32⟩
  | 71 => ⟨S1600000, .i32⟩
  | 72 => ⟨S1600000, .i32⟩
  | 73 => ⟨S1600000x1, .i32⟩
  | 74 => ⟨S1600000x128, .f32⟩
  | 75 => ⟨S_, .f32⟩
  | 76 => ⟨S100000x128, .f32⟩
  | 77 => ⟨S1600000x1, .i32⟩
  | 78 => ⟨S100000x128, .f32⟩
  | 79 => ⟨S_, .f32⟩
  | 80 => ⟨S1600000, .f32⟩
  | 81 => ⟨S_, .f32⟩
  | 82 => ⟨S100000, .f32⟩
  | 83 => ⟨S1600000x1, .i32⟩
  | 84 => ⟨S100000, .f32⟩
  | 85 => ⟨S_, .f32⟩
  | 86 => ⟨S100000, .f32⟩
  | 87 => ⟨S100000, .f32⟩
  | 88 => ⟨S100000x1, .f32⟩
  | 89 => ⟨S100000x128, .f32⟩
  | 90 => ⟨S100000x128, .f32⟩
  | 91 => ⟨S100000x128, .f32⟩
  | 92 => ⟨S1x128, .f32⟩
  | 93 => ⟨S100000x128, .f32⟩
  | 94 => ⟨S100000x128, .f32⟩
  | 95 => ⟨S100000x128, .f32⟩
  | 96 => ⟨S100000x128, .f32⟩
  | 97 => ⟨S100000x128, .f32⟩
  | 98 => ⟨S_, .f32⟩
  | 99 => ⟨S100000, .f32⟩
  | 100 => ⟨S100000x1, .f32⟩
  | 101 => ⟨S100000x1, .f32⟩
  | 102 => ⟨S_, .f32⟩
  | 103 => ⟨S100000x1, .f32⟩
  | 104 => ⟨S100000x1, .f32⟩
  | 105 => ⟨S100000x128, .f32⟩
  | 106 => ⟨S100000x128, .f32⟩
  | 107 => ⟨S_, .f32⟩
  | 108 => ⟨S100000x128, .f32⟩
  | 109 => ⟨S100000x128, .f32⟩
  | 110 => ⟨S_, .f32⟩
  | 111 => ⟨S100000x128, .f32⟩
  | 112 => ⟨S100000x128, .f32⟩
  | 113 => ⟨S1x1600000, .i32⟩
  | 114 => ⟨S1600000, .i32⟩
  | 115 => ⟨S1x1600000, .i32⟩
  | 116 => ⟨S1600000, .i32⟩
  | 117 => ⟨S_, .i32⟩
  | 118 => ⟨S1600000, .i32⟩
  | 119 => ⟨S1600000, .i1⟩
  | 120 => ⟨S_, .i32⟩
  | 121 => ⟨S1600000, .i32⟩
  | 122 => ⟨S1600000, .i32⟩
  | 123 => ⟨S1600000, .i32⟩
  | 124 => ⟨S1600000x1, .i32⟩
  | 125 => ⟨S1600000x128, .f32⟩
  | 126 => ⟨S_, .f32⟩
  | 127 => ⟨S100000x128, .f32⟩
  | _ => ⟨S100000x128, .f32⟩

abbrev hbmTy0_1 (i : Nat) : BufTy := match i % 128 with
  | 0 => ⟨S1600000x1, .i32⟩
  | 1 => ⟨S100000x128, .f32⟩
  | 2 => ⟨S_, .f32⟩
  | 3 => ⟨S1600000, .f32⟩
  | 4 => ⟨S_, .f32⟩
  | 5 => ⟨S100000, .f32⟩
  | 6 => ⟨S1600000x1, .i32⟩
  | 7 => ⟨S100000, .f32⟩
  | 8 => ⟨S_, .f32⟩
  | 9 => ⟨S100000, .f32⟩
  | 10 => ⟨S100000, .f32⟩
  | 11 => ⟨S100000x1, .f32⟩
  | 12 => ⟨S100000x128, .f32⟩
  | 13 => ⟨S100000x128, .f32⟩
  | 14 => ⟨S100000x128, .f32⟩
  | 15 => ⟨S1x128, .f32⟩
  | 16 => ⟨S100000x128, .f32⟩
  | 17 => ⟨S100000x128, .f32⟩
  | 18 => ⟨S100000x128, .f32⟩
  | 19 => ⟨S100000x128, .f32⟩
  | 20 => ⟨S100000x128, .f32⟩
  | 21 => ⟨S_, .f32⟩
  | 22 => ⟨S100000, .f32⟩
  | 23 => ⟨S100000x1, .f32⟩
  | 24 => ⟨S100000x1, .f32⟩
  | 25 => ⟨S_, .f32⟩
  | 26 => ⟨S100000x1, .f32⟩
  | 27 => ⟨S100000x1, .f32⟩
  | 28 => ⟨S100000x128, .f32⟩
  | 29 => ⟨S100000x128, .f32⟩
  | 30 => ⟨S1x1600000, .i32⟩
  | 31 => ⟨S1600000, .i32⟩
  | 32 => ⟨S1x1600000, .i32⟩
  | 33 => ⟨S1600000, .i32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000x128, .f32⟩
  | 43 => ⟨S_, .f32⟩
  | 44 => ⟨S100000x128, .f32⟩
  | 45 => ⟨S1600000x1, .i32⟩
  | 46 => ⟨S100000x128, .f32⟩
  | 47 => ⟨S_, .f32⟩
  | 48 => ⟨S1600000, .f32⟩
  | 49 => ⟨S_, .f32⟩
  | 50 => ⟨S100000, .f32⟩
  | 51 => ⟨S1600000x1, .i32⟩
  | 52 => ⟨S100000, .f32⟩
  | 53 => ⟨S_, .f32⟩
  | 54 => ⟨S100000, .f32⟩
  | 55 => ⟨S100000, .f32⟩
  | 56 => ⟨S100000x1, .f32⟩
  | 57 => ⟨S100000x128, .f32⟩
  | 58 => ⟨S100000x128, .f32⟩
  | 59 => ⟨S100000x128, .f32⟩
  | 60 => ⟨S1x128, .f32⟩
  | 61 => ⟨S100000x128, .f32⟩
  | 62 => ⟨S100000x128, .f32⟩
  | 63 => ⟨S100000x128, .f32⟩
  | 64 => ⟨S100000x128, .f32⟩
  | 65 => ⟨S100000x128, .f32⟩
  | 66 => ⟨S_, .f32⟩
  | 67 => ⟨S100000, .f32⟩
  | 68 => ⟨S100000x1, .f32⟩
  | 69 => ⟨S100000x1, .f32⟩
  | 70 => ⟨S_, .f32⟩
  | 71 => ⟨S100000x1, .f32⟩
  | 72 => ⟨S100000x1, .f32⟩
  | 73 => ⟨S100000x128, .f32⟩
  | 74 => ⟨S100000x128, .f32⟩
  | 75 => ⟨S_, .f32⟩
  | 76 => ⟨S100000x128, .f32⟩
  | 77 => ⟨S100000x128, .f32⟩
  | 78 => ⟨S_, .f32⟩
  | 79 => ⟨S100000x128, .f32⟩
  | 80 => ⟨S100000x128, .f32⟩
  | 81 => ⟨S1x100000, .i32⟩
  | 82 => ⟨S100000, .i32⟩
  | 83 => ⟨S_, .i32⟩
  | 84 => ⟨S100000, .i32⟩
  | 85 => ⟨S100000, .i1⟩
  | 86 => ⟨S_, .i32⟩
  | 87 => ⟨S100000, .i32⟩
  | 88 => ⟨S100000, .i32⟩
  | 89 => ⟨S100000, .i32⟩
  | 90 => ⟨S100000x1, .i32⟩
  | 91 => ⟨S100000x128, .f32⟩
  | 92 => ⟨S1x100000, .i32⟩
  | 93 => ⟨S100000, .i32⟩
  | 94 => ⟨S_, .i32⟩
  | 95 => ⟨S100000, .i32⟩
  | 96 => ⟨S100000, .i1⟩
  | 97 => ⟨S_, .i32⟩
  | 98 => ⟨S100000, .i32⟩
  | 99 => ⟨S100000, .i32⟩
  | 100 => ⟨S100000, .i32⟩
  | 101 => ⟨S100000x1, .i32⟩
  | 102 => ⟨S100000x128, .f32⟩
  | 103 => ⟨S100000x128, .f32⟩
  | 104 => ⟨S_, .f32⟩
  | 105 => ⟨S100000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_1 : Ref sig .tc := ⟨.hbm, 34, rfl⟩
abbrev main_v14 : Ref sig .tc := ⟨.hbm, 35, rfl⟩
abbrev main_cst_2 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_3 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_4 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_5 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_c_6 : Ref sig .tc := ⟨.hbm, 66, rfl⟩
abbrev main_v41 : Ref sig .tc := ⟨.hbm, 67, rfl⟩
abbrev main_v42 : Ref sig .tc := ⟨.hbm, 68, rfl⟩
abbrev main_c_7 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_8 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_9 : Ref sig .tc := ⟨.hbm, 79, rfl⟩
abbrev main_v51 : Ref sig .tc := ⟨.hbm, 80, rfl⟩
abbrev main_cst_10 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_11 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_12 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_13 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_call0_cst : Ref sig .tc := ⟨.hbm, 107, rfl⟩
abbrev main_call0_v0 : Ref sig .tc := ⟨.hbm, 108, rfl⟩
abbrev main_v74 : Ref sig .tc := ⟨.hbm, 109, rfl⟩
abbrev main_call1_cst : Ref sig .tc := ⟨.hbm, 110, rfl⟩
abbrev main_call1_v0 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_c_14 : Ref sig .tc := ⟨.hbm, 117, rfl⟩
abbrev main_v80 : Ref sig .tc := ⟨.hbm, 118, rfl⟩
abbrev main_v81 : Ref sig .tc := ⟨.hbm, 119, rfl⟩
abbrev main_c_15 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_cst_16 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_cst_17 : Ref sig .tc := ⟨.hbm, 130, rfl⟩
abbrev main_v90 : Ref sig .tc := ⟨.hbm, 131, rfl⟩
abbrev main_cst_18 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_cst_19 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_cst_20 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_cst_21 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_c_22 : Ref sig .tc := ⟨.hbm, 162, rfl⟩
abbrev main_v117 : Ref sig .tc := ⟨.hbm, 163, rfl⟩
abbrev main_v118 : Ref sig .tc := ⟨.hbm, 164, rfl⟩
abbrev main_c_23 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_cst_24 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_cst_25 : Ref sig .tc := ⟨.hbm, 175, rfl⟩
abbrev main_v127 : Ref sig .tc := ⟨.hbm, 176, rfl⟩
abbrev main_cst_26 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_cst_27 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_cst_28 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_cst_29 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_call2_cst : Ref sig .tc := ⟨.hbm, 203, rfl⟩
abbrev main_call2_v0 : Ref sig .tc := ⟨.hbm, 204, rfl⟩
abbrev main_v150 : Ref sig .tc := ⟨.hbm, 205, rfl⟩
abbrev main_call3_cst : Ref sig .tc := ⟨.hbm, 206, rfl⟩
abbrev main_call3_v0 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_c_30 : Ref sig .tc := ⟨.hbm, 211, rfl⟩
abbrev main_v154 : Ref sig .tc := ⟨.hbm, 212, rfl⟩
abbrev main_v155 : Ref sig .tc := ⟨.hbm, 213, rfl⟩
abbrev main_c_31 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_c_32 : Ref sig .tc := ⟨.hbm, 222, rfl⟩
abbrev main_v163 : Ref sig .tc := ⟨.hbm, 223, rfl⟩
abbrev main_v164 : Ref sig .tc := ⟨.hbm, 224, rfl⟩
abbrev main_c_33 : Ref sig .tc := ⟨.hbm, 225, rfl⟩
abbrev main_v165 : Ref sig .tc := ⟨.hbm, 226, rfl⟩
abbrev main_v166 : Ref sig .tc := ⟨.hbm, 227, rfl⟩
abbrev main_v167 : Ref sig .tc := ⟨.hbm, 228, rfl⟩
abbrev main_v168 : Ref sig .tc := ⟨.hbm, 229, rfl⟩
abbrev main_v169 : Ref sig .tc := ⟨.hbm, 230, rfl⟩
abbrev main_v170 : Ref sig .tc := ⟨.hbm, 231, rfl⟩
abbrev main_cst_34 : Ref sig .tc := ⟨.hbm, 232, rfl⟩
abbrev main_v171 : Ref sig .tc := ⟨.hbm, 233, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  slices_S2x100000_S1x100000_0_0 : S2x100000.Slices ![0, 0] S1x100000
  shapeCasts_S1x100000_S100000 : S1x100000.ShapeCasts S100000
  slices_S2x100000_S1x100000_1_0 : S2x100000.Slices ![1, 0] S1x100000
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000x128_S100000x1_S100000x128_1_0_n_n_0_1_1128_wf : GatherDims.WF S100000x128 S100000x1 S100000x128 [1] [0] [] [0] [] 1 ![1, 128]

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf

class Facts : Prop extends Facts₀ where

variable [Facts]
-- ==== Proof.KRun.lean ====
/- The run of the whole program with its result named: from any memory with zero counters, every weakly fair
   execution of the program on the TensorCores terminates, nothing faulting, and in every final state the result
   array holds the last boundary's contents at it, every argument array as launched. -/
import proofs.«159423_j20968030339505_2_alg».proof.Proof.Gen.KernelIdeal.Frame

set_option maxRecDepth 16384

noncomputable section

namespace Cert.KernelIdeal.Host

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the implicit arguments of the launch theorem for a program of several regions are found by unifying its conclusion
-- with this statement, which takes unfolding plain definitions in a metavariable's type
set_option backward.isDefEq.respectTransparency.types false in
/-- The run with the result read: the final state holds, at the result array, the fold's last contents there, and
    every argument array as launched. -/
theorem run_value : θ_run defs (onTc (τ := τ) (main (F := F))) ⟨m, fun _ => 0, ρ⟩ (fun r => ∀ c : Dev nD,
      r.2.mem ((c.tc : Thread nD τ).loc main_v107) = Gen.W9 m ρ c (Proc.devRef .tc main_v107)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (Gen.mem_uc main_v107 (by decide)),
       (h c _ (Gen.mem_uc main_arg0 (by decide))).trans (Gen.W9_main_arg0 m ρ c),
       (h c _ (Gen.mem_uc main_arg1 (by decide))).trans (Gen.W9_main_arg1 m ρ c),
       (h c _ (Gen.mem_uc main_arg2 (by decide))).trans (Gen.W9_main_arg2 m ρ c),
       (h c _ (Gen.mem_uc main_arg3 (by decide))).trans (Gen.W9_main_arg3 m ρ c),
       (h c _ (Gen.mem_uc main_arg4 (by decide))).trans (Gen.W9_main_arg4 m ρ c),
       (h c _ (Gen.mem_uc main_arg5 (by decide))).trans (Gen.W9_main_arg5 m ρ c),
       (h c _ (Gen.mem_uc main_arg6 (by decide))).trans (Gen.W9_main_arg6 m ρ c),
       (h c _ (Gen.mem_uc main_arg7 (by decide))).trans (Gen.W9_main_arg7 m ρ c),
       (h c _ (Gen.mem_uc main_arg8 (by decide))).trans (Gen.W9_main_arg8 m ρ c),
       (h c _ (Gen.mem_uc main_arg9 (by decide))).trans (Gen.W9_main_arg9 m ρ c),
       (h c _ (Gen.mem_uc main_arg10 (by decide))).trans (Gen.W9_main_arg10 m ρ c),
       (h c _ (Gen.mem_uc main_arg11 (by decide))).trans (Gen.W9_main_arg11 m ρ c),
       (h c _ (Gen.mem_uc main_arg12 (by decide))).trans (Gen.W9_main_arg12 m ρ c),
       (h c _ (Gen.mem_uc main_arg13 (by decide))).trans (Gen.W9_main_arg13 m ρ c),
       (h c _ (Gen.mem_uc main_arg14 (by decide))).trans (Gen.W9_main_arg14 m ρ c),
       (h c _ (Gen.mem_uc main_arg15 (by decide))).trans (Gen.W9_main_arg15 m ρ c),
       (h c _ (Gen.mem_uc main_arg16 (by decide))).trans (Gen.W9_main_arg16 m ρ c)⟩)

end Cert.KernelIdeal.Host

end
-- ==== Proof.KHostDefs.lean ====
/- The host side of the program, named: each stretch of host operations between two kernel regions as one function
   of the arrays it reads. -/
import proofs.«159423_j20968030339505_2_alg».proof.Proof.Gen.KernelIdeal
import Idealize.ShloMosaic.PureOps.Ideal

noncomputable section

namespace Cert.KernelIdeal.Host

open Idealize.ShloMosaic
open Cert.KernelIdeal Cert.KernelIdeal.Gen

/-! ## The host stretches as functions -/

/-- The neighbour sum of an f32 feature array over an edge list: every feature row rounded to bf16, the rows at the
    edges' sources (row 0 of the list, a negative index counted from the end) gathered, widened back, and added
    into zeros at the edges' targets (row 1 of the list). -/
def kmsum (x : (⟨S100000x128, .f32⟩ : BufTy).Contents (Elt Ideal)) (e : (⟨S2x1600000, .i32⟩ : BufTy).Contents (Elt Ideal)) : (⟨S100000x128, .f32⟩ : BufTy).Contents (Elt Ideal) :=
  Host.scatterAdd (F := Ideal) scatter_S100000x128_S1600000x1_S1600000x128_1_0_0_1
    (broadcastInDim S100000x128 ![] bcast_S_S100000x128 (constant (F := Ideal) S_ .f32 0x00000000#32 : FVec Ideal S_ .f32) : FVec Ideal S100000x128 .f32)
    (broadcastInDim S1600000x1 ![0] bcast_S1600000_S1600000x1_0 (shapeCast S1600000 ((extractStridedSlice S1x1600000 ![1, 0] e slices_S2x1600000_S1x1600000_1_0 : IVec S1x1600000 32)) shapeCasts_S1x1600000_S1600000 : IVec S1600000 32) : IVec S1600000x1 32)
    (extf (F := Ideal) .f32 (Host.gather gather_S100000x128_S1600000x1_S1600000x128_1_0_n_n_0_1_1128 (truncf (F := Ideal) .bf16 x bitsLt_bf16_f32 : FVec Ideal S100000x128 .bf16)
      (broadcastInDim S1600000x1 ![0] bcast_S1600000_S1600000x1_0 (select (cmpi .slt (shapeCast S1600000 ((extractStridedSlice S1x1600000 ![0, 0] e slices_S2x1600000_S1x1600000_0_0 : IVec S1x1600000 32)) shapeCasts_S1x1600000_S1600000 : IVec S1600000 32) (broadcastInDim S1600000 ![] bcast_S_S1600000 (constantI S_ 32 0#32 : IVec S_ 32) : IVec S1600000 32)) (addi (shapeCast S1600000 ((extractStridedSlice S1x1600000 ![0, 0] e slices_S2x1600000_S1x1600000_0_0 : IVec S1x1600000 32)) shapeCasts_S1x1600000_S1600000 : IVec S1600000 32) (broadcastInDim S1600000 ![] bcast_S_S1600000 (constantI S_ 32 100000#32 : IVec S_ 32) : IVec S1600000 32) : IVec S1600000 32) (shapeCast S1600000 ((extractStridedSlice S1x1600000 ![0, 0] e slices_S2x1600000_S1x1600000_0_0 : IVec S1x1600000 32)) shapeCasts_S1x1600000_S1600000 : IVec S1600000 32) : IVec S1600000 32) : IVec S1600000x1 32) : FVec Ideal S1600000x128 .bf16) bitsLt_bf16_f32 : FVec Ideal S1600000x128 .f32)

/-- The same neighbour sum of a feature array already in bf16 (no rounding step). -/
def kmsumB (x : (⟨S100000x128, .bf16⟩ : BufTy).Contents (Elt Ideal)) (e : (⟨S2x1600000, .i32⟩ : BufTy).Contents (Elt Ideal)) : (⟨S100000x128, .f32⟩ : BufTy).Contents (Elt Ideal) :=
  Host.scatterAdd (F := Ideal) scatter_S100000x128_S1600000x1_S1600000x128_1_0_0_1
    (broadcastInDim S100000x128 ![] bcast_S_S100000x128 (constant (F := Ideal) S_ .f32 0x00000000#32 : FVec Ideal S_ .f32) : FVec Ideal S100000x128 .f32)
    (broadcastInDim S1600000x1 ![0] bcast_S1600000_S1600000x1_0 (shapeCast S1600000 ((extractStridedSlice S1x1600000 ![1, 0] e slices_S2x1600000_S1x1600000_1_0 : IVec S1x1600000 32)) shapeCasts_S1x1600000_S1600000 : IVec S1600000 32) : IVec S1600000x1 32)
    (extf (F := Ideal) .f32 (Host.gather gather_S100000x128_S1600000x1_S1600000x128_1_0_n_n_0_1_1128 x
      (broadcastInDim S1600000x1 ![0] bcast_S1600000_S1600000x1_0 (select (cmpi .slt (shapeCast S1600000 ((extractStridedSlice S1x1600000 ![0, 0] e slices_S2x1600000_S1x1600000_0_0 : IVec S1x1600000 32)) shapeCasts_S1x1600000_S1600000 : IVec S1600000 32) (broadcastInDim S1600000 ![] bcast_S_S1600000 (constantI S_ 32 0#32 : IVec S_ 32) : IVec S1600000 32)) (addi (shapeCast S1600000 ((extractStridedSlice S1x1600000 ![0, 0] e slices_S2x1600000_S1x1600000_0_0 : IVec S1x1600000 32)) shapeCasts_S1x1600000_S1600000 : IVec S1600000 32) (broadcastInDim S1600000 ![] bcast_S_S1600000 (constantI S_ 32 100000#32 : IVec S_ 32) : IVec S1600000 32) : IVec S1600000 32) (shapeCast S1600000 ((extractStridedSlice S1x1600000 ![0, 0] e slices_S2x1600000_S1x1600000_0_0 : IVec S1x1600000 32)) shapeCasts_S1x1600000_S1600000 : IVec S1600000 32) : IVec S1600000 32) : IVec S1600000x1 32) : FVec Ideal S1600000x128 .bf16) bitsLt_bf16_f32 : FVec Ideal S1600000x128 .f32)

/-- The inverse in-degree column of an edge list: ones added into zeros at the edges' targets, clamped below by one,
    one divided by it, as a column. -/
def kinv (e : (⟨S2x1600000, .i32⟩ : BufTy).Contents (Elt Ideal)) : (⟨S100000x1, .f32⟩ : BufTy).Contents (Elt Ideal) :=
  (broadcastInDim S100000x1 ![0] bcast_S100000_S100000x1_0
    (Host.divf (F := Ideal) (broadcastInDim S100000 ![] bcast_S_S100000 (constant (F := Ideal) S_ .f32 0x3F800000#32 : FVec Ideal S_ .f32) : FVec Ideal S100000 .f32)
      (maximumf (F := Ideal) (Host.scatterAdd (F := Ideal) scatter_S100000_S1600000x1_S1600000_n_0_0_1
          (broadcastInDim S100000 ![] bcast_S_S100000 (constant (F := Ideal) S_ .f32 0x00000000#32 : FVec Ideal S_ .f32) : FVec Ideal S100000 .f32)
          (broadcastInDim S1600000x1 ![0] bcast_S1600000_S1600000x1_0 (shapeCast S1600000 ((extractStridedSlice S1x1600000 ![1, 0] e slices_S2x1600000_S1x1600000_1_0 : IVec S1x1600000 32)) shapeCasts_S1x1600000_S1600000 : IVec S1600000 32) : IVec S1600000x1 32)
          (broadcastInDim S1600000 ![] bcast_S_S1600000 (constant (F := Ideal) S_ .f32 0x3F800000#32 : FVec Ideal S_ .f32) : FVec Ideal S1600000 .f32) : FVec Ideal S100000 .f32)
        (broadcastInDim S100000 ![] bcast_S_S100000 (constant (F := Ideal) S_ .f32 0x3F800000#32 : FVec Ideal S_ .f32) : FVec Ideal S100000 .f32) : FVec Ideal S100000 .f32) : FVec Ideal S100000 .f32) : FVec Ideal S100000x1 .f32)

/-- The classifier tail: the rows of `xu` at row 0 of the pair list and the rows of `xi` at row 1 (negative indices
    counted from the end), multiplied elementwise and summed along the lanes from zero. -/
def ktail (xu xi : (⟨S100000x128, .f32⟩ : BufTy).Contents (Elt Ideal)) (e4 : (⟨S2x100000, .i32⟩ : BufTy).Contents (Elt Ideal)) : (⟨S100000, .f32⟩ : BufTy).Contents (Elt Ideal) :=
  Host.reduceAdd (F := Ideal)
    (mulf (F := Ideal) (Host.gather gather_S100000x128_S100000x1_S100000x128_1_0_n_n_0_1_1128 xu
      (broadcastInDim S100000x1 ![0] bcast_S100000_S100000x1_0 (select (cmpi .slt (shapeCast S100000 ((extractStridedSlice S1x100000 ![0, 0] e4 slices_S2x100000_S1x100000_0_0 : IVec S1x100000 32)) shapeCasts_S1x100000_S100000 : IVec S100000 32) (broadcastInDim S100000 ![] bcast_S_S100000 (constantI S_ 32 0#32 : IVec S_ 32) : IVec S100000 32)) (addi (shapeCast S100000 ((extractStridedSlice S1x100000 ![0, 0] e4 slices_S2x100000_S1x100000_0_0 : IVec S1x100000 32)) shapeCasts_S1x100000_S100000 : IVec S100000 32) (broadcastInDim S100000 ![] bcast_S_S100000 (constantI S_ 32 100000#32 : IVec S_ 32) : IVec S100000 32) : IVec S100000 32) (shapeCast S100000 ((extractStridedSlice S1x100000 ![0, 0] e4 slices_S2x100000_S1x100000_0_0 : IVec S1x100000 32)) shapeCasts_S1x100000_S100000 : IVec S100000 32) : IVec S100000 32) : IVec S100000x1 32) : FVec Ideal S100000x128 .f32)
      (Host.gather gather_S100000x128_S100000x1_S100000x128_1_0_n_n_0_1_1128 xi
      (broadcastInDim S100000x1 ![0] bcast_S100000_S100000x1_0 (select (cmpi .slt (shapeCast S100000 ((extractStridedSlice S1x100000 ![1, 0] e4 slices_S2x100000_S1x100000_1_0 : IVec S1x100000 32)) shapeCasts_S1x100000_S100000 : IVec S100000 32) (broadcastInDim S100000 ![] bcast_S_S100000 (constantI S_ 32 0#32 : IVec S_ 32) : IVec S100000 32)) (addi (shapeCast S100000 ((extractStridedSlice S1x100000 ![1, 0] e4 slices_S2x100000_S1x100000_1_0 : IVec S1x100000 32)) shapeCasts_S1x100000_S100000 : IVec S100000 32) (broadcastInDim S100000 ![] bcast_S_S100000 (constantI S_ 32 100000#32 : IVec S_ 32) : IVec S100000 32) : IVec S100000 32) (shapeCast S100000 ((extractStridedSlice S1x100000 ![1, 0] e4 slices_S2x100000_S1x100000_1_0 : IVec S1x100000 32)) shapeCasts_S1x100000_S100000 : IVec S100000 32) : IVec S100000 32) : IVec S100000x1 32) : FVec Ideal S100000x128 .f32) : FVec Ideal S100000x128 .f32)
    (constant (F := Ideal) S_ .f32 0x00000000#32 : FVec Ideal S_ .f32) reducesTo_S100000x128_S100000_d1 h_S_

end Cert.KernelIdeal.Host

end
-- ==== Proof.KHost.lean ====
/- The host side of the program read through the fold of the program's segments: the buffer contents at every
   kernel region's entry and at the result, each as the named function of the launch arrays (or of an earlier
   region's output) that the host operations before it compute. -/
import proofs.«159423_j20968030339505_2_alg».proof.Proof.Gen.KernelIdeal.Frame
import Idealize.ShloMosaic.Lib.StableHlo.Run
import Idealize.ShloMosaic.PureOps.Ideal
import proofs.«159423_j20968030339505_2_alg».proof.Proof.KHostDefs

set_option maxRecDepth 16384

noncomputable section

namespace Cert.KernelIdeal.Host

open Idealize.ShloMosaic Idealize.ShloMosaic.TcCoe Idealize.ShloMosaic.Tactic
open Idealize.SL Idealize.SL.Sem
open Cert.KernelIdeal Cert.KernelIdeal.Gen

/-! ## Reading the fold -/

variable (m : (ℓ : Loc nD τ sig) → Buf (Elt Ideal) ℓ) (ρ : Dev nD → PrngReg) (c : Dev nD)

/-- A buffer no operation of a host stretch writes holds after the stretch what it held before it. -/
macro "host_skip" : tactic =>
  `(tactic| exact StableHlo.after_of_forall_not_mem _ _ (List.forall_iff_forall_mem.mp (by
      simp only [hostOps0, hostOps1, hostOps2, hostOps3, hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-! ### Region 0's entry -/

theorem V1_main_v37 : (Gen.V1 m ρ c main_v37 : (⟨S100000x128, .f32⟩ : BufTy).Contents (Elt Ideal)) = kmsum (m ((c : Thread nD τ).loc main_arg0)) (m ((c : Thread nD τ).loc main_arg2)) := by
  show StableHlo.after hostOps0 (W0 m ρ c) (Proc.devRef .tc main_v37) = _
  after_results_simp
  rfl

theorem V1_main_v10 : (Gen.V1 m ρ c main_v10 : (⟨S100000x1, .f32⟩ : BufTy).Contents (Elt Ideal)) = kinv (m ((c : Thread nD τ).loc main_arg2)) := by
  show StableHlo.after hostOps0 (W0 m ρ c) (Proc.devRef .tc main_v10) = _
  after_results_simp
  rfl

theorem V1_main_arg1 : Gen.V1 m ρ c main_arg1 = m ((c : Thread nD τ).loc main_arg1) :=
  calc W1 m ρ c (Proc.devRef .tc main_arg1)
    _ = W0 m ρ c (Proc.devRef .tc main_arg1) := (by host_skip)
    _ = m ((c : Thread nD τ).loc main_arg1) := rfl

theorem V1_main_arg5 : Gen.V1 m ρ c main_arg5 = m ((c : Thread nD τ).loc main_arg5) :=
  calc W1 m ρ c (Proc.devRef .tc main_arg5)
    _ = W0 m ρ c (Proc.devRef .tc main_arg5) := (by host_skip)
    _ = m ((c : Thread nD τ).loc main_arg5) := rfl

theorem V1_main_arg13 : Gen.V1 m ρ c main_arg13 = m ((c : Thread nD τ).loc main_arg13) :=
  calc W1 m ρ c (Proc.devRef .tc main_arg13)
    _ = W0 m ρ c (Proc.devRef .tc main_arg13) := (by host_skip)
    _ = m ((c : Thread nD τ).loc main_arg13) := rfl

theorem V1_main_arg6 : Gen.V1 m ρ c main_arg6 = m ((c : Thread nD τ).loc main_arg6) :=
  calc W1 m ρ c (Proc.devRef .tc main_arg6)
    _ = W0 m ρ c (Proc.devRef .tc main_arg6) := (by host_skip)
    _ = m ((c : Thread nD τ).loc main_arg6) := rfl

/-- The second edge list's inverse in-degree column, which the first stretch computes as well. -/
theorem V1_main_v21 : (Gen.V1 m ρ c main_v21 : (⟨S100000x1, .f32⟩ : BufTy).Contents (Elt Ideal)) = kinv (m ((c : Thread nD τ).loc main_arg3)) := by
  show StableHlo.after hostOps0 (W0 m ρ c) (Proc.devRef .tc main_v21) = _
  after_results_simp
  rfl

/-! ### Region 1's entry -/

theorem W2_main_arg1 : Gen.W2 m ρ c (Proc.devRef .tc main_arg1) = m ((c : Thread nD τ).loc main_arg1) :=
  calc W2 m ρ c (Proc.devRef .tc main_arg1)
    _ = W1 m ρ c (Proc.devRef .tc main_arg1) := (W2_arr m ρ c 2).trans (((dat0 (V1 m ρ) c).arrAt_in 2 rfl _).trans (A_eq0 (V1 m ρ) c 2))
    _ = W0 m ρ c (Proc.devRef .tc main_arg1) := (by host_skip)
    _ = m ((c : Thread nD τ).loc main_arg1) := rfl

theorem W2_main_arg3 : Gen.W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := (by host_skip)
    _ = m ((c : Thread nD τ).loc main_arg3) := rfl

theorem V3_main_v54_pre : (Gen.V3 m ρ c main_v54 : (⟨S100000x128, .f32⟩ : BufTy).Contents (Elt Ideal)) = kmsum (W2 m ρ c (Proc.devRef .tc main_arg1)) (W2 m ρ c (Proc.devRef .tc main_arg3)) := by
  show StableHlo.after hostOps1 (W2 m ρ c) (Proc.devRef .tc main_v54) = _
  after_results_simp
  rfl

theorem V3_main_v54 : (Gen.V3 m ρ c main_v54 : (⟨S100000x128, .f32⟩ : BufTy).Contents (Elt Ideal)) = kmsum (m ((c : Thread nD τ).loc main_arg1)) (m ((c : Thread nD τ).loc main_arg3)) :=
  (V3_main_v54_pre m ρ c).trans (by rw [W2_main_arg1 m ρ c, W2_main_arg3 m ρ c])

theorem V3_main_v21 : (Gen.V3 m ρ c main_v21 : (⟨S100000x1, .f32⟩ : BufTy).Contents (Elt Ideal)) = kinv (m ((c : Thread nD τ).loc main_arg3)) :=
  (calc W3 m ρ c (Proc.devRef .tc main_v21)
      _ = W2 m ρ c (Proc.devRef .tc main_v21) := (by host_skip)
      _ = W1 m ρ c (Proc.devRef .tc main_v21) := W2_of_ne m ρ c main_v21 (by decide)).trans (V1_main_v21 m ρ c)

theorem V3_main_arg0 : Gen.V3 m ρ c main_arg0 = m ((c : Thread nD τ).loc main_arg0) :=
  calc W3 m ρ c (Proc.devRef .tc main_arg0)
    _ = W2 m ρ c (Proc.devRef .tc main_arg0) := (by host_skip)
    _ = W1 m ρ c (Proc.devRef .tc main_arg0) := W2_of_ne m ρ c main_arg0 (by decide)
    _ = W0 m ρ c (Proc.devRef .tc main_arg0) := (by host_skip)
    _ = m ((c : Thread nD τ).loc main_arg0) := rfl

theorem V3_main_arg7 : Gen.V3 m ρ c main_arg7 = m ((c : Thread nD τ).loc main_arg7) :=
  calc W3 m ρ c (Proc.devRef .tc main_arg7)
    _ = W2 m ρ c (Proc.devRef .tc main_arg7) := (by host_skip)
    _ = W1 m ρ c (Proc.devRef .tc main_arg7) := W2_of_ne m ρ c main_arg7 (by decide)
    _ = W0 m ρ c (Proc.devRef .tc main_arg7) := (by host_skip)
    _ = m ((c : Thread nD τ).loc main_arg7) := rfl

theorem V3_main_arg14 : Gen.V3 m ρ c main_arg14 = m ((c : Thread nD τ).loc main_arg14) :=
  calc W3 m ρ c (Proc.devRef .tc main_arg14)
    _ = W2 m ρ c (Proc.devRef .tc main_arg14) := (by host_skip)
    _ = W1 m ρ c (Proc.devRef .tc main_arg14) := W2_of_ne m ρ c main_arg14 (by decide)
    _ = W0 m ρ c (Proc.devRef .tc main_arg14) := (by host_skip)
    _ = m ((c : Thread nD τ).loc main_arg14) := rfl

theorem V3_main_arg8 : Gen.V3 m ρ c main_arg8 = m ((c : Thread nD τ).loc main_arg8) :=
  calc W3 m ρ c (Proc.devRef .tc main_arg8)
    _ = W2 m ρ c (Proc.devRef .tc main_arg8) := (by host_skip)
    _ = W1 m ρ c (Proc.devRef .tc main_arg8) := W2_of_ne m ρ c main_arg8 (by decide)
    _ = W0 m ρ c (Proc.devRef .tc main_arg8) := (by host_skip)
    _ = m ((c : Thread nD τ).loc main_arg8) := rfl

/-! ### Region 2's entry -/

theorem W4_main_arg2 : Gen.W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := (by host_skip)
    _ = W1 m ρ c (Proc.devRef .tc main_arg2) := W2_of_ne m ρ c main_arg2 (by decide)
    _ = W0 m ρ c (Proc.devRef .tc main_arg2) := (by host_skip)
    _ = m ((c : Thread nD τ).loc main_arg2) := rfl

theorem V5_main_v70_pre : (Gen.V5 m ρ c main_v70 : (⟨S100000x128, .f32⟩ : BufTy).Contents (Elt Ideal)) = kmsumB (W4 m ρ c (Proc.devRef .tc main_v55)) (W4 m ρ c (Proc.devRef .tc main_arg2)) := by
  show StableHlo.after hostOps2 (W4 m ρ c) (Proc.devRef .tc main_v70) = _
  after_results_simp
  rfl

theorem V5_main_v70 : (Gen.V5 m ρ c main_v70 : (⟨S100000x128, .f32⟩ : BufTy).Contents (Elt Ideal)) = kmsumB (Gen.W4 m ρ c (Proc.devRef .tc main_v55)) (m ((c : Thread nD τ).loc main_arg2)) :=
  (V5_main_v70_pre m ρ c).trans (by rw [W4_main_arg2 m ρ c])

theorem V5_main_v10 : (Gen.V5 m ρ c main_v10 : (⟨S100000x1, .f32⟩ : BufTy).Contents (Elt Ideal)) = kinv (m ((c : Thread nD τ).loc main_arg2)) :=
  (calc W5 m ρ c (Proc.devRef .tc main_v10)
      _ = W4 m ρ c (Proc.devRef .tc main_v10) := (by host_skip)
      _ = W3 m ρ c (Proc.devRef .tc main_v10) := W4_of_ne m ρ c main_v10 (by decide)
      _ = W2 m ρ c (Proc.devRef .tc main_v10) := (by host_skip)
      _ = W1 m ρ c (Proc.devRef .tc main_v10) := (W2_arr m ρ c 1).trans (((dat0 (V1 m ρ) c).arrAt_in 1 rfl _).trans (A_eq0 (V1 m ρ) c 1))).trans (V1_main_v10 m ρ c)

theorem V5_main_v38 : Gen.V5 m ρ c main_v38 = Gen.W2 m ρ c (Proc.devRef .tc main_v38) :=
  calc W5 m ρ c (Proc.devRef .tc main_v38)
    _ = W4 m ρ c (Proc.devRef .tc main_v38) := (by host_skip)
    _ = W3 m ρ c (Proc.devRef .tc main_v38) := W4_of_ne m ρ c main_v38 (by decide)
    _ = W2 m ρ c (Proc.devRef .tc main_v38) := (by host_skip)

theorem V5_main_arg9 : Gen.V5 m ρ c main_arg9 = m ((c : Thread nD τ).loc main_arg9) :=
  calc W5 m ρ c (Proc.devRef .tc main_arg9)
    _ = W4 m ρ c (Proc.devRef .tc main_arg9) := (by host_skip)
    _ = W3 m ρ c (Proc.devRef .tc main_arg9) := W4_of_ne m ρ c main_arg9 (by decide)
    _ = W2 m ρ c (Proc.devRef .tc main_arg9) := (by host_skip)
    _ = W1 m ρ c (Proc.devRef .tc main_arg9) := W2_of_ne m ρ c main_arg9 (by decide)
    _ = W0 m ρ c (Proc.devRef .tc main_arg9) := (by host_skip)
    _ = m ((c : Thread nD τ).loc main_arg9) := rfl

theorem V5_main_arg15 : Gen.V5 m ρ c main_arg15 = m ((c : Thread nD τ).loc main_arg15) :=
  calc W5 m ρ c (Proc.devRef .tc main_arg15)
    _ = W4 m ρ c (Proc.devRef .tc main_arg15) := (by host_skip)
    _ = W3 m ρ c (Proc.devRef .tc main_arg15) := W4_of_ne m ρ c main_arg15 (by decide)
    _ = W2 m ρ c (Proc.devRef .tc main_arg15) := (by host_skip)
    _ = W1 m ρ c (Proc.devRef .tc main_arg15) := W2_of_ne m ρ c main_arg15 (by decide)
    _ = W0 m ρ c (Proc.devRef .tc main_arg15) := (by host_skip)
    _ = m ((c : Thread nD τ).loc main_arg15) := rfl

theorem V5_main_arg10 : Gen.V5 m ρ c main_arg10 = m ((c : Thread nD τ).loc main_arg10) :=
  calc W5 m ρ c (Proc.devRef .tc main_arg10)
    _ = W4 m ρ c (Proc.devRef .tc main_arg10) := (by host_skip)
    _ = W3 m ρ c (Proc.devRef .tc main_arg10) := W4_of_ne m ρ c main_arg10 (by decide)
    _ = W2 m ρ c (Proc.devRef .tc main_arg10) := (by host_skip)
    _ = W1 m ρ c (Proc.devRef .tc main_arg10) := W2_of_ne m ρ c main_arg10 (by decide)
    _ = W0 m ρ c (Proc.devRef .tc main_arg10) := (by host_skip)
    _ = m ((c : Thread nD τ).loc main_arg10) := rfl

/-! ### Region 3's entry -/

theorem W6_main_arg3 : Gen.W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := (by host_skip)
    _ = W3 m ρ c (Proc.devRef .tc main_arg3) := W4_of_ne m ρ c main_arg3 (by decide)
    _ = W2 m ρ c (Proc.devRef .tc main_arg3) := (by host_skip)
    _ = W1 m ρ c (Proc.devRef .tc main_arg3) := W2_of_ne m ρ c main_arg3 (by decide)
    _ = W0 m ρ c (Proc.devRef .tc main_arg3) := (by host_skip)
    _ = m ((c : Thread nD τ).loc main_arg3) := rfl

theorem W6_main_v38 : Gen.W6 m ρ c (Proc.devRef .tc main_v38) = Gen.W2 m ρ c (Proc.devRef .tc main_v38) :=
  calc W6 m ρ c (Proc.devRef .tc main_v38)
    _ = W5 m ρ c (Proc.devRef .tc main_v38) := (W6_arr m ρ c 2).trans (((dat2 (V5 m ρ) c).arrAt_in 2 rfl _).trans (A_eq2 (V5 m ρ) c 2))
    _ = W4 m ρ c (Proc.devRef .tc main_v38) := (by host_skip)
    _ = W3 m ρ c (Proc.devRef .tc main_v38) := W4_of_ne m ρ c main_v38 (by decide)
    _ = W2 m ρ c (Proc.devRef .tc main_v38) := (by host_skip)

theorem V7_main_v86_pre : (Gen.V7 m ρ c main_v86 : (⟨S100000x128, .f32⟩ : BufTy).Contents (Elt Ideal)) = kmsumB (W6 m ρ c (Proc.devRef .tc main_v38)) (W6 m ρ c (Proc.devRef .tc main_arg3)) := by
  show StableHlo.after hostOps3 (W6 m ρ c) (Proc.devRef .tc main_v86) = _
  after_results_simp
  rfl

theorem V7_main_v86 : (Gen.V7 m ρ c main_v86 : (⟨S100000x128, .f32⟩ : BufTy).Contents (Elt Ideal)) = kmsumB (Gen.W2 m ρ c (Proc.devRef .tc main_v38)) (m ((c : Thread nD τ).loc main_arg3)) :=
  (V7_main_v86_pre m ρ c).trans (by rw [W6_main_v38 m ρ c, W6_main_arg3 m ρ c])

theorem V7_main_v21 : (Gen.V7 m ρ c main_v21 : (⟨S100000x1, .f32⟩ : BufTy).Contents (Elt Ideal)) = kinv (m ((c : Thread nD τ).loc main_arg3)) :=
  (calc W7 m ρ c (Proc.devRef .tc main_v21)
      _ = W6 m ρ c (Proc.devRef .tc main_v21) := (by host_skip)
      _ = W5 m ρ c (Proc.devRef .tc main_v21) := W6_of_ne m ρ c main_v21 (by decide)
      _ = W4 m ρ c (Proc.devRef .tc main_v21) := (by host_skip)
      _ = W3 m ρ c (Proc.devRef .tc main_v21) := (W4_arr m ρ c 1).trans (((dat1 (V3 m ρ) c).arrAt_in 1 rfl _).trans (A_eq1 (V3 m ρ) c 1))
      _ = W2 m ρ c (Proc.devRef .tc main_v21) := (by host_skip)
      _ = W1 m ρ c (Proc.devRef .tc main_v21) := W2_of_ne m ρ c main_v21 (by decide)).trans (V1_main_v21 m ρ c)

theorem V7_main_v55 : Gen.V7 m ρ c main_v55 = Gen.W4 m ρ c (Proc.devRef .tc main_v55) :=
  calc W7 m ρ c (Proc.devRef .tc main_v55)
    _ = W6 m ρ c (Proc.devRef .tc main_v55) := (by host_skip)
    _ = W5 m ρ c (Proc.devRef .tc main_v55) := W6_of_ne m ρ c main_v55 (by decide)
    _ = W4 m ρ c (Proc.devRef .tc main_v55) := (by host_skip)

theorem V7_main_arg11 : Gen.V7 m ρ c main_arg11 = m ((c : Thread nD τ).loc main_arg11) :=
  calc W7 m ρ c (Proc.devRef .tc main_arg11)
    _ = W6 m ρ c (Proc.devRef .tc main_arg11) := (by host_skip)
    _ = W5 m ρ c (Proc.devRef .tc main_arg11) := W6_of_ne m ρ c main_arg11 (by decide)
    _ = W4 m ρ c (Proc.devRef .tc main_arg11) := (by host_skip)
    _ = W3 m ρ c (Proc.devRef .tc main_arg11) := W4_of_ne m ρ c main_arg11 (by decide)
    _ = W2 m ρ c (Proc.devRef .tc main_arg11) := (by host_skip)
    _ = W1 m ρ c (Proc.devRef .tc main_arg11) := W2_of_ne m ρ c main_arg11 (by decide)
    _ = W0 m ρ c (Proc.devRef .tc main_arg11) := (by host_skip)
    _ = m ((c : Thread nD τ).loc main_arg11) := rfl

theorem V7_main_arg16 : Gen.V7 m ρ c main_arg16 = m ((c : Thread nD τ).loc main_arg16) :=
  calc W7 m ρ c (Proc.devRef .tc main_arg16)
    _ = W6 m ρ c (Proc.devRef .tc main_arg16) := (by host_skip)
    _ = W5 m ρ c (Proc.devRef .tc main_arg16) := W6_of_ne m ρ c main_arg16 (by decide)
    _ = W4 m ρ c (Proc.devRef .tc main_arg16) := (by host_skip)
    _ = W3 m ρ c (Proc.devRef .tc main_arg16) := W4_of_ne m ρ c main_arg16 (by decide)
    _ = W2 m ρ c (Proc.devRef .tc main_arg16) := (by host_skip)
    _ = W1 m ρ c (Proc.devRef .tc main_arg16) := W2_of_ne m ρ c main_arg16 (by decide)
    _ = W0 m ρ c (Proc.devRef .tc main_arg16) := (by host_skip)
    _ = m ((c : Thread nD τ).loc main_arg16) := rfl

theorem V7_main_arg12 : Gen.V7 m ρ c main_arg12 = m ((c : Thread nD τ).loc main_arg12) :=
  calc W7 m ρ c (Proc.devRef .tc main_arg12)
    _ = W6 m ρ c (Proc.devRef .tc main_arg12) := (by host_skip)
    _ = W5 m ρ c (Proc.devRef .tc main_arg12) := W6_of_ne m ρ c main_arg12 (by decide)
    _ = W4 m ρ c (Proc.devRef .tc main_arg12) := (by host_skip)
    _ = W3 m ρ c (Proc.devRef .tc main_arg12) := W4_of_ne m ρ c main_arg12 (by decide)
    _ = W2 m ρ c (Proc.devRef .tc main_arg12) := (by host_skip)
    _ = W1 m ρ c (Proc.devRef .tc main_arg12) := W2_of_ne m ρ c main_arg12 (by decide)
    _ = W0 m ρ c (Proc.devRef .tc main_arg12) := (by host_skip)
    _ = m ((c : Thread nD τ).loc main_arg12) := rfl

/-! ### The result -/

theorem W8_main_arg4 : Gen.W8 m ρ c (Proc.devRef .tc main_arg4) = m ((c : Thread nD τ).loc main_arg4) :=
  calc W8 m ρ c (Proc.devRef .tc main_arg4)
    _ = W7 m ρ c (Proc.devRef .tc main_arg4) := W8_of_ne m ρ c main_arg4 (by decide)
    _ = W6 m ρ c (Proc.devRef .tc main_arg4) := (by host_skip)
    _ = W5 m ρ c (Proc.devRef .tc main_arg4) := W6_of_ne m ρ c main_arg4 (by decide)
    _ = W4 m ρ c (Proc.devRef .tc main_arg4) := (by host_skip)
    _ = W3 m ρ c (Proc.devRef .tc main_arg4) := W4_of_ne m ρ c main_arg4 (by decide)
    _ = W2 m ρ c (Proc.devRef .tc main_arg4) := (by host_skip)
    _ = W1 m ρ c (Proc.devRef .tc main_arg4) := W2_of_ne m ρ c main_arg4 (by decide)
    _ = W0 m ρ c (Proc.devRef .tc main_arg4) := (by host_skip)
    _ = m ((c : Thread nD τ).loc main_arg4) := rfl

theorem W8_main_v71 : Gen.W8 m ρ c (Proc.devRef .tc main_v71) = Gen.W6 m ρ c (Proc.devRef .tc main_v71) :=
  calc W8 m ρ c (Proc.devRef .tc main_v71)
    _ = W7 m ρ c (Proc.devRef .tc main_v71) := W8_of_ne m ρ c main_v71 (by decide)
    _ = W6 m ρ c (Proc.devRef .tc main_v71) := (by host_skip)

theorem W9_main_v107_pre : (Gen.W9 m ρ c (Proc.devRef .tc main_v107) : (⟨S100000, .f32⟩ : BufTy).Contents (Elt Ideal)) = ktail (W8 m ρ c (Proc.devRef .tc main_v87)) (W8 m ρ c (Proc.devRef .tc main_v71)) (W8 m ρ c (Proc.devRef .tc main_arg4)) := by
  show StableHlo.after hostOps4 (W8 m ρ c) (Proc.devRef .tc main_v107) = _
  after_results_simp
  rfl

theorem W9_main_v107 : (Gen.W9 m ρ c (Proc.devRef .tc main_v107) : (⟨S100000, .f32⟩ : BufTy).Contents (Elt Ideal)) = ktail (Gen.W8 m ρ c (Proc.devRef .tc main_v87)) (Gen.W6 m ρ c (Proc.devRef .tc main_v71)) (m ((c : Thread nD τ).loc main_arg4)) :=
  (W9_main_v107_pre m ρ c).trans (by rw [W8_main_v71 m ρ c, W8_main_arg4 m ρ c])

end Cert.KernelIdeal.Host

end
-- ==== Proof.RowDense.lean ====
/-
  The dense half of one SAGE layer, for ONE destination row, on the extended reals.

  A row's pre-activation is  pre j = (∑ k, mean k · wl k j) + b j + ∑ k, xdst k · wr k j ;
  the row is then scaled by  1 / max (√(∑ j, pre j · pre j)) ε  and clamped at zero from below.
  Both programs compute exactly this function of a row of the aggregated neighbour mean,
  the row of the destination features, the two weight matrices and the bias; they differ
  only in how the mean itself is formed (a product with a reciprocal against a quotient),
  and that is the single algebraic law of this file.
-/
import Idealize.ShloMosaic.PureOps.Ideal
import Idealize.ShloMosaic.Lib.ValueIdx

noncomputable section

namespace Cert.Sage

open Idealize.ShloMosaic

/-- The normalisation floor, the single-precision word both programs spell. -/
abbrev eps : EReal := Ideal.ofBits .f32 0x2B8CBCCC#32

/-- One entry of a row's pre-activation. -/
def pre (mean xdst : Fin 128 → EReal) (wl wr : Fin 128 → Fin 128 → EReal) (b : Fin 128 → EReal) (j : Fin 128) : EReal :=
  (∑ k : Fin 128, mean k * wl k j) + b j + ∑ k : Fin 128, xdst k * wr k j

/-- One entry of the normalised, rectified row. -/
def rowDense (mean xdst : Fin 128 → EReal) (wl wr : Fin 128 → Fin 128 → EReal) (b : Fin 128 → EReal) (j : Fin 128) : EReal :=
  max (Ideal.div (pre mean xdst wl wr b j)
        (max (Ideal.sqrt (∑ j' : Fin 128, pre mean xdst wl wr b j' * pre mean xdst wl wr b j')) eps)) 0

/-- Multiplying by the reciprocal of a nonzero real is dividing by it, for every extended real. -/
theorem mul_recip_eq_div (x : EReal) {c : ℝ} (hc : c ≠ 0) :
    x * Ideal.div 1 (c : EReal) = Ideal.div x (c : EReal) := by
  rw [Ideal.div_coe hc, Ideal.div_coe hc, one_mul]

end Cert.Sage

end
-- ==== Proof.Payload.lean ====
/-
  The block body's arithmetic, read one entry at a time on the extended reals.

  For a block of 4000 rows the body forms, row by row, the mean as the row sum times the row's
  reciprocal count, the pre-activation  mean · wl + b + xdst · wr , the row's Euclidean norm
  floored at ε, the quotient by it, and the clamp at zero from below. Entry (p, q) of the result
  is `Cert.Sage.rowDense` of row p of the operands at q, for each of the four copies of the body.
-/
import proofs.«159423_j20968030339505_2_alg».proof.Proof.Gen.KernelIdeal.Skeleton
import proofs.«159423_j20968030339505_2_alg».proof.Proof.RowDense
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Idealize.ShloMosaic Idealize.ShloMosaic.ValueIdx Cert.KernelIdeal Cert.Sage

/-! ## Layout: a column kept as a second axis of extent one -/

/-- A length-a vector cast to an a-by-1 column reads, at row i, the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a-by-1 column broadcast along the second axis reads, at (p, c), the column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The contraction of a row with a column of a 128 × 128 matrix -/

/-- The body's one contraction: [4000, 128] against [128, 128] over the shared axis of 128. -/
abbrev D := dot_S4000x128_S128x128_S4000x128_1_0_0_1_n_n

theorem lhs0 (i : S4000x128.Idx) (q : D.contr.Idx) : (D.lhsIdx i q 0).val = (i 0).val := by
  unfold DotDims.lhsIdx
  rw [dif_neg (show ¬(0 : Fin S4000x128.rank) ∈ D.lhsBatch by decide), dif_pos (show (0 : Fin S4000x128.rank) ∈ D.lhsNonContracting by decide)]
  rfl
theorem lhs1 (i : S4000x128.Idx) (q : D.contr.Idx) : (D.lhsIdx i q 1).val = (q ⟨0, by decide⟩).val :=
  D.lhsIdx_val_of_single rfl i q
theorem rhs0 (i : S4000x128.Idx) (q : D.contr.Idx) : (D.rhsIdx i q 0).val = (q ⟨0, by decide⟩).val :=
  D.rhsIdx_val_of_single rfl i q
theorem rhs1 (i : S4000x128.Idx) (q : D.contr.Idx) : (D.rhsIdx i q 1).val = (i 1).val := by
  unfold DotDims.rhsIdx
  rw [dif_neg (show ¬(1 : Fin S128x128.rank) ∈ D.rhsBatch by decide), dif_pos (show (1 : Fin S128x128.rank) ∈ D.rhsNonContracting by decide)]
  rfl

/-- A product into the zero accumulator, read at (p, q): the sum over the contracted axis. -/
theorem mm_apply {φ₁ φ₂ : FTy} (A : FVec Ideal S4000x128 φ₁) (B : FVec Ideal S128x128 φ₂) (p : Fin 4000) (q : Fin 128) :
    matmul D none A B (constant (F := Ideal) S4000x128 .f32 0x00000000#32) (ix2 p q)
      = ∑ k : Fin 128, A (ix2 p k) * B (ix2 k q) := by
  refine (Ideal.matmul_constant_zero_apply D none A B (ix2 p q)).trans ?_
  rw [← Equiv.sum_comp (contrEquiv1 D 128 rfl rfl).symm]
  refine Finset.sum_congr rfl fun k _ => ?_
  have hk := contrEquiv1_symm_val D 128 rfl rfl k
  have el : D.lhsIdx (ix2 p q) ((contrEquiv1 D 128 rfl rfl).symm k) = ix2 p k := funext fun a => Fin.ext (by
    match a with
    | ⟨0, _⟩ => exact lhs0 _ _
    | ⟨1, _⟩ => exact (lhs1 _ _).trans hk)
  have er : D.rhsIdx (ix2 p q) ((contrEquiv1 D 128 rfl rfl).symm k) = ix2 k q := funext fun a => Fin.ext (by
    match a with
    | ⟨0, _⟩ => exact (rhs0 _ _).trans hk
    | ⟨1, _⟩ => exact rhs1 _ _)
  rw [el, er]

/-! ## The row sum -/

/-- The sum along the second axis, read at row p. -/
theorem rowsum_apply (src : FVec Ideal S4000x128 .f32) (h : S4000x128.Reduces [1] S4000) (hφ : FKind.Formats .f32)
    (hacc : (0x00000000#32 : BitVec 32) = 0x00000000#32) (p : Fin 4000) :
    multiReduction (F := Ideal) .add [1] S4000 src 0x00000000#32 h hφ hacc (ix1 p) = ∑ k : Fin 128, src (ix2 p k) := by
  refine (Ideal.multiReduction_add_single src 0x00000000#32 h hφ hacc (ix1 p)).trans ?_
  refine Finset.sum_congr rfl fun k _ => ?_
  refine congrArg src (funext fun a => Fin.ext ?_)
  match a with
  | ⟨0, _⟩ => rfl
  | ⟨1, _⟩ => rfl

/-! ## The tail: norm, floor, quotient, clamp -/

/-- The normalise-and-rectify tail over a block `y`, read at (p, q). -/
theorem tail_apply (y : FVec Ideal S4000x128 .f32) (h : S4000x128.Reduces [1] S4000) (hφ : FKind.Formats .f32)
    (hacc : (0x00000000#32 : BitVec 32) = 0x00000000#32) (hc : S4000.ShapeCasts S4000x1)
    (hb : S4000x1.Broadcasts S4000x128) (p : Fin 4000) (q : Fin 128) :
    maximumf (divf y (broadcastTo S4000x128
        (maximumf (sqrt (shapeCast S4000x1 (multiReduction (F := Ideal) .add [1] S4000 (mulf y y) 0x00000000#32 h hφ hacc) hc))
          (broadcast S4000x1 (Scalar.ofBits (F := Ideal) .f32 0x2B8CBCCC#32))) hb))
      (broadcast S4000x128 (Scalar.ofBits (F := Ideal) .f32 0x00000000#32)) (ix2 p q)
      = max (Ideal.div (y (ix2 p q)) (max (Ideal.sqrt (∑ k : Fin 128, y (ix2 p k) * y (ix2 p k))) (Ideal.ofBits .f32 0x2B8CBCCC#32))) 0 := by
  have hcol : (maximumf (sqrt (shapeCast S4000x1 (multiReduction (F := Ideal) .add [1] S4000 (mulf y y) 0x00000000#32 h hφ hacc) hc))
          (broadcast S4000x1 (Scalar.ofBits (F := Ideal) .f32 0x2B8CBCCC#32))) (ix2 p (0 : Fin 1))
        = max (Ideal.sqrt (∑ k : Fin 128, y (ix2 p k) * y (ix2 p k))) (Ideal.ofBits .f32 0x2B8CBCCC#32) := by
    show max (Ideal.sqrt (shapeCast S4000x1 (multiReduction (F := Ideal) .add [1] S4000 (mulf y y) 0x00000000#32 h hφ hacc) hc (ix2 p (0 : Fin 1)))) (Ideal.ofBits .f32 0x2B8CBCCC#32) = _
    rw [shapeCast_a_a1_apply, rowsum_apply]
    rfl
  show max (Ideal.div (y (ix2 p q)) (broadcastTo S4000x128 _ hb (ix2 p q))) (Ideal.ofBits .f32 0x00000000#32) = _
  rw [broadcastTo_a1_ab_apply, hcol, Ideal.ofBits_zero_f32]

/-! ## The pre-activation, and the four bodies -/

/-- The pre-activation block read at (p, j): the row's two products and the bias. -/
theorem pre_apply (v0 : FVec Ideal S4000x128 .f32) (v2 : FVec Ideal S4000x1 .f32) (X : FVec Ideal S4000x128 .bf16)
    (v9 v11 : FVec Ideal S128x128 .f32) (v14 : FVec Ideal S128 .f32)
    (hsc1 : S4000x128.ShapeCasts S4000x128) (hsc2 : S4000x1.ShapeCasts S4000x1) (hb1 : S4000x1.Broadcasts S4000x128)
    (hlt : FTy.bits .bf16 < FTy.bits .f32) (hsc3 : S128.ShapeCasts S1x128) (hb2 : S1x128.Broadcasts S4000x128)
    (p : Fin 4000) (j : Fin 128) :
    addf (addf (matmul D none (truncf .bf16 (mulf (shapeCast S4000x128 v0 hsc1) (broadcastTo S4000x128 (shapeCast S4000x1 v2 hsc2) hb1)) hlt)
            (truncf .bf16 v9 hlt) (constant (F := Ideal) S4000x128 .f32 0x00000000#32))
          (broadcastTo S4000x128 (shapeCast S1x128 v14 hsc3) hb2))
        (matmul D none X (truncf .bf16 v11 hlt) (constant (F := Ideal) S4000x128 .f32 0x00000000#32)) (ix2 p j)
      = pre (fun k => v0 (ix2 p k) * v2 (ix2 p (0 : Fin 1))) (fun k => X (ix2 p k)) (fun k j => v9 (ix2 k j))
          (fun k j => v11 (ix2 k j)) (fun j => v14 (ix1 j)) j := by
  rw [shapeCast_self, shapeCast_self]
  show (matmul D none _ _ _ (ix2 p j) + broadcastTo S4000x128 _ hb2 (ix2 p j)) + matmul D none _ _ _ (ix2 p j) = _
  rw [mm_apply, mm_apply, broadcastTo_1b_ab_apply, shapeCast_a_1a_apply]
  unfold pre
  refine congrArg₂ (· + ·) (congrArg₂ (· + ·) (Finset.sum_congr rfl fun k _ => ?_) rfl) rfl
  show v0 (ix2 p k) * broadcastTo S4000x128 v2 hb1 (ix2 p k) * v9 (ix2 k j) = _
  rw [broadcastTo_a1_ab_apply]

/-- Entry (p, q) of the first body's result is the dense row function of row p at q. -/
theorem pay0_apply (v0 : Vec Ideal S4000x128 .f32) (v2 : Vec Ideal S4000x1 .f32) (v7 : Vec Ideal S4000x128 .f32)
    (v9 v11 : Vec Ideal S128x128 .f32) (v14 : Vec Ideal S128 .f32) (p : Fin 4000) (q : Fin 128) :
    Gen.k0_pay1 (F := Ideal) v0 v2 v7 v9 v11 v14 (ix2 p q)
      = rowDense (fun k => v0 (ix2 p k) * v2 (ix2 p (0 : Fin 1))) (fun k => v7 (ix2 p k)) (fun k j => v9 (ix2 k j))
          (fun k j => v11 (ix2 k j)) (fun j => v14 (ix1 j)) q := by
  unfold Gen.k0_pay1
  dsimp only
  refine (truncf_apply (s := S4000x128) (φ := .f32) (ψ := .bf16) _ Gen.bitsLt_bf16_f32 (ix2 p q)).trans ?_
  refine (tail_apply _ _ _ _ _ _ p q).trans ?_
  unfold rowDense
  simp only [pre_apply]
  rfl

/-- The same for body 1. -/
theorem pay1_apply (v0 : Vec Ideal S4000x128 .f32) (v2 : Vec Ideal S4000x1 .f32) (v7 : Vec Ideal S4000x128 .f32)
    (v9 v11 : Vec Ideal S128x128 .f32) (v14 : Vec Ideal S128 .f32) (p : Fin 4000) (q : Fin 128) :
    Gen.k1_pay1 (F := Ideal) v0 v2 v7 v9 v11 v14 (ix2 p q)
      = rowDense (fun k => v0 (ix2 p k) * v2 (ix2 p (0 : Fin 1))) (fun k => v7 (ix2 p k)) (fun k j => v9 (ix2 k j))
          (fun k j => v11 (ix2 k j)) (fun j => v14 (ix1 j)) q := by
  unfold Gen.k1_pay1
  dsimp only
  refine (truncf_apply (s := S4000x128) (φ := .f32) (ψ := .bf16) _ Gen.bitsLt_bf16_f32 (ix2 p q)).trans ?_
  refine (tail_apply _ _ _ _ _ _ p q).trans ?_
  unfold rowDense
  simp only [pre_apply]
  rfl

/-- The same for body 2, whose destination rows arrive already narrowed and whose result is kept wide. -/
theorem pay2_apply (v0 : Vec Ideal S4000x128 .f32) (v2 : Vec Ideal S4000x1 .f32) (v7 : Vec Ideal S4000x128 .bf16)
    (v9 v11 : Vec Ideal S128x128 .f32) (v14 : Vec Ideal S128 .f32) (p : Fin 4000) (q : Fin 128) :
    Gen.k2_pay1 (F := Ideal) v0 v2 v7 v9 v11 v14 (ix2 p q)
      = rowDense (fun k => v0 (ix2 p k) * v2 (ix2 p (0 : Fin 1))) (fun k => v7 (ix2 p k)) (fun k j => v9 (ix2 k j))
          (fun k j => v11 (ix2 k j)) (fun j => v14 (ix1 j)) q := by
  unfold Gen.k2_pay1
  dsimp only
  refine (tail_apply _ _ _ _ _ _ p q).trans ?_
  unfold rowDense
  simp only [pre_apply]
  rw [shapeCast_self]

/-- The same for body 3, whose destination rows arrive already narrowed and whose result is kept wide. -/
theorem pay3_apply (v0 : Vec Ideal S4000x128 .f32) (v2 : Vec Ideal S4000x1 .f32) (v7 : Vec Ideal S4000x128 .bf16)
    (v9 v11 : Vec Ideal S128x128 .f32) (v14 : Vec Ideal S128 .f32) (p : Fin 4000) (q : Fin 128) :
    Gen.k3_pay1 (F := Ideal) v0 v2 v7 v9 v11 v14 (ix2 p q)
      = rowDense (fun k => v0 (ix2 p k) * v2 (ix2 p (0 : Fin 1))) (fun k => v7 (ix2 p k)) (fun k j => v9 (ix2 k j))
          (fun k j => v11 (ix2 k j)) (fun j => v14 (ix1 j)) q := by
  unfold Gen.k3_pay1
  dsimp only
  refine (tail_apply _ _ _ _ _ _ p q).trans ?_
  unfold rowDense
  simp only [pre_apply]
  rw [shapeCast_self]

end Cert.KernelIdeal.Pay

end
-- ==== Proof.Region0.lean ====
/-
  From the blocks to the whole array, region 0.

  The region is a one-dimensional grid of 25 points; at point t the row windows hold rows
  4000 t … 4000 t + 3999 of their arrays and the two weight matrices and the bias are held whole.
  The body's one store writes, at row p and lane q of the block, the dense half of the layer
  on row p of the block's inputs (the hypothesis on the payload), so what point t writes back is
  block t of ONE function G0 of the arrays the region finds; the 25 blocks tile the 100000 rows
  (row r is in block r / 4000), hence the array the region leaves is G0.
-/
import proofs.«159423_j20968030339505_2_alg».proof.Proof.Gen.KernelIdeal.Frame
import proofs.«159423_j20968030339505_2_alg».proof.Proof.RowDense
import Idealize.ShloMosaic.Lib.Pipeline.Value
import Idealize.ShloMosaic.Lib.ValueIdx

set_option maxRecDepth 16384

noncomputable section

namespace Cert.KernelIdeal.Region

open Cert.KernelIdeal Cert.KernelIdeal.Gen Idealize.ShloMosaic Idealize.ShloMosaic.TcCoe Idealize.SL.Sem
open Idealize.ShloMosaic.Pipeline (Dat)
open Idealize.ShloMosaic.ValueIdx
open Cert.Sage

variable (V : (c : Dev nD) → (b : Ref sig .tc) → Buf (Elt Ideal) ((c : Thread nD τ).loc b))

private theorem zero2 : (![0, 0] : Fin 2 → Nat) = fun _ => 0 := funext fun a => by fin_cases a <;> rfl
private theorem zero1 : (![0] : Fin 1 → Nat) = fun _ => 0 := funext fun a => by fin_cases a; rfl

/-- The row function depends only on the values of its arguments. -/
private theorem rowDense_congr {m m' x x' : Fin 128 → EReal} {wl wl' wr wr' : Fin 128 → Fin 128 → EReal} {b b' : Fin 128 → EReal}
    {q q' : Fin 128} (hm : ∀ k, m k = m' k) (hx : ∀ k, x k = x' k) (hwl : ∀ k j, wl k j = wl' k j)
    (hwr : ∀ k j, wr k j = wr' k j) (hb : ∀ j, b j = b' j) (hq : q = q') :
    rowDense m x wl wr b q = rowDense m' x' wl' wr' b' q' := by
  obtain rfl : m = m' := funext hm
  obtain rfl : x = x' := funext hx
  obtain rfl : wl = wl' := funext fun k => funext (hwl k)
  obtain rfl : wr = wr' := funext fun k => funext (hwr k)
  obtain rfl : b = b' := funext hb
  rw [hq]

/-! ## Region 0 -/

/-- The arrays region 0 reads, as functions to the extended reals. -/
abbrev msum0 (c : Dev nD) : S100000x128.Idx → EReal := V c main_v37
abbrev inv0 (c : Dev nD) : S100000x1.Idx → EReal := V c main_v10
abbrev xdst0 (c : Dev nD) : S100000x128.Idx → EReal := V c main_arg1
abbrev wl0 (c : Dev nD) : S128x128.Idx → EReal := V c main_arg5
abbrev bias0 (c : Dev nD) : S128.Idx → EReal := V c main_arg13
abbrev wr0 (c : Dev nD) : S128x128.Idx → EReal := V c main_arg6

/-- Region 0's output as one function of the arrays the region finds: row by row, the dense half of the layer. -/
abbrev G0 (c : Dev nD) : S100000x128.Idx → EReal := fun i =>
  rowDense (fun k => msum0 V c (ix2 (n0 := 100000) (i 0) k) * inv0 V c (ix2 (n0 := 100000) (i 0) (0 : Fin 1)))
    (fun k => xdst0 V c (ix2 (n0 := 100000) (i 0) k))
    (fun k j => wl0 V c (ix2 k j)) (fun k j => wr0 V c (ix2 k j))
    (fun j => bias0 V c (ix1 j)) (i 1)

/-- The printed index maps, decided over the grid: the row windows sit at block t, the weights and the bias at block 0. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Window 0's block at point t is rows 4000 t … 4000 t + 3999 of its array. -/
theorem read0_0 (c : Dev nD) (t : Fin cfg0.N) (x : S4000x128.Idx) (i : S100000x128.Idx)
    (h0 : (i 0).val = 4000 * t.val + (x 0).val) (h1 : (i 1).val = (x 1).val) :
    (iblk0 V c 0 t : Vec Ideal S4000x128 .f32) x = msum0 V c i := by
  obtain ⟨e0, e1, -⟩ := idx_facts0 t
  unfold iblk0
  rw [View.read_apply]
  show V c main_v37 _ = V c main_v37 _
  congr 1
  funext a; apply Fin.ext
  match a with
  | ⟨0, _⟩ => show win0_0.index t (0 : Fin 2) * 4000 + 1 * (x 0).val = (i 0).val; rw [e0, h0]; omega
  | ⟨1, _⟩ => show win0_0.index t (1 : Fin 2) * 128 + 1 * (x 1).val = (i 1).val; rw [e1, h1]; omega

theorem read0_1 (c : Dev nD) (t : Fin cfg0.N) (x : S4000x1.Idx) (i : S100000x1.Idx)
    (h0 : (i 0).val = 4000 * t.val + (x 0).val) (h1 : (i 1).val = (x 1).val) :
    (iblk0 V c 1 t : Vec Ideal S4000x1 .f32) x = inv0 V c i := by
  obtain ⟨-, -, e0, e1, -⟩ := idx_facts0 t
  unfold iblk0
  rw [View.read_apply]
  show V c main_v10 _ = V c main_v10 _
  congr 1
  funext a; apply Fin.ext
  match a with
  | ⟨0, _⟩ => show win0_1.index t (0 : Fin 2) * 4000 + 1 * (x 0).val = (i 0).val; rw [e0, h0]; omega
  | ⟨1, _⟩ => show win0_1.index t (1 : Fin 2) * 1 + 1 * (x 1).val = (i 1).val; rw [e1, h1]; omega

theorem read0_2 (c : Dev nD) (t : Fin cfg0.N) (x : S4000x128.Idx) (i : S100000x128.Idx)
    (h0 : (i 0).val = 4000 * t.val + (x 0).val) (h1 : (i 1).val = (x 1).val) :
    (iblk0 V c 2 t : Vec Ideal S4000x128 .f32) x = xdst0 V c i := by
  obtain ⟨-, -, -, -, e0, e1, -⟩ := idx_facts0 t
  unfold iblk0
  rw [View.read_apply]
  show V c main_arg1 _ = V c main_arg1 _
  congr 1
  funext a; apply Fin.ext
  match a with
  | ⟨0, _⟩ => show win0_2.index t (0 : Fin 2) * 4000 + 1 * (x 0).val = (i 0).val; rw [e0, h0]; omega
  | ⟨1, _⟩ => show win0_2.index t (1 : Fin 2) * 128 + 1 * (x 1).val = (i 1).val; rw [e1, h1]; omega

theorem read0_3 (c : Dev nD) (t : Fin cfg0.N) (x : S128x128.Idx) :
    (iblk0 V c 3 t : Vec Ideal S128x128 .f32) x = wl0 V c x := by
  obtain ⟨-, -, -, -, -, -, e0, e1, -⟩ := idx_facts0 t
  unfold iblk0
  rw [View.read_apply]
  show V c main_arg5 _ = V c main_arg5 _
  congr 1
  funext a; apply Fin.ext
  match a with
  | ⟨0, _⟩ => show win0_3.index t (0 : Fin 2) * 128 + 1 * (x 0).val = (x 0).val; rw [e0]; omega
  | ⟨1, _⟩ => show win0_3.index t (1 : Fin 2) * 128 + 1 * (x 1).val = (x 1).val; rw [e1]; omega

theorem read0_4 (c : Dev nD) (t : Fin cfg0.N) (x : S128.Idx) :
    (iblk0 V c 4 t : Vec Ideal S128 .f32) x = bias0 V c x := by
  obtain ⟨-, -, -, -, -, -, -, -, e0, -⟩ := idx_facts0 t
  unfold iblk0
  rw [View.read_apply]
  show V c main_arg13 _ = V c main_arg13 _
  congr 1
  funext a; apply Fin.ext
  match a with
  | ⟨0, _⟩ => show win0_4.index t (0 : Fin 1) * 128 + 1 * (x 0).val = (x 0).val; rw [e0]; omega

theorem read0_5 (c : Dev nD) (t : Fin cfg0.N) (x : S128x128.Idx) :
    (iblk0 V c 5 t : Vec Ideal S128x128 .f32) x = wr0 V c x := by
  obtain ⟨-, -, -, -, -, -, -, -, -, e0, e1, -⟩ := idx_facts0 t
  unfold iblk0
  rw [View.read_apply]
  show V c main_arg6 _ = V c main_arg6 _
  congr 1
  funext a; apply Fin.ext
  match a with
  | ⟨0, _⟩ => show win0_5.index t (0 : Fin 2) * 128 + 1 * (x 0).val = (x 0).val; rw [e0]; omega
  | ⟨1, _⟩ => show win0_5.index t (1 : Fin 2) * 128 + 1 * (x 1).val = (x 1).val; rw [e1]; omega

/-- An index of the array is in point t's block iff each coordinate is in the block's range on its axis. -/
theorem mem_blk0 (t : Fin cfg0.N) (i : S100000x128.Idx) :
    i ∈ ((cfg0.win 6).blk t).view.set ↔ ∀ a : Fin 2, win0_6.index t a * S4000x128.size a ≤ (i a).val ∧ (i a).val < win0_6.index t a * S4000x128.size a + S4000x128.size a := by
  show i ∈ ((View.whole main_v38).slice (win0_6.rect t)).set ↔ _
  rw [View.set_slice_whole, Rect.mem_set_unit]
  exact Iff.rfl

/-- Every row of the array lies in the block of the point its row number divided by 4000 names. -/
theorem cover0 (i : S100000x128.Idx) :
    ∃ t : Fin cfg0.N, (cfg0.win 6).flush t = true ∧ i ∈ ((cfg0.win 6).blk t).view.set := by
  have hN : cfg0.N = 25 := N_0
  have hi0 : (i 0).val < 100000 := (i 0).isLt
  have hi1 : (i 1).val < 128 := (i 1).isLt
  have ht : (i 0).val / 4000 < cfg0.N := by omega
  obtain ⟨t, ht'⟩ : ∃ t : Fin cfg0.N, t.val = (i 0).val / 4000 := ⟨⟨_, ht⟩, rfl⟩
  refine ⟨t, flush0_6 t, ?_⟩
  rw [mem_blk0]
  obtain ⟨-, -, -, -, -, -, -, -, -, -, -, e0, e1⟩ := idx_facts0 t
  intro a
  match a with
  | ⟨0, _⟩ =>
    show win0_6.index t (0 : Fin 2) * 4000 ≤ (i 0).val ∧ (i 0).val < win0_6.index t (0 : Fin 2) * 4000 + 4000
    omega
  | ⟨1, _⟩ =>
    show win0_6.index t (1 : Fin 2) * 128 ≤ (i 1).val ∧ (i 1).val < win0_6.index t (1 : Fin 2) * 128 + 128
    omega

section
variable (hpay : ∀ (v0 : Vec Ideal S4000x128 .f32) (v2 : Vec Ideal S4000x1 .f32) (v7 : Vec Ideal S4000x128 .f32)
    (v9 v11 : Vec Ideal S128x128 .f32) (v14 : Vec Ideal S128 .f32) (p : Fin 4000) (q : Fin 128),
    Gen.k0_pay1 (F := Ideal) v0 v2 v7 v9 v11 v14 (ix2 p q)
      = rowDense (fun k => v0 (ix2 p k) * v2 (ix2 p (0 : Fin 1))) (fun k => v7 (ix2 p k)) (fun k j => v9 (ix2 k j))
          (fun k j => v11 (ix2 k j)) (fun j => v14 (ix1 j)) q)
include hpay

/-- The payload at any index of its block, the index split into its row and lane. -/
theorem pay0_at (v0 : Vec Ideal S4000x128 .f32) (v2 : Vec Ideal S4000x1 .f32) (v7 : Vec Ideal S4000x128 .f32)
    (v9 v11 : Vec Ideal S128x128 .f32) (v14 : Vec Ideal S128 .f32) (j : S4000x128.Idx) :
    Gen.k0_pay1 (F := Ideal) v0 v2 v7 v9 v11 v14 j
      = rowDense (fun k => v0 (ix2 (n0 := 4000) (j 0) k) * v2 (ix2 (n0 := 4000) (j 0) (0 : Fin 1))) (fun k => v7 (ix2 (n0 := 4000) (j 0) k))
          (fun k l => v9 (ix2 k l)) (fun k l => v11 (ix2 k l)) (fun l => v14 (ix1 l)) (j 1) := by
  obtain ⟨p, q, rfl⟩ : ∃ (p : Fin 4000) (q : Fin 128), j = ix2 p q := ⟨j 0, j 1, eq_ix2 j⟩
  exact hpay v0 v2 v7 v9 v11 v14 p q

/-- What point t writes back is block t of G0. -/
theorem flushed0_eq (c : Dev nD) (t : Fin cfg0.N) :
    (dat0 V c).flushed 6 t = ((cfg0.win 6).blk t).view.read (Elt Ideal) (G0 V c) := by
  show (cfg0.win 6).cut (grid0.coords t) ((dat0 V c).after 6 t) = _
  rw [after0_6]
  unfold out0_6
  rw [View.canon_unit_zero zero2]
  simp only [View.ld_unit_zero (S := S4000x128) zero2, View.ld_unit_zero (S := S4000x1) zero2, View.ld_unit_zero (S := S128x128) zero2, View.ld_unit_zero (S := S128) zero1]
  funext j
  have hj0 : (j 0).val < 4000 := (j 0).isLt
  have hj1 : (j 1).val < 128 := (j 1).isLt
  obtain ⟨-, -, -, -, -, -, -, -, -, -, -, e0, e1⟩ := idx_facts0 t
  have hrow : ((((cfg0.win 6).blk t).view.emb j) 0).val = 4000 * t.val + (j 0).val := by
    show win0_6.index t (0 : Fin 2) * 4000 + 1 * (j 0).val = _
    rw [e0]; omega
  have hcol : (((cfg0.win 6).blk t).view.emb j) 1 = j 1 := Fin.ext (by
    show win0_6.index t (1 : Fin 2) * 128 + 1 * (j 1).val = (j 1).val
    rw [e1]; omega)
  refine (pay0_at hpay (iblk0 V c 0 t) (iblk0 V c 1 t) (iblk0 V c 2 t) (iblk0 V c 3 t) (iblk0 V c 5 t) (iblk0 V c 4 t) j).trans ?_
  show _ = G0 V c (((cfg0.win 6).blk t).view.emb j)
  refine rowDense_congr (fun k => ?_) (fun k => ?_) (fun k l => ?_) (fun k l => ?_) (fun l => ?_) hcol.symm
  · exact congrArg₂ (· * ·) (read0_0 V c t _ _ hrow rfl) (read0_1 V c t _ _ hrow rfl)
  · exact read0_2 V c t _ _ hrow rfl
  · exact read0_3 V c t _
  · exact read0_5 V c t _
  · exact read0_4 V c t _

/-- The array region 0 leaves is G0 of the arrays it found. -/
theorem final0 (c : Dev nD) : (dat0 V c).arrAt 6 cfg0.N = G0 V c :=
  (dat0 V c).arrAt_eq_of_cover 6 (G0 V c) (fun t _ => flushed0_eq V hpay c t) cover0

end

/-- Region 0, entry by entry: row r of the output is the dense half of the layer on row r of the inputs. -/
theorem region0_value
    (hpay : ∀ (v0 : Vec Ideal S4000x128 .f32) (v2 : Vec Ideal S4000x1 .f32) (v7 : Vec Ideal S4000x128 .f32)
      (v9 v11 : Vec Ideal S128x128 .f32) (v14 : Vec Ideal S128 .f32) (p : Fin 4000) (q : Fin 128),
      Gen.k0_pay1 (F := Ideal) v0 v2 v7 v9 v11 v14 (ix2 p q)
        = rowDense (fun k => v0 (ix2 p k) * v2 (ix2 p (0 : Fin 1))) (fun k => v7 (ix2 p k)) (fun k j => v9 (ix2 k j))
            (fun k j => v11 (ix2 k j)) (fun j => v14 (ix1 j)) q)
    (V : (c : Dev nD) → (b : Ref sig .tc) → Buf (Elt Ideal) ((c : Thread nD τ).loc b)) (c : Dev nD) (r : Fin 100000) (q : Fin 128) :
    ((Gen.dat0 V c).arrAt 6 cfg0.N : S100000x128.Idx → EReal) (ix2 r q)
      = rowDense (fun k => msum0 V c (ix2 r k) * inv0 V c (ix2 r (0 : Fin 1)))
          (fun k => xdst0 V c (ix2 r k))
          (fun k j => wl0 V c (ix2 k j)) (fun k j => wr0 V c (ix2 k j))
          (fun j => bias0 V c (ix1 j)) q :=
  congrFun (final0 V hpay c) (ix2 r q)

end Cert.KernelIdeal.Region
end
-- ==== Proof.Region1.lean ====
/-
  From the blocks to the whole array, region 1.

  The region is a one-dimensional grid of 25 points; at point t the row windows hold rows
  4000 t … 4000 t + 3999 of their arrays and the two weight matrices and the bias are held whole.
  The body's one store writes, at row p and lane q of the block, the dense half of the layer
  on row p of the block's inputs (the hypothesis on the payload), so what point t writes back is
  block t of ONE function G1 of the arrays the region finds; the 25 blocks tile the 100000 rows
  (row r is in block r / 4000), hence the array the region leaves is G1.
-/
import proofs.«159423_j20968030339505_2_alg».proof.Proof.Gen.KernelIdeal.Frame
import proofs.«159423_j20968030339505_2_alg».proof.Proof.RowDense
import Idealize.ShloMosaic.Lib.Pipeline.Value
import Idealize.ShloMosaic.Lib.ValueIdx

set_option maxRecDepth 16384

noncomputable section

namespace Cert.KernelIdeal.Region

open Cert.KernelIdeal Cert.KernelIdeal.Gen Idealize.ShloMosaic Idealize.ShloMosaic.TcCoe Idealize.SL.Sem
open Idealize.ShloMosaic.Pipeline (Dat)
open Idealize.ShloMosaic.ValueIdx
open Cert.Sage

variable (V : (c : Dev nD) → (b : Ref sig .tc) → Buf (Elt Ideal) ((c : Thread nD τ).loc b))

private theorem zero2 : (![0, 0] : Fin 2 → Nat) = fun _ => 0 := funext fun a => by fin_cases a <;> rfl
private theorem zero1 : (![0] : Fin 1 → Nat) = fun _ => 0 := funext fun a => by fin_cases a; rfl

/-- The row function depends only on the values of its arguments. -/
private theorem rowDense_congr {m m' x x' : Fin 128 → EReal} {wl wl' wr wr' : Fin 128 → Fin 128 → EReal} {b b' : Fin 128 → EReal}
    {q q' : Fin 128} (hm : ∀ k, m k = m' k) (hx : ∀ k, x k = x' k) (hwl : ∀ k j, wl k j = wl' k j)
    (hwr : ∀ k j, wr k j = wr' k j) (hb : ∀ j, b j = b' j) (hq : q = q') :
    rowDense m x wl wr b q = rowDense m' x' wl' wr' b' q' := by
  obtain rfl : m = m' := funext hm
  obtain rfl : x = x' := funext hx
  obtain rfl : wl = wl' := funext fun k => funext (hwl k)
  obtain rfl : wr = wr' := funext fun k => funext (hwr k)
  obtain rfl : b = b' := funext hb
  rw [hq]

/-! ## Region 1 -/

/-- The arrays region 1 reads, as functions to the extended reals. -/
abbrev msum1 (c : Dev nD) : S100000x128.Idx → EReal := V c main_v54
abbrev inv1 (c : Dev nD) : S100000x1.Idx → EReal := V c main_v21
abbrev xdst1 (c : Dev nD) : S100000x128.Idx → EReal := V c main_arg0
abbrev wl1 (c : Dev nD) : S128x128.Idx → EReal := V c main_arg7
abbrev bias1 (c : Dev nD) : S128.Idx → EReal := V c main_arg14
abbrev wr1 (c : Dev nD) : S128x128.Idx → EReal := V c main_arg8

/-- Region 1's output as one function of the arrays the region finds: row by row, the dense half of the layer. -/
abbrev G1 (c : Dev nD) : S100000x128.Idx → EReal := fun i =>
  rowDense (fun k => msum1 V c (ix2 (n0 := 100000) (i 0) k) * inv1 V c (ix2 (n0 := 100000) (i 0) (0 : Fin 1)))
    (fun k => xdst1 V c (ix2 (n0 := 100000) (i 0) k))
    (fun k j => wl1 V c (ix2 k j)) (fun k j => wr1 V c (ix2 k j))
    (fun j => bias1 V c (ix1 j)) (i 1)

/-- The printed index maps, decided over the grid: the row windows sit at block t, the weights and the bias at block 0. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Window 0's block at point t is rows 4000 t … 4000 t + 3999 of its array. -/
theorem read1_0 (c : Dev nD) (t : Fin cfg1.N) (x : S4000x128.Idx) (i : S100000x128.Idx)
    (h0 : (i 0).val = 4000 * t.val + (x 0).val) (h1 : (i 1).val = (x 1).val) :
    (iblk1 V c 0 t : Vec Ideal S4000x128 .f32) x = msum1 V c i := by
  obtain ⟨e0, e1, -⟩ := idx_facts1 t
  unfold iblk1
  rw [View.read_apply]
  show V c main_v54 _ = V c main_v54 _
  congr 1
  funext a; apply Fin.ext
  match a with
  | ⟨0, _⟩ => show win1_0.index t (0 : Fin 2) * 4000 + 1 * (x 0).val = (i 0).val; rw [e0, h0]; omega
  | ⟨1, _⟩ => show win1_0.index t (1 : Fin 2) * 128 + 1 * (x 1).val = (i 1).val; rw [e1, h1]; omega

theorem read1_1 (c : Dev nD) (t : Fin cfg1.N) (x : S4000x1.Idx) (i : S100000x1.Idx)
    (h0 : (i 0).val = 4000 * t.val + (x 0).val) (h1 : (i 1).val = (x 1).val) :
    (iblk1 V c 1 t : Vec Ideal S4000x1 .f32) x = inv1 V c i := by
  obtain ⟨-, -, e0, e1, -⟩ := idx_facts1 t
  unfold iblk1
  rw [View.read_apply]
  show V c main_v21 _ = V c main_v21 _
  congr 1
  funext a; apply Fin.ext
  match a with
  | ⟨0, _⟩ => show win1_1.index t (0 : Fin 2) * 4000 + 1 * (x 0).val = (i 0).val; rw [e0, h0]; omega
  | ⟨1, _⟩ => show win1_1.index t (1 : Fin 2) * 1 + 1 * (x 1).val = (i 1).val; rw [e1, h1]; omega

theorem read1_2 (c : Dev nD) (t : Fin cfg1.N) (x : S4000x128.Idx) (i : S100000x128.Idx)
    (h0 : (i 0).val = 4000 * t.val + (x 0).val) (h1 : (i 1).val = (x 1).val) :
    (iblk1 V c 2 t : Vec Ideal S4000x128 .f32) x = xdst1 V c i := by
  obtain ⟨-, -, -, -, e0, e1, -⟩ := idx_facts1 t
  unfold iblk1
  rw [View.read_apply]
  show V c main_arg0 _ = V c main_arg0 _
  congr 1
  funext a; apply Fin.ext
  match a with
  | ⟨0, _⟩ => show win1_2.index t (0 : Fin 2) * 4000 + 1 * (x 0).val = (i 0).val; rw [e0, h0]; omega
  | ⟨1, _⟩ => show win1_2.index t (1 : Fin 2) * 128 + 1 * (x 1).val = (i 1).val; rw [e1, h1]; omega

theorem read1_3 (c : Dev nD) (t : Fin cfg1.N) (x : S128x128.Idx) :
    (iblk1 V c 3 t : Vec Ideal S128x128 .f32) x = wl1 V c x := by
  obtain ⟨-, -, -, -, -, -, e0, e1, -⟩ := idx_facts1 t
  unfold iblk1
  rw [View.read_apply]
  show V c main_arg7 _ = V c main_arg7 _
  congr 1
  funext a; apply Fin.ext
  match a with
  | ⟨0, _⟩ => show win1_3.index t (0 : Fin 2) * 128 + 1 * (x 0).val = (x 0).val; rw [e0]; omega
  | ⟨1, _⟩ => show win1_3.index t (1 : Fin 2) * 128 + 1 * (x 1).val = (x 1).val; rw [e1]; omega

theorem read1_4 (c : Dev nD) (t : Fin cfg1.N) (x : S128.Idx) :
    (iblk1 V c 4 t : Vec Ideal S128 .f32) x = bias1 V c x := by
  obtain ⟨-, -, -, -, -, -, -, -, e0, -⟩ := idx_facts1 t
  unfold iblk1
  rw [View.read_apply]
  show V c main_arg14 _ = V c main_arg14 _
  congr 1
  funext a; apply Fin.ext
  match a with
  | ⟨0, _⟩ => show win1_4.index t (0 : Fin 1) * 128 + 1 * (x 0).val = (x 0).val; rw [e0]; omega

theorem read1_5 (c : Dev nD) (t : Fin cfg1.N) (x : S128x128.Idx) :
    (iblk1 V c 5 t : Vec Ideal S128x128 .f32) x = wr1 V c x := by
  obtain ⟨-, -, -, -, -, -, -, -, -, e0, e1, -⟩ := idx_facts1 t
  unfold iblk1
  rw [View.read_apply]
  show V c main_arg8 _ = V c main_arg8 _
  congr 1
  funext a; apply Fin.ext
  match a with
  | ⟨0, _⟩ => show win1_5.index t (0 : Fin 2) * 128 + 1 * (x 0).val = (x 0).val; rw [e0]; omega
  | ⟨1, _⟩ => show win1_5.index t (1 : Fin 2) * 128 + 1 * (x 1).val = (x 1).val; rw [e1]; omega

/-- An index of the array is in point t's block iff each coordinate is in the block's range on its axis. -/
theorem mem_blk1 (t : Fin cfg1.N) (i : S100000x128.Idx) :
    i ∈ ((cfg1.win 6).blk t).view.set ↔ ∀ a : Fin 2, win1_6.index t a * S4000x128.size a ≤ (i a).val ∧ (i a).val < win1_6.index t a * S4000x128.size a + S4000x128.size a := by
  show i ∈ ((View.whole main_v55).slice (win1_6.rect t)).set ↔ _
  rw [View.set_slice_whole, Rect.mem_set_unit]
  exact Iff.rfl

/-- Every row of the array lies in the block of the point its row number divided by 4000 names. -/
theorem cover1 (i : S100000x128.Idx) :
    ∃ t : Fin cfg1.N, (cfg1.win 6).flush t = true ∧ i ∈ ((cfg1.win 6).blk t).view.set := by
  have hN : cfg1.N = 25 := N_1
  have hi0 : (i 0).val < 100000 := (i 0).isLt
  have hi1 : (i 1).val < 128 := (i 1).isLt
  have ht : (i 0).val / 4000 < cfg1.N := by omega
  obtain ⟨t, ht'⟩ : ∃ t : Fin cfg1.N, t.val = (i 0).val / 4000 := ⟨⟨_, ht⟩, rfl⟩
  refine ⟨t, flush1_6 t, ?_⟩
  rw [mem_blk1]
  obtain ⟨-, -, -, -, -, -, -, -, -, -, -, e0, e1⟩ := idx_facts1 t
  intro a
  match a with
  | ⟨0, _⟩ =>
    show win1_6.index t (0 : Fin 2) * 4000 ≤ (i 0).val ∧ (i 0).val < win1_6.index t (0 : Fin 2) * 4000 + 4000
    omega
  | ⟨1, _⟩ =>
    show win1_6.index t (1 : Fin 2) * 128 ≤ (i 1).val ∧ (i 1).val < win1_6.index t (1 : Fin 2) * 128 + 128
    omega

section
variable (hpay : ∀ (v0 : Vec Ideal S4000x128 .f32) (v2 : Vec Ideal S4000x1 .f32) (v7 : Vec Ideal S4000x128 .f32)
    (v9 v11 : Vec Ideal S128x128 .f32) (v14 : Vec Ideal S128 .f32) (p : Fin 4000) (q : Fin 128),
    Gen.k1_pay1 (F := Ideal) v0 v2 v7 v9 v11 v14 (ix2 p q)
      = rowDense (fun k => v0 (ix2 p k) * v2 (ix2 p (0 : Fin 1))) (fun k => v7 (ix2 p k)) (fun k j => v9 (ix2 k j))
          (fun k j => v11 (ix2 k j)) (fun j => v14 (ix1 j)) q)
include hpay

/-- The payload at any index of its block, the index split into its row and lane. -/
theorem pay1_at (v0 : Vec Ideal S4000x128 .f32) (v2 : Vec Ideal S4000x1 .f32) (v7 : Vec Ideal S4000x128 .f32)
    (v9 v11 : Vec Ideal S128x128 .f32) (v14 : Vec Ideal S128 .f32) (j : S4000x128.Idx) :
    Gen.k1_pay1 (F := Ideal) v0 v2 v7 v9 v11 v14 j
      = rowDense (fun k => v0 (ix2 (n0 := 4000) (j 0) k) * v2 (ix2 (n0 := 4000) (j 0) (0 : Fin 1))) (fun k => v7 (ix2 (n0 := 4000) (j 0) k))
          (fun k l => v9 (ix2 k l)) (fun k l => v11 (ix2 k l)) (fun l => v14 (ix1 l)) (j 1) := by
  obtain ⟨p, q, rfl⟩ : ∃ (p : Fin 4000) (q : Fin 128), j = ix2 p q := ⟨j 0, j 1, eq_ix2 j⟩
  exact hpay v0 v2 v7 v9 v11 v14 p q

/-- What point t writes back is block t of G1. -/
theorem flushed1_eq (c : Dev nD) (t : Fin cfg1.N) :
    (dat1 V c).flushed 6 t = ((cfg1.win 6).blk t).view.read (Elt Ideal) (G1 V c) := by
  show (cfg1.win 6).cut (grid1.coords t) ((dat1 V c).after 6 t) = _
  rw [after1_6]
  unfold out1_6
  rw [View.canon_unit_zero zero2]
  simp only [View.ld_unit_zero (S := S4000x128) zero2, View.ld_unit_zero (S := S4000x1) zero2, View.ld_unit_zero (S := S128x128) zero2, View.ld_unit_zero (S := S128) zero1]
  funext j
  have hj0 : (j 0).val < 4000 := (j 0).isLt
  have hj1 : (j 1).val < 128 := (j 1).isLt
  obtain ⟨-, -, -, -, -, -, -, -, -, -, -, e0, e1⟩ := idx_facts1 t
  have hrow : ((((cfg1.win 6).blk t).view.emb j) 0).val = 4000 * t.val + (j 0).val := by
    show win1_6.index t (0 : Fin 2) * 4000 + 1 * (j 0).val = _
    rw [e0]; omega
  have hcol : (((cfg1.win 6).blk t).view.emb j) 1 = j 1 := Fin.ext (by
    show win1_6.index t (1 : Fin 2) * 128 + 1 * (j 1).val = (j 1).val
    rw [e1]; omega)
  refine (pay1_at hpay (iblk1 V c 0 t) (iblk1 V c 1 t) (iblk1 V c 2 t) (iblk1 V c 3 t) (iblk1 V c 5 t) (iblk1 V c 4 t) j).trans ?_
  show _ = G1 V c (((cfg1.win 6).blk t).view.emb j)
  refine rowDense_congr (fun k => ?_) (fun k => ?_) (fun k l => ?_) (fun k l => ?_) (fun l => ?_) hcol.symm
  · exact congrArg₂ (· * ·) (read1_0 V c t _ _ hrow rfl) (read1_1 V c t _ _ hrow rfl)
  · exact read1_2 V c t _ _ hrow rfl
  · exact read1_3 V c t _
  · exact read1_5 V c t _
  · exact read1_4 V c t _

/-- The array region 1 leaves is G1 of the arrays it found. -/
theorem final1 (c : Dev nD) : (dat1 V c).arrAt 6 cfg1.N = G1 V c :=
  (dat1 V c).arrAt_eq_of_cover 6 (G1 V c) (fun t _ => flushed1_eq V hpay c t) cover1

end

/-- Region 1, entry by entry: row r of the output is the dense half of the layer on row r of the inputs. -/
theorem region1_value
    (hpay : ∀ (v0 : Vec Ideal S4000x128 .f32) (v2 : Vec Ideal S4000x1 .f32) (v7 : Vec Ideal S4000x128 .f32)
      (v9 v11 : Vec Ideal S128x128 .f32) (v14 : Vec Ideal S128 .f32) (p : Fin 4000) (q : Fin 128),
      Gen.k1_pay1 (F := Ideal) v0 v2 v7 v9 v11 v14 (ix2 p q)
        = rowDense (fun k => v0 (ix2 p k) * v2 (ix2 p (0 : Fin 1))) (fun k => v7 (ix2 p k)) (fun k j => v9 (ix2 k j))
            (fun k j => v11 (ix2 k j)) (fun j => v14 (ix1 j)) q)
    (V : (c : Dev nD) → (b : Ref sig .tc) → Buf (Elt Ideal) ((c : Thread nD τ).loc b)) (c : Dev nD) (r : Fin 100000) (q : Fin 128) :
    ((Gen.dat1 V c).arrAt 6 cfg1.N : S100000x128.Idx → EReal) (ix2 r q)
      = rowDense (fun k => msum1 V c (ix2 r k) * inv1 V c (ix2 r (0 : Fin 1)))
          (fun k => xdst1 V c (ix2 r k))
          (fun k j => wl1 V c (ix2 k j)) (fun k j => wr1 V c (ix2 k j))
          (fun j => bias1 V c (ix1 j)) q :=
  congrFun (final1 V hpay c) (ix2 r q)

end Cert.KernelIdeal.Region
end
-- ==== Proof.Region2.lean ====
/-
  From the blocks to the whole array, region 2.

  The region is a one-dimensional grid of 25 points; at point t the row windows hold rows
  4000 t … 4000 t + 3999 of their arrays and the two weight matrices and the bias are held whole.
  The body's one store writes, at row p and lane q of the block, the dense half of the layer
  on row p of the block's inputs (the hypothesis on the payload), so what point t writes back is
  block t of ONE function G2 of the arrays the region finds; the 25 blocks tile the 100000 rows
  (row r is in block r / 4000), hence the array the region leaves is G2.
-/
import proofs.«159423_j20968030339505_2_alg».proof.Proof.Gen.KernelIdeal.Frame
import proofs.«159423_j20968030339505_2_alg».proof.Proof.RowDense
import Idealize.ShloMosaic.Lib.Pipeline.Value
import Idealize.ShloMosaic.Lib.ValueIdx

set_option maxRecDepth 16384

noncomputable section

namespace Cert.KernelIdeal.Region

open Cert.KernelIdeal Cert.KernelIdeal.Gen Idealize.ShloMosaic Idealize.ShloMosaic.TcCoe Idealize.SL.Sem
open Idealize.ShloMosaic.Pipeline (Dat)
open Idealize.ShloMosaic.ValueIdx
open Cert.Sage

variable (V : (c : Dev nD) → (b : Ref sig .tc) → Buf (Elt Ideal) ((c : Thread nD τ).loc b))

private theorem zero2 : (![0, 0] : Fin 2 → Nat) = fun _ => 0 := funext fun a => by fin_cases a <;> rfl
private theorem zero1 : (![0] : Fin 1 → Nat) = fun _ => 0 := funext fun a => by fin_cases a; rfl

/-- The row function depends only on the values of its arguments. -/
private theorem rowDense_congr {m m' x x' : Fin 128 → EReal} {wl wl' wr wr' : Fin 128 → Fin 128 → EReal} {b b' : Fin 128 → EReal}
    {q q' : Fin 128} (hm : ∀ k, m k = m' k) (hx : ∀ k, x k = x' k) (hwl : ∀ k j, wl k j = wl' k j)
    (hwr : ∀ k j, wr k j = wr' k j) (hb : ∀ j, b j = b' j) (hq : q = q') :
    rowDense m x wl wr b q = rowDense m' x' wl' wr' b' q' := by
  obtain rfl : m = m' := funext hm
  obtain rfl : x = x' := funext hx
  obtain rfl : wl = wl' := funext fun k => funext (hwl k)
  obtain rfl : wr = wr' := funext fun k => funext (hwr k)
  obtain rfl : b = b' := funext hb
  rw [hq]

/-! ## Region 2 -/

/-- The arrays region 2 reads, as functions to the extended reals. -/
abbrev msum2 (c : Dev nD) : S100000x128.Idx → EReal := V c main_v70
abbrev inv2 (c : Dev nD) : S100000x1.Idx → EReal := V c main_v10
abbrev xdst2 (c : Dev nD) : S100000x128.Idx → EReal := V c main_v38
abbrev wl2 (c : Dev nD) : S128x128.Idx → EReal := V c main_arg9
abbrev bias2 (c : Dev nD) : S128.Idx → EReal := V c main_arg15
abbrev wr2 (c : Dev nD) : S128x128.Idx → EReal := V c main_arg10

/-- Region 2's output as one function of the arrays the region finds: row by row, the dense half of the layer. -/
abbrev G2 (c : Dev nD) : S100000x128.Idx → EReal := fun i =>
  rowDense (fun k => msum2 V c (ix2 (n0 := 100000) (i 0) k) * inv2 V c (ix2 (n0 := 100000) (i 0) (0 : Fin 1)))
    (fun k => xdst2 V c (ix2 (n0 := 100000) (i 0) k))
    (fun k j => wl2 V c (ix2 k j)) (fun k j => wr2 V c (ix2 k j))
    (fun j => bias2 V c (ix1 j)) (i 1)

/-- The printed index maps, decided over the grid: the row windows sit at block t, the weights and the bias at block 0. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Window 0's block at point t is rows 4000 t … 4000 t + 3999 of its array. -/
theorem read2_0 (c : Dev nD) (t : Fin cfg2.N) (x : S4000x128.Idx) (i : S100000x128.Idx)
    (h0 : (i 0).val = 4000 * t.val + (x 0).val) (h1 : (i 1).val = (x 1).val) :
    (iblk2 V c 0 t : Vec Ideal S4000x128 .f32) x = msum2 V c i := by
  obtain ⟨e0, e1, -⟩ := idx_facts2 t
  unfold iblk2
  rw [View.read_apply]
  show V c main_v70 _ = V c main_v70 _
  congr 1
  funext a; apply Fin.ext
  match a with
  | ⟨0, _⟩ => show win2_0.index t (0 : Fin 2) * 4000 + 1 * (x 0).val = (i 0).val; rw [e0, h0]; omega
  | ⟨1, _⟩ => show win2_0.index t (1 : Fin 2) * 128 + 1 * (x 1).val = (i 1).val; rw [e1, h1]; omega

theorem read2_1 (c : Dev nD) (t : Fin cfg2.N) (x : S4000x1.Idx) (i : S100000x1.Idx)
    (h0 : (i 0).val = 4000 * t.val + (x 0).val) (h1 : (i 1).val = (x 1).val) :
    (iblk2 V c 1 t : Vec Ideal S4000x1 .f32) x = inv2 V c i := by
  obtain ⟨-, -, e0, e1, -⟩ := idx_facts2 t
  unfold iblk2
  rw [View.read_apply]
  show V c main_v10 _ = V c main_v10 _
  congr 1
  funext a; apply Fin.ext
  match a with
  | ⟨0, _⟩ => show win2_1.index t (0 : Fin 2) * 4000 + 1 * (x 0).val = (i 0).val; rw [e0, h0]; omega
  | ⟨1, _⟩ => show win2_1.index t (1 : Fin 2) * 1 + 1 * (x 1).val = (i 1).val; rw [e1, h1]; omega

theorem read2_2 (c : Dev nD) (t : Fin cfg2.N) (x : S4000x128.Idx) (i : S100000x128.Idx)
    (h0 : (i 0).val = 4000 * t.val + (x 0).val) (h1 : (i 1).val = (x 1).val) :
    (iblk2 V c 2 t : Vec Ideal S4000x128 .bf16) x = xdst2 V c i := by
  obtain ⟨-, -, -, -, e0, e1, -⟩ := idx_facts2 t
  unfold iblk2
  rw [View.read_apply]
  show V c main_v38 _ = V c main_v38 _
  congr 1
  funext a; apply Fin.ext
  match a with
  | ⟨0, _⟩ => show win2_2.index t (0 : Fin 2) * 4000 + 1 * (x 0).val = (i 0).val; rw [e0, h0]; omega
  | ⟨1, _⟩ => show win2_2.index t (1 : Fin 2) * 128 + 1 * (x 1).val = (i 1).val; rw [e1, h1]; omega

theorem read2_3 (c : Dev nD) (t : Fin cfg2.N) (x : S128x128.Idx) :
    (iblk2 V c 3 t : Vec Ideal S128x128 .f32) x = wl2 V c x := by
  obtain ⟨-, -, -, -, -, -, e0, e1, -⟩ := idx_facts2 t
  unfold iblk2
  rw [View.read_apply]
  show V c main_arg9 _ = V c main_arg9 _
  congr 1
  funext a; apply Fin.ext
  match a with
  | ⟨0, _⟩ => show win2_3.index t (0 : Fin 2) * 128 + 1 * (x 0).val = (x 0).val; rw [e0]; omega
  | ⟨1, _⟩ => show win2_3.index t (1 : Fin 2) * 128 + 1 * (x 1).val = (x 1).val; rw [e1]; omega

theorem read2_4 (c : Dev nD) (t : Fin cfg2.N) (x : S128.Idx) :
    (iblk2 V c 4 t : Vec Ideal S128 .f32) x = bias2 V c x := by
  obtain ⟨-, -, -, -, -, -, -, -, e0, -⟩ := idx_facts2 t
  unfold iblk2
  rw [View.read_apply]
  show V c main_arg15 _ = V c main_arg15 _
  congr 1
  funext a; apply Fin.ext
  match a with
  | ⟨0, _⟩ => show win2_4.index t (0 : Fin 1) * 128 + 1 * (x 0).val = (x 0).val; rw [e0]; omega

theorem read2_5 (c : Dev nD) (t : Fin cfg2.N) (x : S128x128.Idx) :
    (iblk2 V c 5 t : Vec Ideal S128x128 .f32) x = wr2 V c x := by
  obtain ⟨-, -, -, -, -, -, -, -, -, e0, e1, -⟩ := idx_facts2 t
  unfold iblk2
  rw [View.read_apply]
  show V c main_arg10 _ = V c main_arg10 _
  congr 1
  funext a; apply Fin.ext
  match a with
  | ⟨0, _⟩ => show win2_5.index t (0 : Fin 2) * 128 + 1 * (x 0).val = (x 0).val; rw [e0]; omega
  | ⟨1, _⟩ => show win2_5.index t (1 : Fin 2) * 128 + 1 * (x 1).val = (x 1).val; rw [e1]; omega

/-- An index of the array is in point t's block iff each coordinate is in the block's range on its axis. -/
theorem mem_blk2 (t : Fin cfg2.N) (i : S100000x128.Idx) :
    i ∈ ((cfg2.win 6).blk t).view.set ↔ ∀ a : Fin 2, win2_6.index t a * S4000x128.size a ≤ (i a).val ∧ (i a).val < win2_6.index t a * S4000x128.size a + S4000x128.size a := by
  show i ∈ ((View.whole main_v71).slice (win2_6.rect t)).set ↔ _
  rw [View.set_slice_whole, Rect.mem_set_unit]
  exact Iff.rfl

/-- Every row of the array lies in the block of the point its row number divided by 4000 names. -/
theorem cover2 (i : S100000x128.Idx) :
    ∃ t : Fin cfg2.N, (cfg2.win 6).flush t = true ∧ i ∈ ((cfg2.win 6).blk t).view.set := by
  have hN : cfg2.N = 25 := N_2
  have hi0 : (i 0).val < 100000 := (i 0).isLt
  have hi1 : (i 1).val < 128 := (i 1).isLt
  have ht : (i 0).val / 4000 < cfg2.N := by omega
  obtain ⟨t, ht'⟩ : ∃ t : Fin cfg2.N, t.val = (i 0).val / 4000 := ⟨⟨_, ht⟩, rfl⟩
  refine ⟨t, flush2_6 t, ?_⟩
  rw [mem_blk2]
  obtain ⟨-, -, -, -, -, -, -, -, -, -, -, e0, e1⟩ := idx_facts2 t
  intro a
  match a with
  | ⟨0, _⟩ =>
    show win2_6.index t (0 : Fin 2) * 4000 ≤ (i 0).val ∧ (i 0).val < win2_6.index t (0 : Fin 2) * 4000 + 4000
    omega
  | ⟨1, _⟩ =>
    show win2_6.index t (1 : Fin 2) * 128 ≤ (i 1).val ∧ (i 1).val < win2_6.index t (1 : Fin 2) * 128 + 128
    omega

section
variable (hpay : ∀ (v0 : Vec Ideal S4000x128 .f32) (v2 : Vec Ideal S4000x1 .f32) (v7 : Vec Ideal S4000x128 .bf16)
    (v9 v11 : Vec Ideal S128x128 .f32) (v14 : Vec Ideal S128 .f32) (p : Fin 4000) (q : Fin 128),
    Gen.k2_pay1 (F := Ideal) v0 v2 v7 v9 v11 v14 (ix2 p q)
      = rowDense (fun k => v0 (ix2 p k) * v2 (ix2 p (0 : Fin 1))) (fun k => v7 (ix2 p k)) (fun k j => v9 (ix2 k j))
          (fun k j => v11 (ix2 k j)) (fun j => v14 (ix1 j)) q)
include hpay

/-- The payload at any index of its block, the index split into its row and lane. -/
theorem pay2_at (v0 : Vec Ideal S4000x128 .f32) (v2 : Vec Ideal S4000x1 .f32) (v7 : Vec Ideal S4000x128 .bf16)
    (v9 v11 : Vec Ideal S128x128 .f32) (v14 : Vec Ideal S128 .f32) (j : S4000x128.Idx) :
    Gen.k2_pay1 (F := Ideal) v0 v2 v7 v9 v11 v14 j
      = rowDense (fun k => v0 (ix2 (n0 := 4000) (j 0) k) * v2 (ix2 (n0 := 4000) (j 0) (0 : Fin 1))) (fun k => v7 (ix2 (n0 := 4000) (j 0) k))
          (fun k l => v9 (ix2 k l)) (fun k l => v11 (ix2 k l)) (fun l => v14 (ix1 l)) (j 1) := by
  obtain ⟨p, q, rfl⟩ : ∃ (p : Fin 4000) (q : Fin 128), j = ix2 p q := ⟨j 0, j 1, eq_ix2 j⟩
  exact hpay v0 v2 v7 v9 v11 v14 p q

/-- What point t writes back is block t of G2. -/
theorem flushed2_eq (c : Dev nD) (t : Fin cfg2.N) :
    (dat2 V c).flushed 6 t = ((cfg2.win 6).blk t).view.read (Elt Ideal) (G2 V c) := by
  show (cfg2.win 6).cut (grid2.coords t) ((dat2 V c).after 6 t) = _
  rw [after2_6]
  unfold out2_6
  rw [View.canon_unit_zero zero2]
  simp only [View.ld_unit_zero (S := S4000x128) zero2, View.ld_unit_zero (S := S4000x1) zero2, View.ld_unit_zero (S := S128x128) zero2, View.ld_unit_zero (S := S128) zero1]
  funext j
  have hj0 : (j 0).val < 4000 := (j 0).isLt
  have hj1 : (j 1).val < 128 := (j 1).isLt
  obtain ⟨-, -, -, -, -, -, -, -, -, -, -, e0, e1⟩ := idx_facts2 t
  have hrow : ((((cfg2.win 6).blk t).view.emb j) 0).val = 4000 * t.val + (j 0).val := by
    show win2_6.index t (0 : Fin 2) * 4000 + 1 * (j 0).val = _
    rw [e0]; omega
  have hcol : (((cfg2.win 6).blk t).view.emb j) 1 = j 1 := Fin.ext (by
    show win2_6.index t (1 : Fin 2) * 128 + 1 * (j 1).val = (j 1).val
    rw [e1]; omega)
  refine (pay2_at hpay (iblk2 V c 0 t) (iblk2 V c 1 t) (iblk2 V c 2 t) (iblk2 V c 3 t) (iblk2 V c 5 t) (iblk2 V c 4 t) j).trans ?_
  show _ = G2 V c (((cfg2.win 6).blk t).view.emb j)
  refine rowDense_congr (fun k => ?_) (fun k => ?_) (fun k l => ?_) (fun k l => ?_) (fun l => ?_) hcol.symm
  · exact congrArg₂ (· * ·) (read2_0 V c t _ _ hrow rfl) (read2_1 V c t _ _ hrow rfl)
  · exact read2_2 V c t _ _ hrow rfl
  · exact read2_3 V c t _
  · exact read2_5 V c t _
  · exact read2_4 V c t _

/-- The array region 2 leaves is G2 of the arrays it found. -/
theorem final2 (c : Dev nD) : (dat2 V c).arrAt 6 cfg2.N = G2 V c :=
  (dat2 V c).arrAt_eq_of_cover 6 (G2 V c) (fun t _ => flushed2_eq V hpay c t) cover2

end

/-- Region 2, entry by entry: row r of the output is the dense half of the layer on row r of the inputs. -/
theorem region2_value
    (hpay : ∀ (v0 : Vec Ideal S4000x128 .f32) (v2 : Vec Ideal S4000x1 .f32) (v7 : Vec Ideal S4000x128 .bf16)
      (v9 v11 : Vec Ideal S128x128 .f32) (v14 : Vec Ideal S128 .f32) (p : Fin 4000) (q : Fin 128),
      Gen.k2_pay1 (F := Ideal) v0 v2 v7 v9 v11 v14 (ix2 p q)
        = rowDense (fun k => v0 (ix2 p k) * v2 (ix2 p (0 : Fin 1))) (fun k => v7 (ix2 p k)) (fun k j => v9 (ix2 k j))
            (fun k j => v11 (ix2 k j)) (fun j => v14 (ix1 j)) q)
    (V : (c : Dev nD) → (b : Ref sig .tc) → Buf (Elt Ideal) ((c : Thread nD τ).loc b)) (c : Dev nD) (r : Fin 100000) (q : Fin 128) :
    ((Gen.dat2 V c).arrAt 6 cfg2.N : S100000x128.Idx → EReal) (ix2 r q)
      = rowDense (fun k => msum2 V c (ix2 r k) * inv2 V c (ix2 r (0 : Fin 1)))
          (fun k => xdst2 V c (ix2 r k))
          (fun k j => wl2 V c (ix2 k j)) (fun k j => wr2 V c (ix2 k j))
          (fun j => bias2 V c (ix1 j)) q :=
  congrFun (final2 V hpay c) (ix2 r q)

end Cert.KernelIdeal.Region
end
-- ==== Proof.Region3.lean ====
/-
  From the blocks to the whole array, region 3.

  The region is a one-dimensional grid of 25 points; at point t the row windows hold rows
  4000 t … 4000 t + 3999 of their arrays and the two weight matrices and the bias are held whole.
  The body's one store writes, at row p and lane q of the block, the dense half of the layer
  on row p of the block's inputs (the hypothesis on the payload), so what point t writes back is
  block t of ONE function G3 of the arrays the region finds; the 25 blocks tile the 100000 rows
  (row r is in block r / 4000), hence the array the region leaves is G3.
-/
import proofs.«159423_j20968030339505_2_alg».proof.Proof.Gen.KernelIdeal.Frame
import proofs.«159423_j20968030339505_2_alg».proof.Proof.RowDense
import Idealize.ShloMosaic.Lib.Pipeline.Value
import Idealize.ShloMosaic.Lib.ValueIdx

set_option maxRecDepth 16384

noncomputable section

namespace Cert.KernelIdeal.Region

open Cert.KernelIdeal Cert.KernelIdeal.Gen Idealize.ShloMosaic Idealize.ShloMosaic.TcCoe Idealize.SL.Sem
open Idealize.ShloMosaic.Pipeline (Dat)
open Idealize.ShloMosaic.ValueIdx
open Cert.Sage

variable (V : (c : Dev nD) → (b : Ref sig .tc) → Buf (Elt Ideal) ((c : Thread nD τ).loc b))

private theorem zero2 : (![0, 0] : Fin 2 → Nat) = fun _ => 0 := funext fun a => by fin_cases a <;> rfl
private theorem zero1 : (![0] : Fin 1 → Nat) = fun _ => 0 := funext fun a => by fin_cases a; rfl

/-- The row function depends only on the values of its arguments. -/
private theorem rowDense_congr {m m' x x' : Fin 128 → EReal} {wl wl' wr wr' : Fin 128 → Fin 128 → EReal} {b b' : Fin 128 → EReal}
    {q q' : Fin 128} (hm : ∀ k, m k = m' k) (hx : ∀ k, x k = x' k) (hwl : ∀ k j, wl k j = wl' k j)
    (hwr : ∀ k j, wr k j = wr' k j) (hb : ∀ j, b j = b' j) (hq : q = q') :
    rowDense m x wl wr b q = rowDense m' x' wl' wr' b' q' := by
  obtain rfl : m = m' := funext hm
  obtain rfl : x = x' := funext hx
  obtain rfl : wl = wl' := funext fun k => funext (hwl k)
  obtain rfl : wr = wr' := funext fun k => funext (hwr k)
  obtain rfl : b = b' := funext hb
  rw [hq]

/-! ## Region 3 -/

/-- The arrays region 3 reads, as functions to the extended reals. -/
abbrev msum3 (c : Dev nD) : S100000x128.Idx → EReal := V c main_v86
abbrev inv3 (c : Dev nD) : S100000x1.Idx → EReal := V c main_v21
abbrev xdst3 (c : Dev nD) : S100000x128.Idx → EReal := V c main_v55
abbrev wl3 (c : Dev nD) : S128x128.Idx → EReal := V c main_arg11
abbrev bias3 (c : Dev nD) : S128.Idx → EReal := V c main_arg16
abbrev wr3 (c : Dev nD) : S128x128.Idx → EReal := V c main_arg12

/-- Region 3's output as one function of the arrays the region finds: row by row, the dense half of the layer. -/
abbrev G3 (c : Dev nD) : S100000x128.Idx → EReal := fun i =>
  rowDense (fun k => msum3 V c (ix2 (n0 := 100000) (i 0) k) * inv3 V c (ix2 (n0 := 100000) (i 0) (0 : Fin 1)))
    (fun k => xdst3 V c (ix2 (n0 := 100000) (i 0) k))
    (fun k j => wl3 V c (ix2 k j)) (fun k j => wr3 V c (ix2 k j))
    (fun j => bias3 V c (ix1 j)) (i 1)

/-- The printed index maps, decided over the grid: the row windows sit at block t, the weights and the bias at block 0. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 1) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- Window 0's block at point t is rows 4000 t … 4000 t + 3999 of its array. -/
theorem read3_0 (c : Dev nD) (t : Fin cfg3.N) (x : S4000x128.Idx) (i : S100000x128.Idx)
    (h0 : (i 0).val = 4000 * t.val + (x 0).val) (h1 : (i 1).val = (x 1).val) :
    (iblk3 V c 0 t : Vec Ideal S4000x128 .f32) x = msum3 V c i := by
  obtain ⟨e0, e1, -⟩ := idx_facts3 t
  unfold iblk3
  rw [View.read_apply]
  show V c main_v86 _ = V c main_v86 _
  congr 1
  funext a; apply Fin.ext
  match a with
  | ⟨0, _⟩ => show win3_0.index t (0 : Fin 2) * 4000 + 1 * (x 0).val = (i 0).val; rw [e0, h0]; omega
  | ⟨1, _⟩ => show win3_0.index t (1 : Fin 2) * 128 + 1 * (x 1).val = (i 1).val; rw [e1, h1]; omega

theorem read3_1 (c : Dev nD) (t : Fin cfg3.N) (x : S4000x1.Idx) (i : S100000x1.Idx)
    (h0 : (i 0).val = 4000 * t.val + (x 0).val) (h1 : (i 1).val = (x 1).val) :
    (iblk3 V c 1 t : Vec Ideal S4000x1 .f32) x = inv3 V c i := by
  obtain ⟨-, -, e0, e1, -⟩ := idx_facts3 t
  unfold iblk3
  rw [View.read_apply]
  show V c main_v21 _ = V c main_v21 _
  congr 1
  funext a; apply Fin.ext
  match a with
  | ⟨0, _⟩ => show win3_1.index t (0 : Fin 2) * 4000 + 1 * (x 0).val = (i 0).val; rw [e0, h0]; omega
  | ⟨1, _⟩ => show win3_1.index t (1 : Fin 2) * 1 + 1 * (x 1).val = (i 1).val; rw [e1, h1]; omega

theorem read3_2 (c : Dev nD) (t : Fin cfg3.N) (x : S4000x128.Idx) (i : S100000x128.Idx)
    (h0 : (i 0).val = 4000 * t.val + (x 0).val) (h1 : (i 1).val = (x 1).val) :
    (iblk3 V c 2 t : Vec Ideal S4000x128 .bf16) x = xdst3 V c i := by
  obtain ⟨-, -, -, -, e0, e1, -⟩ := idx_facts3 t
  unfold iblk3
  rw [View.read_apply]
  show V c main_v55 _ = V c main_v55 _
  congr 1
  funext a; apply Fin.ext
  match a with
  | ⟨0, _⟩ => show win3_2.index t (0 : Fin 2) * 4000 + 1 * (x 0).val = (i 0).val; rw [e0, h0]; omega
  | ⟨1, _⟩ => show win3_2.index t (1 : Fin 2) * 128 + 1 * (x 1).val = (i 1).val; rw [e1, h1]; omega

theorem read3_3 (c : Dev nD) (t : Fin cfg3.N) (x : S128x128.Idx) :
    (iblk3 V c 3 t : Vec Ideal S128x128 .f32) x = wl3 V c x := by
  obtain ⟨-, -, -, -, -, -, e0, e1, -⟩ := idx_facts3 t
  unfold iblk3
  rw [View.read_apply]
  show V c main_arg11 _ = V c main_arg11 _
  congr 1
  funext a; apply Fin.ext
  match a with
  | ⟨0, _⟩ => show win3_3.index t (0 : Fin 2) * 128 + 1 * (x 0).val = (x 0).val; rw [e0]; omega
  | ⟨1, _⟩ => show win3_3.index t (1 : Fin 2) * 128 + 1 * (x 1).val = (x 1).val; rw [e1]; omega

theorem read3_4 (c : Dev nD) (t : Fin cfg3.N) (x : S128.Idx) :
    (iblk3 V c 4 t : Vec Ideal S128 .f32) x = bias3 V c x := by
  obtain ⟨-, -, -, -, -, -, -, -, e0, -⟩ := idx_facts3 t
  unfold iblk3
  rw [View.read_apply]
  show V c main_arg16 _ = V c main_arg16 _
  congr 1
  funext a; apply Fin.ext
  match a with
  | ⟨0, _⟩ => show win3_4.index t (0 : Fin 1) * 128 + 1 * (x 0).val = (x 0).val; rw [e0]; omega

theorem read3_5 (c : Dev nD) (t : Fin cfg3.N) (x : S128x128.Idx) :
    (iblk3 V c 5 t : Vec Ideal S128x128 .f32) x = wr3 V c x := by
  obtain ⟨-, -, -, -, -, -, -, -, -, e0, e1, -⟩ := idx_facts3 t
  unfold iblk3
  rw [View.read_apply]
  show V c main_arg12 _ = V c main_arg12 _
  congr 1
  funext a; apply Fin.ext
  match a with
  | ⟨0, _⟩ => show win3_5.index t (0 : Fin 2) * 128 + 1 * (x 0).val = (x 0).val; rw [e0]; omega
  | ⟨1, _⟩ => show win3_5.index t (1 : Fin 2) * 128 + 1 * (x 1).val = (x 1).val; rw [e1]; omega

/-- An index of the array is in point t's block iff each coordinate is in the block's range on its axis. -/
theorem mem_blk3 (t : Fin cfg3.N) (i : S100000x128.Idx) :
    i ∈ ((cfg3.win 6).blk t).view.set ↔ ∀ a : Fin 2, win3_6.index t a * S4000x128.size a ≤ (i a).val ∧ (i a).val < win3_6.index t a * S4000x128.size a + S4000x128.size a := by
  show i ∈ ((View.whole main_v87).slice (win3_6.rect t)).set ↔ _
  rw [View.set_slice_whole, Rect.mem_set_unit]
  exact Iff.rfl

/-- Every row of the array lies in the block of the point its row number divided by 4000 names. -/
theorem cover3 (i : S100000x128.Idx) :
    ∃ t : Fin cfg3.N, (cfg3.win 6).flush t = true ∧ i ∈ ((cfg3.win 6).blk t).view.set := by
  have hN : cfg3.N = 25 := N_3
  have hi0 : (i 0).val < 100000 := (i 0).isLt
  have hi1 : (i 1).val < 128 := (i 1).isLt
  have ht : (i 0).val / 4000 < cfg3.N := by omega
  obtain ⟨t, ht'⟩ : ∃ t : Fin cfg3.N, t.val = (i 0).val / 4000 := ⟨⟨_, ht⟩, rfl⟩
  refine ⟨t, flush3_6 t, ?_⟩
  rw [mem_blk3]
  obtain ⟨-, -, -, -, -, -, -, -, -, -, -, e0, e1⟩ := idx_facts3 t
  intro a
  match a with
  | ⟨0, _⟩ =>
    show win3_6.index t (0 : Fin 2) * 4000 ≤ (i 0).val ∧ (i 0).val < win3_6.index t (0 : Fin 2) * 4000 + 4000
    omega
  | ⟨1, _⟩ =>
    show win3_6.index t (1 : Fin 2) * 128 ≤ (i 1).val ∧ (i 1).val < win3_6.index t (1 : Fin 2) * 128 + 128
    omega

section
variable (hpay : ∀ (v0 : Vec Ideal S4000x128 .f32) (v2 : Vec Ideal S4000x1 .f32) (v7 : Vec Ideal S4000x128 .bf16)
    (v9 v11 : Vec Ideal S128x128 .f32) (v14 : Vec Ideal S128 .f32) (p : Fin 4000) (q : Fin 128),
    Gen.k3_pay1 (F := Ideal) v0 v2 v7 v9 v11 v14 (ix2 p q)
      = rowDense (fun k => v0 (ix2 p k) * v2 (ix2 p (0 : Fin 1))) (fun k => v7 (ix2 p k)) (fun k j => v9 (ix2 k j))
          (fun k j => v11 (ix2 k j)) (fun j => v14 (ix1 j)) q)
include hpay

/-- The payload at any index of its block, the index split into its row and lane. -/
theorem pay3_at (v0 : Vec Ideal S4000x128 .f32) (v2 : Vec Ideal S4000x1 .f32) (v7 : Vec Ideal S4000x128 .bf16)
    (v9 v11 : Vec Ideal S128x128 .f32) (v14 : Vec Ideal S128 .f32) (j : S4000x128.Idx) :
    Gen.k3_pay1 (F := Ideal) v0 v2 v7 v9 v11 v14 j
      = rowDense (fun k => v0 (ix2 (n0 := 4000) (j 0) k) * v2 (ix2 (n0 := 4000) (j 0) (0 : Fin 1))) (fun k => v7 (ix2 (n0 := 4000) (j 0) k))
          (fun k l => v9 (ix2 k l)) (fun k l => v11 (ix2 k l)) (fun l => v14 (ix1 l)) (j 1) := by
  obtain ⟨p, q, rfl⟩ : ∃ (p : Fin 4000) (q : Fin 128), j = ix2 p q := ⟨j 0, j 1, eq_ix2 j⟩
  exact hpay v0 v2 v7 v9 v11 v14 p q

/-- What point t writes back is block t of G3. -/
theorem flushed3_eq (c : Dev nD) (t : Fin cfg3.N) :
    (dat3 V c).flushed 6 t = ((cfg3.win 6).blk t).view.read (Elt Ideal) (G3 V c) := by
  show (cfg3.win 6).cut (grid3.coords t) ((dat3 V c).after 6 t) = _
  rw [after3_6]
  unfold out3_6
  rw [View.canon_unit_zero zero2]
  simp only [View.ld_unit_zero (S := S4000x128) zero2, View.ld_unit_zero (S := S4000x1) zero2, View.ld_unit_zero (S := S128x128) zero2, View.ld_unit_zero (S := S128) zero1]
  funext j
  have hj0 : (j 0).val < 4000 := (j 0).isLt
  have hj1 : (j 1).val < 128 := (j 1).isLt
  obtain ⟨-, -, -, -, -, -, -, -, -, -, -, e0, e1⟩ := idx_facts3 t
  have hrow : ((((cfg3.win 6).blk t).view.emb j) 0).val = 4000 * t.val + (j 0).val := by
    show win3_6.index t (0 : Fin 2) * 4000 + 1 * (j 0).val = _
    rw [e0]; omega
  have hcol : (((cfg3.win 6).blk t).view.emb j) 1 = j 1 := Fin.ext (by
    show win3_6.index t (1 : Fin 2) * 128 + 1 * (j 1).val = (j 1).val
    rw [e1]; omega)
  refine (pay3_at hpay (iblk3 V c 0 t) (iblk3 V c 1 t) (iblk3 V c 2 t) (iblk3 V c 3 t) (iblk3 V c 5 t) (iblk3 V c 4 t) j).trans ?_
  show _ = G3 V c (((cfg3.win 6).blk t).view.emb j)
  refine rowDense_congr (fun k => ?_) (fun k => ?_) (fun k l => ?_) (fun k l => ?_) (fun l => ?_) hcol.symm
  · exact congrArg₂ (· * ·) (read3_0 V c t _ _ hrow rfl) (read3_1 V c t _ _ hrow rfl)
  · exact read3_2 V c t _ _ hrow rfl
  · exact read3_3 V c t _
  · exact read3_5 V c t _
  · exact read3_4 V c t _

/-- The array region 3 leaves is G3 of the arrays it found. -/
theorem final3 (c : Dev nD) : (dat3 V c).arrAt 6 cfg3.N = G3 V c :=
  (dat3 V c).arrAt_eq_of_cover 6 (G3 V c) (fun t _ => flushed3_eq V hpay c t) cover3

end

/-- Region 3, entry by entry: row r of the output is the dense half of the layer on row r of the inputs. -/
theorem region3_value
    (hpay : ∀ (v0 : Vec Ideal S4000x128 .f32) (v2 : Vec Ideal S4000x1 .f32) (v7 : Vec Ideal S4000x128 .bf16)
      (v9 v11 : Vec Ideal S128x128 .f32) (v14 : Vec Ideal S128 .f32) (p : Fin 4000) (q : Fin 128),
      Gen.k3_pay1 (F := Ideal) v0 v2 v7 v9 v11 v14 (ix2 p q)
        = rowDense (fun k => v0 (ix2 p k) * v2 (ix2 p (0 : Fin 1))) (fun k => v7 (ix2 p k)) (fun k j => v9 (ix2 k j))
            (fun k j => v11 (ix2 k j)) (fun j => v14 (ix1 j)) q)
    (V : (c : Dev nD) → (b : Ref sig .tc) → Buf (Elt Ideal) ((c : Thread nD τ).loc b)) (c : Dev nD) (r : Fin 100000) (q : Fin 128) :
    ((Gen.dat3 V c).arrAt 6 cfg3.N : S100000x128.Idx → EReal) (ix2 r q)
      = rowDense (fun k => msum3 V c (ix2 r k) * inv3 V c (ix2 r (0 : Fin 1)))
          (fun k => xdst3 V c (ix2 r k))
          (fun k j => wl3 V c (ix2 k j)) (fun k j => wr3 V c (ix2 k j))
          (fun j => bias3 V c (ix1 j)) q :=
  congrFun (final3 V hpay c) (ix2 r q)

end Cert.KernelIdeal.Region
end
-- ==== Proof.RefLayer1.lean ====
/-
  The reference program's layer 1, read one destination row at a time.

  Every entry of the layer's rectified output is the row function `rowDense` of the row of
  aggregated neighbour means (the accumulated messages divided by the clamped count), the row of
  destination features, the two weight matrices and the bias.
-/
import proofs.«159423_j20968030339505_2_alg».proof.Proof.Gen.ReferenceIdeal.Read
import proofs.«159423_j20968030339505_2_alg».proof.Proof.RowDense
import Idealize.ShloMosaic.Lib.ValueIdx

noncomputable section

namespace Cert.ReferenceIdeal.Layers

open Idealize.ShloMosaic Idealize.ShloMosaic.ValueIdx Cert.ReferenceIdeal Cert.ReferenceIdeal.Read Cert.Sage

/-- The pre-activation of layer 1 at the entry `(r, j)`. -/
theorem ref_pre1 (x0 x1 : (⟨S100000x128, .f32⟩ : BufTy).Contents (Elt Ideal)) (x2 : (⟨S2x1600000, .i32⟩ : BufTy).Contents (Elt Ideal)) (x5 x6 : (⟨S128x128, .f32⟩ : BufTy).Contents (Elt Ideal)) (x13 : (⟨S128, .f32⟩ : BufTy).Contents (Elt Ideal)) (r : Fin 100000) (j : Fin 128) :
    val_main_v28 (F := Ideal) x0 x1 x2 x5 x6 x13 (ix2 r j)
      = pre (fun k => Ideal.div (val_main_v13 (F := Ideal) x0 x2 (ix2 r k)) (val_main_v19 (F := Ideal) x2 (ix1 r)))
          (fun k => x1 (ix2 r k)) (fun k j => x5 (ix2 k j)) (fun k j => x6 (ix2 k j)) (fun j => x13 (ix1 j)) j := by
  rw [val_main_v28_apply, val_main_v26_apply, val_main_v23_apply, val_main_v27_apply, val_main_v25_apply, val_main_v24_apply]
  unfold pre
  have hl : ∀ k : Fin 128, lidx_main_v23 (ix2 r j) k = ix2 r k := fun k =>
    funext fun a => Fin.ext (by match a with | ⟨0, _⟩ => rfl | ⟨1, _⟩ => rfl)
  have hr : ∀ k : Fin 128, ridx_main_v23 (ix2 r j) k = ix2 k j := fun k =>
    funext fun a => Fin.ext (by match a with | ⟨0, _⟩ => rfl | ⟨1, _⟩ => rfl)
  have hl' : ∀ k : Fin 128, lidx_main_v27 (ix2 r j) k = ix2 r k := fun k =>
    funext fun a => Fin.ext (by match a with | ⟨0, _⟩ => rfl | ⟨1, _⟩ => rfl)
  have hr' : ∀ k : Fin 128, ridx_main_v27 (ix2 r j) k = ix2 k j := fun k =>
    funext fun a => Fin.ext (by match a with | ⟨0, _⟩ => rfl | ⟨1, _⟩ => rfl)
  have hb : idx_main_v24 (idx_main_v25 (ix2 r j)) = ix1 j :=
    funext fun a => Fin.ext (by match a with | ⟨0, _⟩ => rfl)
  have hc : ∀ k : Fin 128, idx_main_v20 (idx_main_v21 (ix2 r k)) = ix1 r := fun k =>
    funext fun a => Fin.ext (by match a with | ⟨0, _⟩ => rfl)
  rw [hb]
  refine congrArg₂ (· + ·) (congrArg₂ (· + ·) (Finset.sum_congr rfl fun k _ => ?_) rfl) (Finset.sum_congr rfl fun k _ => ?_)
  · rw [hl, hr, val_main_v22_apply, val_main_v21_apply, val_main_v20_apply, hc]
    rfl
  · rw [hl', hr']

/-- Layer 1 of the reference, entry `(r, q)`: the row function of the row's mean, features, weights and bias. -/
theorem ref_layer1 (x0 x1 : (⟨S100000x128, .f32⟩ : BufTy).Contents (Elt Ideal)) (x2 : (⟨S2x1600000, .i32⟩ : BufTy).Contents (Elt Ideal)) (x5 x6 : (⟨S128x128, .f32⟩ : BufTy).Contents (Elt Ideal)) (x13 : (⟨S128, .f32⟩ : BufTy).Contents (Elt Ideal)) (r : Fin 100000) (q : Fin 128) :
    val_main_v75 (F := Ideal) x0 x1 x2 x5 x6 x13 (ix2 r q)
      = rowDense (fun k => Ideal.div (val_main_v13 (F := Ideal) x0 x2 (ix2 r k)) (val_main_v19 (F := Ideal) x2 (ix1 r)))
          (fun k => x1 (ix2 r k)) (fun k j => x5 (ix2 k j)) (fun k j => x6 (ix2 k j)) (fun j => x13 (ix1 j)) q := by
  rw [val_main_v75_apply, val_main_v36_apply, val_main_v35_apply, val_main_v34_apply, val_main_v33_apply,
    val_main_cst_5_apply, val_main_v32_apply, val_main_v31_apply, val_main_v30_apply, val_main_cst_4_apply,
    val_main_call1_v0_apply, val_main_call1_cst_apply]
  have hs : ∀ k : Fin 128, idx_main_v30 (idx_main_v31 (idx_main_v35 (ix2 r q))) k = ix2 r k := fun k =>
    funext fun a => Fin.ext (by match a with | ⟨0, _⟩ => rfl | ⟨1, _⟩ => rfl)
  have hsum : (∑ k : Fin 128, val_main_v29 (F := Ideal) x0 x1 x2 x5 x6 x13 (idx_main_v30 (idx_main_v31 (idx_main_v35 (ix2 r q))) k))
      = ∑ j' : Fin 128,
          pre (fun k => Ideal.div (val_main_v13 (F := Ideal) x0 x2 (ix2 r k)) (val_main_v19 (F := Ideal) x2 (ix1 r)))
            (fun k => x1 (ix2 r k)) (fun k j => x5 (ix2 k j)) (fun k j => x6 (ix2 k j)) (fun j => x13 (ix1 j)) j'
          * pre (fun k => Ideal.div (val_main_v13 (F := Ideal) x0 x2 (ix2 r k)) (val_main_v19 (F := Ideal) x2 (ix1 r)))
            (fun k => x1 (ix2 r k)) (fun k j => x5 (ix2 k j)) (fun k j => x6 (ix2 k j)) (fun j => x13 (ix1 j)) j' :=
    Finset.sum_congr rfl fun k _ => by
      rw [hs, val_main_v29_apply, ref_pre1]
      rfl
  rw [hsum, ref_pre1]
  unfold rowDense
  simp only [Ideal.maximumf_def, Ideal.hostDivf_def, Ideal.hostUnary_sqrt_def, Ideal.ofBits_def, Ideal.ofBits_zero_f32, zero_add]

end Cert.ReferenceIdeal.Layers

end
-- ==== Proof.RefLayer2.lean ====
/-
  The reference program's layer 2, read one destination row at a time.

  Every entry of the layer's rectified output is the row function `rowDense` of the row of
  aggregated neighbour means (the accumulated messages divided by the clamped count), the row of
  destination features, the two weight matrices and the bias.
-/
import proofs.«159423_j20968030339505_2_alg».proof.Proof.Gen.ReferenceIdeal.Read
import proofs.«159423_j20968030339505_2_alg».proof.Proof.RowDense
import Idealize.ShloMosaic.Lib.ValueIdx

noncomputable section

namespace Cert.ReferenceIdeal.Layers

open Idealize.ShloMosaic Idealize.ShloMosaic.ValueIdx Cert.ReferenceIdeal Cert.ReferenceIdeal.Read Cert.Sage

/-- The pre-activation of layer 2 at the entry `(r, j)`. -/
theorem ref_pre2 (x0 x1 : (⟨S100000x128, .f32⟩ : BufTy).Contents (Elt Ideal)) (x3 : (⟨S2x1600000, .i32⟩ : BufTy).Contents (Elt Ideal)) (x7 x8 : (⟨S128x128, .f32⟩ : BufTy).Contents (Elt Ideal)) (x14 : (⟨S128, .f32⟩ : BufTy).Contents (Elt Ideal)) (r : Fin 100000) (j : Fin 128) :
    val_main_v65 (F := Ideal) x0 x1 x3 x7 x8 x14 (ix2 r j)
      = pre (fun k => Ideal.div (val_main_v50 (F := Ideal) x1 x3 (ix2 r k)) (val_main_v56 (F := Ideal) x3 (ix1 r)))
          (fun k => x0 (ix2 r k)) (fun k j => x7 (ix2 k j)) (fun k j => x8 (ix2 k j)) (fun j => x14 (ix1 j)) j := by
  rw [val_main_v65_apply, val_main_v63_apply, val_main_v60_apply, val_main_v64_apply, val_main_v62_apply, val_main_v61_apply]
  unfold pre
  have hl : ∀ k : Fin 128, lidx_main_v60 (ix2 r j) k = ix2 r k := fun k =>
    funext fun a => Fin.ext (by match a with | ⟨0, _⟩ => rfl | ⟨1, _⟩ => rfl)
  have hr : ∀ k : Fin 128, ridx_main_v60 (ix2 r j) k = ix2 k j := fun k =>
    funext fun a => Fin.ext (by match a with | ⟨0, _⟩ => rfl | ⟨1, _⟩ => rfl)
  have hl' : ∀ k : Fin 128, lidx_main_v64 (ix2 r j) k = ix2 r k := fun k =>
    funext fun a => Fin.ext (by match a with | ⟨0, _⟩ => rfl | ⟨1, _⟩ => rfl)
  have hr' : ∀ k : Fin 128, ridx_main_v64 (ix2 r j) k = ix2 k j := fun k =>
    funext fun a => Fin.ext (by match a with | ⟨0, _⟩ => rfl | ⟨1, _⟩ => rfl)
  have hb : idx_main_v61 (idx_main_v62 (ix2 r j)) = ix1 j :=
    funext fun a => Fin.ext (by match a with | ⟨0, _⟩ => rfl)
  have hc : ∀ k : Fin 128, idx_main_v57 (idx_main_v58 (ix2 r k)) = ix1 r := fun k =>
    funext fun a => Fin.ext (by match a with | ⟨0, _⟩ => rfl)
  rw [hb]
  refine congrArg₂ (· + ·) (congrArg₂ (· + ·) (Finset.sum_congr rfl fun k _ => ?_) rfl) (Finset.sum_congr rfl fun k _ => ?_)
  · rw [hl, hr, val_main_v59_apply, val_main_v58_apply, val_main_v57_apply, hc]
    rfl
  · rw [hl', hr']

/-- Layer 2 of the reference, entry `(r, q)`: the row function of the row's mean, features, weights and bias. -/
theorem ref_layer2 (x0 x1 : (⟨S100000x128, .f32⟩ : BufTy).Contents (Elt Ideal)) (x3 : (⟨S2x1600000, .i32⟩ : BufTy).Contents (Elt Ideal)) (x7 x8 : (⟨S128x128, .f32⟩ : BufTy).Contents (Elt Ideal)) (x14 : (⟨S128, .f32⟩ : BufTy).Contents (Elt Ideal)) (r : Fin 100000) (q : Fin 128) :
    val_main_v74 (F := Ideal) x0 x1 x3 x7 x8 x14 (ix2 r q)
      = rowDense (fun k => Ideal.div (val_main_v50 (F := Ideal) x1 x3 (ix2 r k)) (val_main_v56 (F := Ideal) x3 (ix1 r)))
          (fun k => x0 (ix2 r k)) (fun k j => x7 (ix2 k j)) (fun k j => x8 (ix2 k j)) (fun j => x14 (ix1 j)) q := by
  rw [val_main_v74_apply, val_main_v73_apply, val_main_v72_apply, val_main_v71_apply, val_main_v70_apply,
    val_main_cst_13_apply, val_main_v69_apply, val_main_v68_apply, val_main_v67_apply, val_main_cst_12_apply,
    val_main_call0_v0_apply, val_main_call0_cst_apply]
  have hs : ∀ k : Fin 128, idx_main_v67 (idx_main_v68 (idx_main_v72 (ix2 r q))) k = ix2 r k := fun k =>
    funext fun a => Fin.ext (by match a with | ⟨0, _⟩ => rfl | ⟨1, _⟩ => rfl)
  have hsum : (∑ k : Fin 128, val_main_v66 (F := Ideal) x0 x1 x3 x7 x8 x14 (idx_main_v67 (idx_main_v68 (idx_main_v72 (ix2 r q))) k))
      = ∑ j' : Fin 128,
          pre (fun k => Ideal.div (val_main_v50 (F := Ideal) x1 x3 (ix2 r k)) (val_main_v56 (F := Ideal) x3 (ix1 r)))
          (fun k => x0 (ix2 r k)) (fun k j => x7 (ix2 k j)) (fun k j => x8 (ix2 k j)) (fun j => x14 (ix1 j)) j'
          * pre (fun k => Ideal.div (val_main_v50 (F := Ideal) x1 x3 (ix2 r k)) (val_main_v56 (F := Ideal) x3 (ix1 r)))
          (fun k => x0 (ix2 r k)) (fun k j => x7 (ix2 k j)) (fun k j => x8 (ix2 k j)) (fun j => x14 (ix1 j)) j' :=
    Finset.sum_congr rfl fun k _ => by
      rw [hs, val_main_v66_apply, ref_pre2]
      rfl
  rw [hsum, ref_pre2]
  unfold rowDense
  simp only [Ideal.maximumf_def, Ideal.hostDivf_def, Ideal.hostUnary_sqrt_def, Ideal.ofBits_def, Ideal.ofBits_zero_f32, zero_add]

end Cert.ReferenceIdeal.Layers

end
-- ==== Proof.RefLayer3.lean ====
/-
  The reference program's layer 3, read one destination row at a time.

  Every entry of the layer's rectified output is the row function `rowDense` of the row of
  aggregated neighbour means (the accumulated messages divided by the clamped count), the row of
  destination features, the two weight matrices and the bias.
-/
import proofs.«159423_j20968030339505_2_alg».proof.Proof.Gen.ReferenceIdeal.Read
import proofs.«159423_j20968030339505_2_alg».proof.Proof.RowDense
import Idealize.ShloMosaic.Lib.ValueIdx

noncomputable section

namespace Cert.ReferenceIdeal.Layers

open Idealize.ShloMosaic Idealize.ShloMosaic.ValueIdx Cert.ReferenceIdeal Cert.ReferenceIdeal.Read Cert.Sage

/-- The pre-activation of layer 3 at the entry `(r, j)`. -/
theorem ref_pre3 (x0 x1 : (⟨S100000x128, .f32⟩ : BufTy).Contents (Elt Ideal)) (x2 x3 : (⟨S2x1600000, .i32⟩ : BufTy).Contents (Elt Ideal)) (x5 x6 x7 x8 x9 x10 : (⟨S128x128, .f32⟩ : BufTy).Contents (Elt Ideal)) (x13 x14 x15 : (⟨S128, .f32⟩ : BufTy).Contents (Elt Ideal)) (r : Fin 100000) (j : Fin 128) :
    val_main_v104 (F := Ideal) x0 x1 x2 x3 x5 x6 x7 x8 x9 x10 x13 x14 x15 (ix2 r j)
      = pre (fun k => Ideal.div (val_main_v89 (F := Ideal) x0 x1 x2 x3 x7 x8 x14 (ix2 r k)) (val_main_v95 (F := Ideal) x2 (ix1 r)))
          (fun k => val_main_v75 (F := Ideal) x0 x1 x2 x5 x6 x13 (ix2 r k)) (fun k j => x9 (ix2 k j)) (fun k j => x10 (ix2 k j)) (fun j => x15 (ix1 j)) j := by
  rw [val_main_v104_apply, val_main_v102_apply, val_main_v99_apply, val_main_v103_apply, val_main_v101_apply, val_main_v100_apply]
  unfold pre
  have hl : ∀ k : Fin 128, lidx_main_v99 (ix2 r j) k = ix2 r k := fun k =>
    funext fun a => Fin.ext (by match a with | ⟨0, _⟩ => rfl | ⟨1, _⟩ => rfl)
  have hr : ∀ k : Fin 128, ridx_main_v99 (ix2 r j) k = ix2 k j := fun k =>
    funext fun a => Fin.ext (by match a with | ⟨0, _⟩ => rfl | ⟨1, _⟩ => rfl)
  have hl' : ∀ k : Fin 128, lidx_main_v103 (ix2 r j) k = ix2 r k := fun k =>
    funext fun a => Fin.ext (by match a with | ⟨0, _⟩ => rfl | ⟨1, _⟩ => rfl)
  have hr' : ∀ k : Fin 128, ridx_main_v103 (ix2 r j) k = ix2 k j := fun k =>
    funext fun a => Fin.ext (by match a with | ⟨0, _⟩ => rfl | ⟨1, _⟩ => rfl)
  have hb : idx_main_v100 (idx_main_v101 (ix2 r j)) = ix1 j :=
    funext fun a => Fin.ext (by match a with | ⟨0, _⟩ => rfl)
  have hc : ∀ k : Fin 128, idx_main_v96 (idx_main_v97 (ix2 r k)) = ix1 r := fun k =>
    funext fun a => Fin.ext (by match a with | ⟨0, _⟩ => rfl)
  rw [hb]
  refine congrArg₂ (· + ·) (congrArg₂ (· + ·) (Finset.sum_congr rfl fun k _ => ?_) rfl) (Finset.sum_congr rfl fun k _ => ?_)
  · rw [hl, hr, val_main_v98_apply, val_main_v97_apply, val_main_v96_apply, hc]
    rfl
  · rw [hl', hr']

/-- Layer 3 of the reference, entry `(r, q)`: the row function of the row's mean, features, weights and bias. -/
theorem ref_layer3 (x0 x1 : (⟨S100000x128, .f32⟩ : BufTy).Contents (Elt Ideal)) (x2 x3 : (⟨S2x1600000, .i32⟩ : BufTy).Contents (Elt Ideal)) (x5 x6 x7 x8 x9 x10 : (⟨S128x128, .f32⟩ : BufTy).Contents (Elt Ideal)) (x13 x14 x15 : (⟨S128, .f32⟩ : BufTy).Contents (Elt Ideal)) (r : Fin 100000) (q : Fin 128) :
    val_main_v151 (F := Ideal) x0 x1 x2 x3 x5 x6 x7 x8 x9 x10 x13 x14 x15 (ix2 r q)
      = rowDense (fun k => Ideal.div (val_main_v89 (F := Ideal) x0 x1 x2 x3 x7 x8 x14 (ix2 r k)) (val_main_v95 (F := Ideal) x2 (ix1 r)))
          (fun k => val_main_v75 (F := Ideal) x0 x1 x2 x5 x6 x13 (ix2 r k)) (fun k j => x9 (ix2 k j)) (fun k j => x10 (ix2 k j)) (fun j => x15 (ix1 j)) q := by
  rw [val_main_v151_apply, val_main_v112_apply, val_main_v111_apply, val_main_v110_apply, val_main_v109_apply,
    val_main_cst_21_apply, val_main_v108_apply, val_main_v107_apply, val_main_v106_apply, val_main_cst_20_apply,
    val_main_call3_v0_apply, val_main_call3_cst_apply]
  have hs : ∀ k : Fin 128, idx_main_v106 (idx_main_v107 (idx_main_v111 (ix2 r q))) k = ix2 r k := fun k =>
    funext fun a => Fin.ext (by match a with | ⟨0, _⟩ => rfl | ⟨1, _⟩ => rfl)
  have hsum : (∑ k : Fin 128, val_main_v105 (F := Ideal) x0 x1 x2 x3 x5 x6 x7 x8 x9 x10 x13 x14 x15 (idx_main_v106 (idx_main_v107 (idx_main_v111 (ix2 r q))) k))
      = ∑ j' : Fin 128,
          pre (fun k => Ideal.div (val_main_v89 (F := Ideal) x0 x1 x2 x3 x7 x8 x14 (ix2 r k)) (val_main_v95 (F := Ideal) x2 (ix1 r)))
          (fun k => val_main_v75 (F := Ideal) x0 x1 x2 x5 x6 x13 (ix2 r k)) (fun k j => x9 (ix2 k j)) (fun k j => x10 (ix2 k j)) (fun j => x15 (ix1 j)) j'
          * pre (fun k => Ideal.div (val_main_v89 (F := Ideal) x0 x1 x2 x3 x7 x8 x14 (ix2 r k)) (val_main_v95 (F := Ideal) x2 (ix1 r)))
          (fun k => val_main_v75 (F := Ideal) x0 x1 x2 x5 x6 x13 (ix2 r k)) (fun k j => x9 (ix2 k j)) (fun k j => x10 (ix2 k j)) (fun j => x15 (ix1 j)) j' :=
    Finset.sum_congr rfl fun k _ => by
      rw [hs, val_main_v105_apply, ref_pre3]
      rfl
  rw [hsum, ref_pre3]
  unfold rowDense
  simp only [Ideal.maximumf_def, Ideal.hostDivf_def, Ideal.hostUnary_sqrt_def, Ideal.ofBits_def, Ideal.ofBits_zero_f32, zero_add]

end Cert.ReferenceIdeal.Layers

end
-- ==== Proof.RefLayer4.lean ====
/-
  The reference program's layer 4, read one destination row at a time.

  Every entry of the layer's rectified output is the row function `rowDense` of the row of
  aggregated neighbour means (the accumulated messages divided by the clamped count), the row of
  destination features, the two weight matrices and the bias.
-/
import proofs.«159423_j20968030339505_2_alg».proof.Proof.Gen.ReferenceIdeal.Read
import proofs.«159423_j20968030339505_2_alg».proof.Proof.RowDense
import Idealize.ShloMosaic.Lib.ValueIdx

noncomputable section

namespace Cert.ReferenceIdeal.Layers

open Idealize.ShloMosaic Idealize.ShloMosaic.ValueIdx Cert.ReferenceIdeal Cert.ReferenceIdeal.Read Cert.Sage

/-- The pre-activation of layer 4 at the entry `(r, j)`. -/
theorem ref_pre4 (x0 x1 : (⟨S100000x128, .f32⟩ : BufTy).Contents (Elt Ideal)) (x2 x3 : (⟨S2x1600000, .i32⟩ : BufTy).Contents (Elt Ideal)) (x5 x6 x7 x8 x11 x12 : (⟨S128x128, .f32⟩ : BufTy).Contents (Elt Ideal)) (x13 x14 x16 : (⟨S128, .f32⟩ : BufTy).Contents (Elt Ideal)) (r : Fin 100000) (j : Fin 128) :
    val_main_v141 (F := Ideal) x0 x1 x2 x3 x5 x6 x7 x8 x11 x12 x13 x14 x16 (ix2 r j)
      = pre (fun k => Ideal.div (val_main_v126 (F := Ideal) x0 x1 x2 x3 x5 x6 x13 (ix2 r k)) (val_main_v132 (F := Ideal) x3 (ix1 r)))
          (fun k => val_main_v74 (F := Ideal) x0 x1 x3 x7 x8 x14 (ix2 r k)) (fun k j => x11 (ix2 k j)) (fun k j => x12 (ix2 k j)) (fun j => x16 (ix1 j)) j := by
  rw [val_main_v141_apply, val_main_v139_apply, val_main_v136_apply, val_main_v140_apply, val_main_v138_apply, val_main_v137_apply]
  unfold pre
  have hl : ∀ k : Fin 128, lidx_main_v136 (ix2 r j) k = ix2 r k := fun k =>
    funext fun a => Fin.ext (by match a with | ⟨0, _⟩ => rfl | ⟨1, _⟩ => rfl)
  have hr : ∀ k : Fin 128, ridx_main_v136 (ix2 r j) k = ix2 k j := fun k =>
    funext fun a => Fin.ext (by match a with | ⟨0, _⟩ => rfl | ⟨1, _⟩ => rfl)
  have hl' : ∀ k : Fin 128, lidx_main_v140 (ix2 r j) k = ix2 r k := fun k =>
    funext fun a => Fin.ext (by match a with | ⟨0, _⟩ => rfl | ⟨1, _⟩ => rfl)
  have hr' : ∀ k : Fin 128, ridx_main_v140 (ix2 r j) k = ix2 k j := fun k =>
    funext fun a => Fin.ext (by match a with | ⟨0, _⟩ => rfl | ⟨1, _⟩ => rfl)
  have hb : idx_main_v137 (idx_main_v138 (ix2 r j)) = ix1 j :=
    funext fun a => Fin.ext (by match a with | ⟨0, _⟩ => rfl)
  have hc : ∀ k : Fin 128, idx_main_v133 (idx_main_v134 (ix2 r k)) = ix1 r := fun k =>
    funext fun a => Fin.ext (by match a with | ⟨0, _⟩ => rfl)
  rw [hb]
  refine congrArg₂ (· + ·) (congrArg₂ (· + ·) (Finset.sum_congr rfl fun k _ => ?_) rfl) (Finset.sum_congr rfl fun k _ => ?_)
  · rw [hl, hr, val_main_v135_apply, val_main_v134_apply, val_main_v133_apply, hc]
    rfl
  · rw [hl', hr']

/-- Layer 4 of the reference, entry `(r, q)`: the row function of the row's mean, features, weights and bias. -/
theorem ref_layer4 (x0 x1 : (⟨S100000x128, .f32⟩ : BufTy).Contents (Elt Ideal)) (x2 x3 : (⟨S2x1600000, .i32⟩ : BufTy).Contents (Elt Ideal)) (x5 x6 x7 x8 x11 x12 : (⟨S128x128, .f32⟩ : BufTy).Contents (Elt Ideal)) (x13 x14 x16 : (⟨S128, .f32⟩ : BufTy).Contents (Elt Ideal)) (r : Fin 100000) (q : Fin 128) :
    val_main_v150 (F := Ideal) x0 x1 x2 x3 x5 x6 x7 x8 x11 x12 x13 x14 x16 (ix2 r q)
      = rowDense (fun k => Ideal.div (val_main_v126 (F := Ideal) x0 x1 x2 x3 x5 x6 x13 (ix2 r k)) (val_main_v132 (F := Ideal) x3 (ix1 r)))
          (fun k => val_main_v74 (F := Ideal) x0 x1 x3 x7 x8 x14 (ix2 r k)) (fun k j => x11 (ix2 k j)) (fun k j => x12 (ix2 k j)) (fun j => x16 (ix1 j)) q := by
  rw [val_main_v150_apply, val_main_v149_apply, val_main_v148_apply, val_main_v147_apply, val_main_v146_apply,
    val_main_cst_29_apply, val_main_v145_apply, val_main_v144_apply, val_main_v143_apply, val_main_cst_28_apply,
    val_main_call2_v0_apply, val_main_call2_cst_apply]
  have hs : ∀ k : Fin 128, idx_main_v143 (idx_main_v144 (idx_main_v148 (ix2 r q))) k = ix2 r k := fun k =>
    funext fun a => Fin.ext (by match a with | ⟨0, _⟩ => rfl | ⟨1, _⟩ => rfl)
  have hsum : (∑ k : Fin 128, val_main_v142 (F := Ideal) x0 x1 x2 x3 x5 x6 x7 x8 x11 x12 x13 x14 x16 (idx_main_v143 (idx_main_v144 (idx_main_v148 (ix2 r q))) k))
      = ∑ j' : Fin 128,
          pre (fun k => Ideal.div (val_main_v126 (F := Ideal) x0 x1 x2 x3 x5 x6 x13 (ix2 r k)) (val_main_v132 (F := Ideal) x3 (ix1 r)))
          (fun k => val_main_v74 (F := Ideal) x0 x1 x3 x7 x8 x14 (ix2 r k)) (fun k j => x11 (ix2 k j)) (fun k j => x12 (ix2 k j)) (fun j => x16 (ix1 j)) j'
          * pre (fun k => Ideal.div (val_main_v126 (F := Ideal) x0 x1 x2 x3 x5 x6 x13 (ix2 r k)) (val_main_v132 (F := Ideal) x3 (ix1 r)))
          (fun k => val_main_v74 (F := Ideal) x0 x1 x3 x7 x8 x14 (ix2 r k)) (fun k j => x11 (ix2 k j)) (fun k j => x12 (ix2 k j)) (fun j => x16 (ix1 j)) j' :=
    Finset.sum_congr rfl fun k _ => by
      rw [hs, val_main_v142_apply, ref_pre4]
      rfl
  rw [hsum, ref_pre4]
  unfold rowDense
  simp only [Ideal.maximumf_def, Ideal.hostDivf_def, Ideal.hostUnary_sqrt_def, Ideal.ofBits_def, Ideal.ofBits_zero_f32, zero_add]

end Cert.ReferenceIdeal.Layers

end
-- ==== Proof.LibRealSums.lean ====
/-
  Finite sums of real numbers inside the extended reals.

  On the extended reals multiplication does not distribute over addition at the infinities, so a factor is moved
  across a finite sum only when every quantity involved is (the coercion of) a real number: the sum of coercions is
  the coercion of the sum (`coe_sum`), and the identity is then one of real algebra (`factor_sum`).  Also: a finite
  sum of reals is a real (`sum_real`), and so is the maximum of a real with zero (`max_zero_real`).
-/
import Idealize.ShloMosaic.PureOps.Ideal

noncomputable section
namespace Cert.Lib.RealSums

open scoped BigOperators

/-- The sum of the coercions of real numbers is the coercion of their sum. -/
theorem coe_sum {ι : Type*} (s : Finset ι) (F : ι → ℝ) : ∑ e ∈ s, ((F e : ℝ) : EReal) = ((∑ e ∈ s, F e : ℝ) : EReal) := by
  classical
  refine Finset.induction_on s ?_ ?_
  · simp
  · intro a s ha ih
    rw [Finset.sum_insert ha, Finset.sum_insert ha, ih, EReal.coe_add]

/-- A finite sum whose terms are all real numbers is a real number. -/
theorem sum_real {ι : Type*} (s : Finset ι) (F : ι → EReal) (hF : ∀ e ∈ s, ∃ r : ℝ, F e = (r : EReal)) :
    ∃ r : ℝ, ∑ e ∈ s, F e = (r : EReal) := by
  classical
  induction s using Finset.induction_on with
  | empty => exact ⟨0, by simp⟩
  | insert a s ha ih =>
    obtain ⟨r, hr⟩ := ih (fun e he => hF e (Finset.mem_insert_of_mem he))
    obtain ⟨q, hq⟩ := hF a (Finset.mem_insert_self a s)
    exact ⟨q + r, by rw [Finset.sum_insert ha, hr, hq, EReal.coe_add]⟩

/-- The maximum of a real number and zero is a real number. -/
theorem max_zero_real (x : ℝ) : ∃ r : ℝ, max ((x : ℝ) : EReal) 0 = (r : EReal) := by
  rcases le_total ((x : ℝ) : EReal) 0 with h | h
  · exact ⟨0, by rw [max_eq_right h]; rfl⟩
  · exact ⟨x, by rw [max_eq_left h]⟩

/-- MOVING A REAL FACTOR ACROSS A SELECTED SUM: with every quantity a real number,
    `a · Σ_{e : c e} (f e · g e) = Σ_{e : c e} f e · (g e · a)`. -/
theorem factor_sum {ι : Type*} [Fintype ι] (c : ι → Prop) [DecidablePred c] (a : ℝ) (f g : ι → ℝ) :
    ((a : ℝ) : EReal) * ∑ e, (if c e then ((f e : ℝ) : EReal) * ((g e : ℝ) : EReal) else 0)
      = ∑ e, (if c e then ((f e : ℝ) : EReal) * (((g e : ℝ) : EReal) * ((a : ℝ) : EReal)) else 0) := by
  have hL : ∀ e, (if c e then ((f e : ℝ) : EReal) * ((g e : ℝ) : EReal) else 0)
      = (((if c e then f e * g e else 0 : ℝ)) : EReal) := by
    intro e
    by_cases h : c e
    · rw [if_pos h, if_pos h, EReal.coe_mul]
    · rw [if_neg h, if_neg h, EReal.coe_zero]
  have hR : ∀ e, (if c e then ((f e : ℝ) : EReal) * (((g e : ℝ) : EReal) * ((a : ℝ) : EReal)) else 0)
      = (((a * (if c e then f e * g e else 0) : ℝ)) : EReal) := by
    intro e
    by_cases h : c e
    · rw [if_pos h, if_pos h, ← EReal.coe_mul, ← EReal.coe_mul]
      exact congrArg _ (by ring)
    · rw [if_neg h, if_neg h, mul_zero, EReal.coe_zero]
  rw [Finset.sum_congr rfl (fun e _ => hL e), Finset.sum_congr rfl (fun e _ => hR e), coe_sum, coe_sum,
    ← EReal.coe_mul, Finset.mul_sum]

end Cert.Lib.RealSums
end
-- ==== Proof.LibRealHost.lean ====
/-
  Two host operations that keep real numbers real, at the ideal instance.

  An accumulating scatter (a segment sum) of real updates into a real operand is a real number at every element: the
  operand's element plus a finite sum of update elements, whichever of them land there.  The guarded inverse square
  root `select (x > 0) (rsqrt x) z` of a real `x` with a real fallback `z` is a real number: where `x` is positive its
  inverse square root is `1 / √x`, elsewhere the fallback is taken.
-/
import Idealize.ShloMosaic.PureOps.Ideal
import Idealize.ShloMosaic.Lib.ValueIdx
import proofs.«159423_j20968030339505_2_alg».proof.Proof.LibRealSums

noncomputable section
namespace Cert.Lib.RealHost
open Idealize.ShloMosaic Idealize.ShloMosaic.ValueIdx Cert.Lib.RealSums
open scoped BigOperators

/-- An accumulating scatter of real updates into a real operand is real everywhere. -/
theorem hostScatterAdd_real {s si su : Shape} (d : ScatterDims s si su) {w : ℕ} (x : s.Idx → EReal) (idx : IVec si w)
    (upd : su.Idx → EReal) (hx : ∀ i, ∃ r : ℝ, x i = (r : EReal)) (hu : ∀ j, ∃ r : ℝ, upd j = (r : EReal)) (i : s.Idx) :
    ∃ r : ℝ, Ideal.hostScatterAdd d x idx upd i = (r : EReal) := by
  unfold Ideal.hostScatterAdd
  obtain ⟨a, ha⟩ := hx i
  obtain ⟨c, hc⟩ := sum_real (Finset.univ.filter (fun j => d.resultIdx? j idx = some i)) upd (fun j _ => hu j)
  exact ⟨a + c, by rw [ha, hc, EReal.coe_add]⟩

/-- The guarded inverse square root of a real number, with a real fallback, is a real number. -/
theorem select_rsqrt_real (x y z : EReal) (hx : ∃ r : ℝ, x = (r : EReal)) (hy : y = 0) (hz : ∃ r : ℝ, z = (r : EReal)) :
    ∃ q : ℝ, Scalar.select (Ideal.cmp .ogt x y) (Ideal.rsqrt x) z = (q : EReal) := by
  obtain ⟨r, rfl⟩ := hx
  subst hy
  by_cases hpos : 0 < r
  · have hc : Ideal.cmp .ogt (r : EReal) 0 = 1#1 := by
      show BitVec.ofBool (decide ((0 : EReal) < (r : EReal))) = 1#1
      rw [decide_eq_true (EReal.coe_pos.mpr hpos)]
      rfl
    rw [hc, select_one, Ideal.rsqrt_coe, if_neg (not_lt.mpr hpos.le), if_neg hpos.ne']
    exact ⟨_, rfl⟩
  · have hc : Ideal.cmp .ogt (r : EReal) 0 = 0#1 := by
      show BitVec.ofBool (decide ((0 : EReal) < (r : EReal))) = 0#1
      rw [decide_eq_false (fun h => hpos (EReal.coe_pos.mp h))]
      rfl
    rw [hc, select_zero]
    exact hz

/-- The same for the host's accumulating scatter on arrays of extended reals. -/
theorem scatterAdd_real {s si su : Shape} (d : ScatterDims s si su) {w : ℕ} {φ : FTy} (x : FVec Ideal s φ) (idx : IVec si w)
    (upd : FVec Ideal su φ) (hx : ∀ i, ∃ r : ℝ, x i = (r : EReal)) (hu : ∀ j, ∃ r : ℝ, upd j = (r : EReal)) (i : s.Idx) :
    ∃ r : ℝ, Host.scatterAdd d x idx upd i = (r : EReal) :=
  hostScatterAdd_real d x idx upd hx hu i

/-- The guarded inverse square root on arrays, read at an index: `select (D > Z) (rsqrt D) W` is a real number at `i`
    when `D i` and `W i` are and `Z i` is zero. -/
theorem select_rsqrt_real_at {s : Shape} {φ : FTy} (D Z W : FVec Ideal s φ) (i : s.Idx) (hx : ∃ r : ℝ, D i = (r : EReal))
    (hy : Z i = 0) (hz : ∃ r : ℝ, W i = (r : EReal)) :
    ∃ q : ℝ, select (cmpf .ogt D Z) (Host.rsqrt D) W i = (q : EReal) :=
  select_rsqrt_real (D i) (Z i) (W i) hx hy hz

end Cert.Lib.RealHost
end
-- ==== Proof.CountReal.lean ====
/-
  The clamped in-degree is a nonzero real number.

  The in-degree of a destination node is an accumulating scatter of ones into zeros: a real number at every node
  (zero plus as many ones as there are edges ending there).  Its maximum with one is therefore a real number that is at
  least one, in particular nonzero, so that dividing by it and multiplying by its reciprocal agree on every extended
  real.
-/
import Idealize.ShloMosaic.PureOps.Ideal
import Idealize.ShloMosaic.Lib.ValueIdx
import proofs.«159423_j20968030339505_2_alg».proof.Proof.LibRealHost

noncomputable section

namespace Cert.Sage

open Idealize.ShloMosaic Idealize.ShloMosaic.ValueIdx

/-- The single-precision word of one denotes the real number one. -/
theorem ofBits_one : Ideal.ofBits .f32 0x3F800000#32 = 1 := by
  simp [Ideal.ofBits, Ideal.ieee, -EReal.coe_mul]; norm_num

/-- The single-precision zero word denotes zero. -/
theorem ofBits_zero : Ideal.ofBits .f32 0x00000000#32 = 0 := by
  simp [Ideal.ofBits, Ideal.ieee]

/-- The maximum with one of a segment count (ones scattered into zeros) is a nonzero real at every index. -/
theorem clamped_count_real {s si su : Shape} (d : ScatterDims s si su) {w : ℕ} (idx : IVec si w)
    (z one : FVec Ideal s .f32) (o : FVec Ideal su .f32)
    (hz : ∀ i, z i = 0) (ho : ∀ j, o j = 1) (h1 : ∀ i, one i = 1) (i : s.Idx) :
    ∃ c : ℝ, c ≠ 0 ∧ maximumf (Host.scatterAdd d z idx o) one i = (c : EReal) := by
  obtain ⟨a, ha⟩ := Cert.Lib.RealHost.scatterAdd_real d z idx o
    (fun i => ⟨0, by rw [hz i]; rfl⟩) (fun j => ⟨1, by rw [ho j]; rfl⟩) i
  refine ⟨max a 1, ?_, ?_⟩
  · have : (1 : ℝ) ≤ max a 1 := le_max_right _ _
    intro h; rw [h] at this; norm_num at this
  · show max (Host.scatterAdd d z idx o i) (one i) = _
    rw [ha, h1 i, ← EReal.coe_one, ← EReal.coe_strictMono.monotone.map_max]

end Cert.Sage

end
-- ==== Proof.BridgeHost.lean ====
/-
  The host computations of the two programs are the same functions.

  Around its four dense kernels the kernel program gathers feature rows along an edge list and adds them up at the
  edges' targets; so does the reference.  The kernel program rounds the features to a shorter float format before the
  gather and widens them after it; on the extended reals both steps are the identity, so its neighbour sum IS the
  reference's, and likewise the classifier tail.  The kernel program keeps, per target node, the reciprocal
  1 / max(degree, 1) as a column, where the reference divides by max(degree, 1); the clamped degree is a real number
  that is at least one, so the column's entry is the reciprocal of a nonzero real.
-/
import proofs.«159423_j20968030339505_2_alg».proof.Proof.KHostDefs
import proofs.«159423_j20968030339505_2_alg».proof.Proof.Gen.ReferenceIdeal.Read
import proofs.«159423_j20968030339505_2_alg».proof.Proof.CountReal
import proofs.«159423_j20968030339505_2_alg».proof.Proof.RowDense
import Idealize.ShloMosaic.Lib.Pipeline.Value
import Idealize.ShloMosaic.Lib.ValueIdx

noncomputable section

namespace Cert.Bridge

open Idealize.ShloMosaic Idealize.ShloMosaic.ValueIdx Cert.Sage
open Cert.KernelIdeal.Host (kmsum kmsumB kinv ktail)
open Cert.ReferenceIdeal.Read

variable (x0 x1 : (⟨Cert.KernelIdeal.S100000x128, .f32⟩ : BufTy).Contents (Elt Ideal)) (x2 x3 : (⟨Cert.KernelIdeal.S2x1600000, .i32⟩ : BufTy).Contents (Elt Ideal)) (x4 : (⟨Cert.KernelIdeal.S2x100000, .i32⟩ : BufTy).Contents (Elt Ideal))
  (x5 x6 x7 x8 x9 x10 x11 x12 : (⟨Cert.KernelIdeal.S128x128, .f32⟩ : BufTy).Contents (Elt Ideal)) (x13 x14 x15 x16 : (⟨Cert.KernelIdeal.S128, .f32⟩ : BufTy).Contents (Elt Ideal))

/-- The kernel program's first-layer neighbour sum over the first edge list is the reference's. -/
theorem msum_v13 : kmsum x0 x2 = val_main_v13 (F := Ideal) x0 x2 := rfl

/-- The same over the second edge list. -/
theorem msum_v50 : kmsum x1 x3 = val_main_v50 (F := Ideal) x1 x3 := rfl

/-- The second-layer neighbour sum of the first layer's user rows over the first edge list. -/
theorem msumB_v89 : kmsumB (val_main_v74 (F := Ideal) x0 x1 x3 x7 x8 x14) x2 = val_main_v89 (F := Ideal) x0 x1 x2 x3 x7 x8 x14 := rfl

/-- The second-layer neighbour sum of the first layer's item rows over the second edge list. -/
theorem msumB_v126 : kmsumB (val_main_v75 (F := Ideal) x0 x1 x2 x5 x6 x13) x3 = val_main_v126 (F := Ideal) x0 x1 x2 x3 x5 x6 x13 := rfl

/-- The classifier tail. -/
theorem tail_v171 :
    ktail (val_main_v150 (F := Ideal) x0 x1 x2 x3 x5 x6 x7 x8 x11 x12 x13 x14 x16)
        (val_main_v151 (F := Ideal) x0 x1 x2 x3 x5 x6 x7 x8 x9 x10 x13 x14 x15) x4
      = val_main_v171 (F := Ideal) x0 x1 x2 x3 x4 x5 x6 x7 x8 x9 x10 x11 x12 x13 x14 x15 x16 := rfl

/-- The clamped degrees of the second layer are those of the first (the same edge lists). -/
theorem v95_eq : val_main_v95 (F := Ideal) x2 = val_main_v19 (F := Ideal) x2 := rfl
theorem v132_eq : val_main_v132 (F := Ideal) x3 = val_main_v56 (F := Ideal) x3 := rfl

/-- The clamped degree over the first edge list is a nonzero real at every node. -/
theorem v19_real (i : Cert.ReferenceIdeal.S100000.Idx) : ∃ c : ℝ, c ≠ 0 ∧ val_main_v19 (F := Ideal) x2 i = (c : EReal) := by
  have hz : ∀ i, val_main_v15 (F := Ideal) i = 0 := fun i => by
    rw [val_main_v15_apply, val_main_cst_2_apply]; exact ofBits_zero
  have ho : ∀ j, val_main_v14 (F := Ideal) j = 1 := fun j => by
    rw [val_main_v14_apply, val_main_cst_1_apply]; exact ofBits_one
  have h1 : ∀ i, val_main_v18 (F := Ideal) i = 1 := fun i => by
    rw [val_main_v18_apply, val_main_cst_3_apply]; exact ofBits_one
  exact clamped_count_real Cert.ReferenceIdeal.scatter_S100000_S1600000x1_S1600000_n_0_0_1 (val_main_v16 (F := Ideal) x2)
    (val_main_v15 (F := Ideal)) (val_main_v18 (F := Ideal)) (val_main_v14 (F := Ideal)) hz ho h1 i

/-- The clamped degree over the second edge list is a nonzero real at every node. -/
theorem v56_real (i : Cert.ReferenceIdeal.S100000.Idx) : ∃ c : ℝ, c ≠ 0 ∧ val_main_v56 (F := Ideal) x3 i = (c : EReal) :=
  v19_real x3 i

/-- The kernel program's clamped degree: ones added into zeros at the edges' targets, then the maximum with one. -/
def kcm (e : (⟨Cert.KernelIdeal.S2x1600000, .i32⟩ : BufTy).Contents (Elt Ideal)) : FVec Ideal Cert.KernelIdeal.S100000 .f32 := (maximumf (F := Ideal) (Host.scatterAdd (F := Ideal) Cert.KernelIdeal.scatter_S100000_S1600000x1_S1600000_n_0_0_1
          (broadcastInDim Cert.KernelIdeal.S100000 ![] Cert.KernelIdeal.Gen.bcast_S_S100000 (constant (F := Ideal) Cert.KernelIdeal.S_ .f32 0x00000000#32 : FVec Ideal Cert.KernelIdeal.S_ .f32) : FVec Ideal Cert.KernelIdeal.S100000 .f32)
          (broadcastInDim Cert.KernelIdeal.S1600000x1 ![0] Cert.KernelIdeal.Gen.bcast_S1600000_S1600000x1_0 (shapeCast Cert.KernelIdeal.S1600000 ((extractStridedSlice Cert.KernelIdeal.S1x1600000 ![1, 0] e Cert.KernelIdeal.Gen.slices_S2x1600000_S1x1600000_1_0 : IVec Cert.KernelIdeal.S1x1600000 32)) Cert.KernelIdeal.Gen.shapeCasts_S1x1600000_S1600000 : IVec Cert.KernelIdeal.S1600000 32) : IVec Cert.KernelIdeal.S1600000x1 32)
          (broadcastInDim Cert.KernelIdeal.S1600000 ![] Cert.KernelIdeal.Gen.bcast_S_S1600000 (constant (F := Ideal) Cert.KernelIdeal.S_ .f32 0x3F800000#32 : FVec Ideal Cert.KernelIdeal.S_ .f32) : FVec Ideal Cert.KernelIdeal.S1600000 .f32) : FVec Ideal Cert.KernelIdeal.S100000 .f32)
        (broadcastInDim Cert.KernelIdeal.S100000 ![] Cert.KernelIdeal.Gen.bcast_S_S100000 (constant (F := Ideal) Cert.KernelIdeal.S_ .f32 0x3F800000#32 : FVec Ideal Cert.KernelIdeal.S_ .f32) : FVec Ideal Cert.KernelIdeal.S100000 .f32) : FVec Ideal Cert.KernelIdeal.S100000 .f32)

/-- It is the reference's clamped degree. -/
theorem kcm_eq : kcm x2 = val_main_v19 (F := Ideal) x2 := rfl

/-- The kernel program's reciprocal column is the column of one over its clamped degree. -/
theorem kinv_unfold : kinv x2 = (broadcastInDim Cert.KernelIdeal.S100000x1 ![0] Cert.KernelIdeal.Gen.bcast_S100000_S100000x1_0
    (Host.divf (F := Ideal) (broadcastInDim Cert.KernelIdeal.S100000 ![] Cert.KernelIdeal.Gen.bcast_S_S100000
      (constant (F := Ideal) Cert.KernelIdeal.S_ .f32 0x3F800000#32 : FVec Ideal Cert.KernelIdeal.S_ .f32) : FVec Ideal Cert.KernelIdeal.S100000 .f32) (kcm x2) : FVec Ideal Cert.KernelIdeal.S100000 .f32) : FVec Ideal Cert.KernelIdeal.S100000x1 .f32) := rfl

/-- The host's quotient of two arrays, read at an index. -/
theorem hostDivf_apply {s : Shape} {φ : FTy} (a b : FVec Ideal s φ) (i : s.Idx) :
    Host.divf (F := Ideal) a b i = Ideal.div (a i) (b i) := rfl

/-- The kernel program's reciprocal column at a node is one over the clamped degree there. -/
theorem kinv_apply (r : Fin 100000) : kinv x2 (ix2 r (0 : Fin 1)) = Ideal.div 1 (kcm x2 (ix1 r)) := by
  have hone : (broadcastInDim Cert.KernelIdeal.S100000 ![] Cert.KernelIdeal.Gen.bcast_S_S100000
      (constant (F := Ideal) Cert.KernelIdeal.S_ .f32 0x3F800000#32 : FVec Ideal Cert.KernelIdeal.S_ .f32) : FVec Ideal Cert.KernelIdeal.S100000 .f32) (ix1 r) = 1 :=
    (broadcastInDim_apply _ Cert.KernelIdeal.Gen.bcast_S_S100000 _ (ix1 r) ix0 (fun a => a.elim0)).trans ofBits_one
  rw [kinv_unfold]
  generalize kcm x2 = y
  rw [broadcastInDim_apply _ Cert.KernelIdeal.Gen.bcast_S100000_S100000x1_0 _ (ix2 r (0 : Fin 1)) (ix1 r) (fun a => match a with
    | ⟨0, _⟩ => by show (r : ℕ) = if (100000 : Nat) = 1 then 0 else (r : ℕ); rw [if_neg (by decide)]), hostDivf_apply, hone]

theorem kinv_apply_v19 (r : Fin 100000) :
    kinv x2 (ix2 r (0 : Fin 1)) = Ideal.div 1 (val_main_v19 (F := Ideal) x2 (ix1 r)) := by
  rw [kinv_apply, kcm_eq]

theorem kinv_apply_v56 (r : Fin 100000) :
    kinv x3 (ix2 r (0 : Fin 1)) = Ideal.div 1 (val_main_v56 (F := Ideal) x3 (ix1 r)) :=
  kinv_apply_v19 x3 r

/-- So a neighbour-sum entry times the reciprocal column's entry is the reference's quotient. -/
theorem mean_v19 (a : EReal) (r : Fin 100000) :
    a * kinv x2 (ix2 r (0 : Fin 1)) = Ideal.div a (val_main_v19 (F := Ideal) x2 (ix1 r)) := by
  obtain ⟨c, hc, hv⟩ := v19_real x2 (ix1 r)
  rw [kinv_apply_v19, hv]
  exact mul_recip_eq_div a hc

theorem mean_v56 (a : EReal) (r : Fin 100000) :
    a * kinv x3 (ix2 r (0 : Fin 1)) = Ideal.div a (val_main_v56 (F := Ideal) x3 (ix1 r)) :=
  mean_v19 x3 a r

end Cert.Bridge

end
-- ==== Proof.Layers.lean ====
/-
  The four dense layers and the classifier, kernel program against reference.

  Each dense kernel leaves, in row r and lane q of its output array, the normalised and rectified row function
  of: row r of the neighbour sum times the reciprocal clamped degree of node r, row r of the destination features,
  the two weight matrices and the bias.  The reference's layer is the same row function of the neighbour sum divided by
  the clamped degree.  The neighbour sums agree (the same gather and accumulating scatter of the same rows), the
  clamped degree is a nonzero real, so product with the reciprocal and quotient agree, and the layers agree; the second
  layer's inputs are the first layer's outputs, and the classifier tail is the same function of the second layer's.
-/
import proofs.«159423_j20968030339505_2_alg».proof.Proof.KHost
import proofs.«159423_j20968030339505_2_alg».proof.Proof.Payload
import proofs.«159423_j20968030339505_2_alg».proof.Proof.Region0
import proofs.«159423_j20968030339505_2_alg».proof.Proof.Region1
import proofs.«159423_j20968030339505_2_alg».proof.Proof.Region2
import proofs.«159423_j20968030339505_2_alg».proof.Proof.Region3
import proofs.«159423_j20968030339505_2_alg».proof.Proof.RefLayer1
import proofs.«159423_j20968030339505_2_alg».proof.Proof.RefLayer2
import proofs.«159423_j20968030339505_2_alg».proof.Proof.RefLayer3
import proofs.«159423_j20968030339505_2_alg».proof.Proof.RefLayer4
import proofs.«159423_j20968030339505_2_alg».proof.Proof.BridgeHost

noncomputable section

namespace Cert.Layers

open Idealize.ShloMosaic Idealize.ShloMosaic.ValueIdx Idealize.ShloMosaic.TcCoe Idealize.SL.Sem Cert.Sage
open Cert.KernelIdeal Cert.KernelIdeal.Host Cert.KernelIdeal.Pay Cert.KernelIdeal.Region Cert.Bridge
open Cert.ReferenceIdeal.Layers

variable (m : (ℓ : Loc nD τ sig) → Buf (Elt Ideal) ℓ) (ρ : Dev nD → PrngReg) (c : Dev nD)

/-- The first layer's item rows. -/
theorem items1 : (Gen.W2 m ρ c (Proc.devRef .tc main_v38) : S100000x128.Idx → EReal) = Cert.ReferenceIdeal.Read.val_main_v75 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg13)) := by
  funext i
  obtain ⟨r, q, rfl⟩ : ∃ (r : Fin 100000) (q : Fin 128), i = ix2 r q := ⟨i 0, i 1, eq_ix2 i⟩
  rw [ref_layer1]
  refine (congrFun (Gen.W2_arr m ρ c 6) (ix2 r q)).trans ?_
  refine (region0_value pay0_apply (Gen.V1 m ρ) c r q).trans ?_
  dsimp only [msum0, inv0, xdst0, wl0, bias0, wr0]
  rw [V1_main_v37 m ρ c, V1_main_v10 m ρ c, V1_main_arg1 m ρ c, V1_main_arg5 m ρ c, V1_main_arg6 m ρ c, V1_main_arg13 m ρ c, msum_v13]
  exact congrArg (fun f => rowDense f _ _ _ _ q) (funext fun k => mean_v19 _ _ r)

/-- The first layer's user rows. -/
theorem users1 : (Gen.W4 m ρ c (Proc.devRef .tc main_v55) : S100000x128.Idx → EReal) = Cert.ReferenceIdeal.Read.val_main_v74 (F := Ideal) (m ((c : Thread nD τ).loc main_arg0)) (m ((c : Thread nD τ).loc main_arg1)) (m ((c : Thread nD τ).loc main_arg3)) (m ((c : Thread nD τ).loc main_arg7)) (m ((c : Thread nD τ).loc main_arg8)) (m ((c : Thread nD τ).loc main_arg14)) := by
  funext i
  obtain ⟨r, q, rfl⟩ : ∃ (r : Fin 100000) (q : Fin 128), i = ix2 r q := ⟨i 0, i 1, eq_ix2 i⟩
  rw [ref_layer2]
  refine (congrFun (Gen.W4_arr m ρ c 6) (ix2 r q)).trans ?_
  refine (region1_value pay1_apply (Gen.V3 m ρ) c r q).trans ?_
  dsimp only [msum1, inv1, xdst1, wl1, bias1, wr1]
  rw [V3_main_v54 m ρ c, V3_main_v21 m ρ c, V3_main_arg0 m ρ c, V3_main_arg7 m ρ c, V3_main_arg8 m ρ c, V3_main_arg14 m ρ c, msum_v50]
  exact congrArg (fun f => rowDense f _ _ _ _ q) (funext fun k => mean_v56 _ _ r)

/-- The second layer's item rows. -/
theorem items2 : (Gen.W6 m ρ c (Proc.devRef .tc main_v71) : S100000x128.Idx → EReal) = Cert.ReferenceIdeal.Read.val_main_v151 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg13)) (m ((c : Thread nD τ).loc main_arg14)) (m ((c : Thread nD τ).loc main_arg15)) := by
  funext i
  obtain ⟨r, q, rfl⟩ : ∃ (r : Fin 100000) (q : Fin 128), i = ix2 r q := ⟨i 0, i 1, eq_ix2 i⟩
  rw [ref_layer3, v95_eq]
  refine (congrFun (Gen.W6_arr m ρ c 6) (ix2 r q)).trans ?_
  refine (region2_value pay2_apply (Gen.V5 m ρ) c r q).trans ?_
  dsimp only [msum2, inv2, xdst2, wl2, bias2, wr2]
  rw [V5_main_v70 m ρ c, V5_main_v10 m ρ c, V5_main_v38 m ρ c, V5_main_arg9 m ρ c, V5_main_arg10 m ρ c, V5_main_arg15 m ρ c,
    users1 m ρ c, items1 m ρ c, msumB_v89]
  exact congrArg (fun f => rowDense f _ _ _ _ q) (funext fun k => mean_v19 _ _ r)

/-- The second layer's user rows. -/
theorem users2 : (Gen.W8 m ρ c (Proc.devRef .tc main_v87) : S100000x128.Idx → EReal) = Cert.ReferenceIdeal.Read.val_main_v150 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) (m ((c : Thread nD τ).loc main_arg13)) (m ((c : Thread nD τ).loc main_arg14)) (m ((c : Thread nD τ).loc main_arg16)) := by
  funext i
  obtain ⟨r, q, rfl⟩ : ∃ (r : Fin 100000) (q : Fin 128), i = ix2 r q := ⟨i 0, i 1, eq_ix2 i⟩
  rw [ref_layer4, v132_eq]
  refine (congrFun (Gen.W8_arr m ρ c 6) (ix2 r q)).trans ?_
  refine (region3_value pay3_apply (Gen.V7 m ρ) c r q).trans ?_
  dsimp only [msum3, inv3, xdst3, wl3, bias3, wr3]
  rw [V7_main_v86 m ρ c, V7_main_v21 m ρ c, V7_main_v55 m ρ c, V7_main_arg11 m ρ c, V7_main_arg12 m ρ c, V7_main_arg16 m ρ c,
    users1 m ρ c, items1 m ρ c, msumB_v126]
  exact congrArg (fun f => rowDense f _ _ _ _ q) (funext fun k => mean_v56 _ _ r)

/-- The kernel program's result is the reference's result term at the same arguments. -/
theorem result : (Gen.W9 m ρ c (Proc.devRef .tc main_v107) : S100000.Idx → EReal) = Cert.ReferenceIdeal.Read.val_main_v171 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  rw [W9_main_v107 m ρ c, users2 m ρ c, items2 m ρ c, tail_v171]

end Cert.Layers

end
-- ==== Proof.lean ====
/-
  The certificate: a two-layer heterogeneous SAGE network with a dot-product classifier, Pallas kernel program against
  its jnp reference, at the ideal instance.

  The three frame claims are the generated frames (the reference's is its generated run with the result dropped).
  The kernel program's idealization rewrote nothing, so the preservation claim is trivial.  The algebraic claim: the
  kernel program's run leaves its result at the last boundary of the fold of @main's buffer contents through its
  segments; that value is the reference's result term at the same arguments — layer by layer, each dense kernel's
  output array being the same row function of the same inputs as the reference's layer, where the kernel multiplies a
  neighbour sum by the reciprocal of the clamped in-degree and the reference divides by the clamped in-degree, a
  nonzero real number.
-/
import proofs.«159423_j20968030339505_2_alg».proof.Defs
import proofs.«159423_j20968030339505_2_alg».proof.Proof.Gen.Kernel
import proofs.«159423_j20968030339505_2_alg».proof.Proof.Gen.Kernel.Skeleton
import proofs.«159423_j20968030339505_2_alg».proof.Proof.Gen.Kernel.Launch
import proofs.«159423_j20968030339505_2_alg».proof.Proof.Gen.Kernel.Points
import proofs.«159423_j20968030339505_2_alg».proof.Proof.Gen.Kernel.Frame
import proofs.«159423_j20968030339505_2_alg».proof.Proof.Gen.KernelIdeal
import proofs.«159423_j20968030339505_2_alg».proof.Proof.Gen.KernelIdeal.Skeleton
import proofs.«159423_j20968030339505_2_alg».proof.Proof.Gen.KernelIdeal.Launch
import proofs.«159423_j20968030339505_2_alg».proof.Proof.Gen.KernelIdeal.Points
import proofs.«159423_j20968030339505_2_alg».proof.Proof.Gen.KernelIdeal.Frame
import proofs.«159423_j20968030339505_2_alg».proof.Proof.Gen.ReferenceIdeal
import proofs.«159423_j20968030339505_2_alg».proof.Proof.Gen.Pre_finite_inputs
import proofs.«159423_j20968030339505_2_alg».proof.Proof.Gen.ReferenceIdeal.Read
import proofs.«159423_j20968030339505_2_alg».proof.Proof.KRun
import proofs.«159423_j20968030339505_2_alg».proof.Proof.Layers
import Idealize.ShloMosaic.Adequacy
import Idealize.ShloMosaic.Init

noncomputable section

namespace Cert.Proof

open Idealize.ShloMosaic Idealize.ShloMosaic.TcCoe Idealize.SL.Sem

theorem claim : Cert.Claim := ⟨Cert.Kernel.Gen.facts, Cert.KernelIdeal.Gen.facts, Cert.ReferenceIdeal.Gen.facts, Cert.Pre_finite_inputs.Gen.facts, by
  refine ⟨fun m ρ _ => Cert.Kernel.Gen.frame m ρ, fun m ρ _ => Cert.KernelIdeal.Gen.frame m ρ, ?_, trivial, ?_⟩
  · exact fun m ρ _ => (θ_run Cert.ReferenceIdeal.defs _ _).mono (fun _ h c => (h c).2)
      (Cert.ReferenceIdeal.Value.run (F := Ideal) m ρ)
  · intro m ρ m' ρ' _ hagree
    refine ⟨fun c => Cert.KernelIdeal.Gen.W9 m ρ c (Proc.devRef .tc Cert.KernelIdeal.main_v107),
      Cert.KernelIdeal.Host.run_value (F := Ideal) m ρ, ?_⟩
    refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12, h13, h14, h15, h16⟩ := hagree c
    rw [Cert.ReferenceIdeal.Read.val_main_v171_eq, h0, h1, h2, h3, h4, h5, h6, h7, h8, h9, h10, h11, h12, h13, h14, h15, h16]
    exact (Cert.Layers.result m ρ c).symm⟩

end Cert.Proof

end
